-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000 : Shape := ⟨1, ![100000]⟩
abbrev S119 : Shape := ⟨1, ![119]⟩
abbrev S100000x64 : Shape := ⟨2, ![100000, 64]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000 : S_.BroadcastsInDim S100000 (![] : Fin 0 → Fin S100000.rank)
  reducesTo_S100000_S_d0 : S100000.ReducesTo [0] S_
  bcast_S_S119 : S_.BroadcastsInDim S119 (![] : Fin 0 → Fin S119.rank)
  reducesTo_S119_S_d0 : S119.ReducesTo [0] S_

variable [Facts]

def fn_part1 {F : FTy → Type} [FloatOps F] (main_v13 : IVec S_ 1) (main_v16 : IVec S119 1) : IVec S_ 1 :=
  let main_c_5 : IVec S_ 1 := constantI S_ 1 1#1
  let main_v17 : IVec S_ 1 := (fun x v => Host.reduce IntOp.andi x v reducesTo_S119_S_d0 h_S_) main_v16 main_c_5
  let main_v18 : IVec S_ 1 := andi main_v13 main_v17
  main_v18

def fn {F : FTy → Type} [FloatOps F] (main_arg0 : FVec F S100000x3 .f32) (main_arg1 : FVec F S100000 .f32) (main_arg2 : FVec F S100000 .f32) (main_arg3 : FVec F S119 .f32) (main_arg4 : IVec S100000x64 32) (main_arg5 : IVec S100000 32) (main_arg6 : IVec S100000x64 1) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S119 .f32 := Host.absf main_arg3
  let main_cst_4 : FVec F S_ .f32 := constant S_ .f32 0x7F800000#32
  let main_v15 : FVec F S119 .f32 := broadcastInDim S119 ![] bcast_S_S119 main_cst_4
  let main_v16 : IVec S119 1 := cmpf .olt main_v14 main_v15
  fn_part1 (F := F) main_v13 main_v16
-- ==== Kernel.lean ====
abbrev S100000x3 : Shape := ⟨2, ![100000, 3]⟩
abbrev S100000 : Shape := ⟨1, ![100000]⟩
abbrev S119 : Shape := ⟨1, ![119]⟩
abbrev S100000x64 : Shape := ⟨2, ![100000, 64]⟩
abbrev S100000x1 : Shape := ⟨2, ![100000, 1]⟩
abbrev S_ : Shape := ⟨0, ![]⟩
abbrev S100000x6 : Shape := ⟨2, ![100000, 6]⟩
abbrev S100000x64x1 : Shape := ⟨3, ![100000, 64, 1]⟩
abbrev S100000x64x6 : Shape := ⟨3, ![100000, 64, 6]⟩
abbrev S2x1x128 : Shape := ⟨3, ![2, 1, 128]⟩
abbrev S2000x6 : Shape := ⟨2, ![2000, 6]⟩
abbrev S2000x64 : Shape := ⟨2, ![2000, 64]⟩
abbrev S1x1x128 : Shape := ⟨3, ![1, 1, 128]⟩
abbrev S1x1 : Shape := ⟨2, ![1, 1]⟩
abbrev S200x6 : Shape := ⟨2, ![200, 6]⟩
abbrev S200x1 : Shape := ⟨2, ![200, 1]⟩
abbrev S200x64 : Shape := ⟨2, ![200, 64]⟩
abbrev S200 : Shape := ⟨1, ![200]⟩
abbrev S1 : Shape := ⟨1, ![1]⟩
abbrev S1x1x1 : Shape := ⟨3, ![1, 1, 1]⟩

abbrev nBuf : Space → Nat
  | .hbm => 59
  | .vmem => 18
  | .smem => 0
  | _ => 0

abbrev bufTy : (tb : Table) → Fin (tcTables nBuf tb) → BufTy
  | .hbm, ⟨0, _⟩ => ⟨S100000x3, .f32⟩
  | .hbm, ⟨1, _⟩ => ⟨S100000, .f32⟩
  | .hbm, ⟨2, _⟩ => ⟨S100000, .f32⟩
  | .hbm, ⟨3, _⟩ => ⟨S119, .f32⟩
  | .hbm, ⟨4, _⟩ => ⟨S100000x64, .i32⟩
  | .hbm, ⟨5, _⟩ => ⟨S100000, .i32⟩
  | .hbm, ⟨6, _⟩ => ⟨S100000x64, .i1⟩
  | .hbm, ⟨7, _⟩ => ⟨S100000x1, .f32⟩
  | .hbm, ⟨8, _⟩ => ⟨S100000, .f32⟩
  | .hbm, ⟨9, _⟩ => ⟨S100000x1, .f32⟩
  | .hbm, ⟨10, _⟩ => ⟨S100000, .f32⟩
  | .hbm, ⟨11, _⟩ => ⟨S100000x1, .f32⟩
  | .hbm, ⟨12, _⟩ => ⟨S100000, .f32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S100000, .f32⟩
  | .hbm, ⟨22, _⟩ => ⟨S100000x1, .f32⟩
  | .hbm, ⟨23, _⟩ => ⟨S100000x1, .f32⟩
  | .hbm, ⟨24, _⟩ => ⟨S100000x1, .f32⟩
  | .hbm, ⟨25, _⟩ => ⟨S100000x1, .f32⟩
  | .hbm, ⟨26, _⟩ => ⟨S100000x1, .f32⟩
  | .hbm, ⟨27, _⟩ => ⟨S100000x1, .f32⟩
  | .hbm, ⟨28, _⟩ => ⟨S100000x6, .f32⟩
  | .hbm, ⟨29, _⟩ => ⟨S_, .i32⟩
  | .hbm, ⟨30, _⟩ => ⟨S100000x64, .i32⟩
  | .hbm, ⟨31, _⟩ => ⟨S100000x64, .i1⟩
  | .hbm, ⟨32, _⟩ => ⟨S_, .i32⟩
  | .hbm, ⟨33, _⟩ => ⟨S100000x64, .i32⟩
  | .hbm, ⟨34, _⟩ => ⟨S100000x64, .i32⟩
  | .hbm, ⟨35, _⟩ => ⟨S100000x64, .i32⟩
  | .hbm, ⟨36, _⟩ => ⟨S100000x64x1, .i32⟩
  | .hbm, ⟨37, _⟩ => ⟨S100000x64x6, .f32⟩
  | .hbm, ⟨38, _⟩ => ⟨S100000x64x1, .f32⟩
  | .hbm, ⟨39, _⟩ => ⟨S100000x64, .f32⟩
  | .hbm, ⟨40, _⟩ => ⟨S100000x64x1, .f32⟩
  | .hbm, ⟨41, _⟩ => ⟨S100000x64, .f32⟩
  | .hbm, ⟨42, _⟩ => ⟨S100000x64x1, .f32⟩
  | .hbm, ⟨43, _⟩ => ⟨S100000x64, .f32⟩
  | .hbm, ⟨44, _⟩ => ⟨S100000x64x1, .f32⟩
  | .hbm, ⟨45, _⟩ => ⟨S100000x64, .f32⟩
  | .hbm, ⟨46, _⟩ => ⟨S100000x64x1, .f32⟩
  | .hbm, ⟨47, _⟩ => ⟨S100000x64, .f32⟩
  | .hbm, ⟨48, _⟩ => ⟨S100000x64x1, .f32⟩
  | .hbm, ⟨49, _⟩ => ⟨S100000x64, .f32⟩
  | .hbm, ⟨50, _⟩ => ⟨S100000x64, .i32⟩
  | .hbm, ⟨51, _⟩ => ⟨S2x1x128, .f32⟩
  | .hbm, ⟨52, _⟩ => ⟨S1x1x1, .f32⟩
  | .hbm, ⟨53, _⟩ => ⟨S_, .f32⟩
  | .hbm, ⟨54, _⟩ => ⟨S1x1x1, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S2000x6, .f32⟩
  | .local _ .vmem, ⟨1, _⟩ => ⟨S2000x6, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .i32⟩
  | .local _ .vmem, ⟨15, _⟩ => ⟨S2000x64, .i32⟩
  | .local _ .vmem, ⟨16, _⟩ => ⟨S1x1x128, .f32⟩
  | .local _ .vmem, ⟨17, _⟩ => ⟨S1x1x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst : Ref sig .tc := ⟨.hbm, 57, rfl⟩
abbrev main_v46 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 25], ![false, false]⟩

@[reducible] def k0_t1_loop : Scf.Loop 32 :=
  let c0_i32_1 : BitVec 32 := 0#32
  let c10_i32 : BitVec 32 := 10#32
  let v4 : BitVec 32 := Scalar.addi c0_i32_1 c10_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg11 : BitVec 32 := Scf.iv c0_i32_1 c1_i32 k0_t1
  let c200_i32 : BitVec 32 := 200#32
  let v13 : BitVec 32 := Scalar.muli arg11 c200_i32
  v13
def k0_off1 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c200_i32 : BitVec 32 := 200#32
  let v13 : BitVec 32 := Scalar.muli arg11 c200_i32
  let v14 : BitVec 32 := v13
  let v15 : Index := Scalar.indexCast v14
  let c0_8 : Index := 0#32
  ![v15.toNat, 0]
def k0_off2 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c200_i32 : BitVec 32 := 200#32
  let v13 : BitVec 32 := Scalar.muli arg11 c200_i32
  let v14 : BitVec 32 := v13
  let v24 : Index := Scalar.indexCast v14
  let c0_9 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2000x64 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  slices_S100000x3_S100000x1_0_0 : S100000x3.Slices ![0, 0] S100000x1
  shapeCasts_S100000x1_S100000 : S100000x1.ShapeCasts S100000
  slices_S100000x3_S100000x1_0_1 : S100000x3.Slices ![0, 1] S100000x1
  slices_S100000x3_S100000x1_0_2 : S100000x3.Slices ![0, 2] S100000x1
  bcast_S_S100000 : S_.BroadcastsInDim S100000 (![] : Fin 0 → Fin S100000.rank)
  bcast_S100000_S100000x1_0 : S100000.BroadcastsInDim S100000x1 (![0] : Fin 1 → Fin S100000x1.rank)
  concatenates_S100000x1_S100000x1_S100000x1_S100000x1_S100000x1_S100000x1_S100000x6_d1 : Shape.Concatenates [S100000x1, S100000x1, S100000x1, S100000x1, S100000x1, S100000x1] S100000x6 1
  bcast_S_S100000x64 : S_.BroadcastsInDim S100000x64 (![] : Fin 0 → Fin S100000x64.rank)
  bcast_S100000x64_S100000x64x1_0_1 : S100000x64.BroadcastsInDim S100000x64x1 (![0, 1] : Fin 2 → Fin S100000x64x1.rank)
  slices_S100000x64x6_S100000x64x1_0_0_0 : S100000x64x6.Slices ![0, 0, 0] S100000x64x1
  shapeCasts_S100000x64x1_S100000x64 : S100000x64x1.ShapeCasts S100000x64
  slices_S100000x64x6_S100000x64x1_0_0_1 : S100000x64x6.Slices ![0, 0, 1] S100000x64x1
  slices_S100000x64x6_S100000x64x1_0_0_2 : S100000x64x6.Slices ![0, 0, 2] S100000x64x1
  slices_S100000x64x6_S100000x64x1_0_0_3 : S100000x64x6.Slices ![0, 0, 3] S100000x64x1
  slices_S100000x64x6_S100000x64x1_0_0_4 : S100000x64x6.Slices ![0, 0, 4] S100000x64x1
  slices_S100000x64x6_S100000x64x1_0_0_5 : S100000x64x6.Slices ![0, 0, 5] S100000x64x1
  natLt_1_32 : 1 < 32
  inb_S1x1x128_S1x1x128_0_0_0 : ∀ a, (![0, 0, 0] : Fin 3 → Nat) a + S1x1x128.size a ≤ S1x1x128.size a
  h_S1x1x128 : 0 < S1x1x128.numel
  h_S200x6 : 0 < S200x6.numel
  shapeCasts_S200x6_S200x6 : S200x6.ShapeCasts S200x6
  slices_S200x6_o0_0_S200x1 : S200x6.Slices ![0, 0] S200x1
  slices_S200x6_o0_1_S200x1 : S200x6.Slices ![0, 1] S200x1
  slices_S200x6_o0_2_S200x1 : S200x6.Slices ![0, 2] S200x1
  slices_S200x6_o0_3_S200x1 : S200x6.Slices ![0, 3] S200x1
  slices_S200x6_o0_4_S200x1 : S200x6.Slices ![0, 4] S200x1
  slices_S200x6_o0_5_S200x1 : S200x6.Slices ![0, 5] S200x1
  h_S200x64 : 0 < S200x64.numel
  shapeCasts_S200x64_S200x64 : S200x64.ShapeCasts S200x64
  broadcasts_S200x1_S200x64 : S200x1.Broadcasts S200x64
  reduces_S200x64_S200 : S200x64.Reduces [1] S200
  shapeCasts_S200_S200x1 : S200.ShapeCasts S200x1
  reduces_S200x1_S1 : S200x1.Reduces [0] S1
  shapeCasts_S1_S1x1 : S1.ShapeCasts S1x1
  shapeCasts_S1x1x128_S1x1x128 : S1x1x128.ShapeCasts S1x1x128
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  slices_S2x1x128_S1x1x1_0_0_0 : S2x1x128.Slices ![0, 0, 0] S1x1x1
  shapeCasts_S1x1x1_S_ : S1x1x1.ShapeCasts S_
  slices_S2x1x128_S1x1x1_1_0_0 : S2x1x128.Slices ![1, 0, 0] S1x1x1
  gather_S119_S100000x1_S100000_n_0_n_n_0_1_1_wf : GatherDims.WF S119 S100000x1 S100000 [] [0] [] [0] [] 1 ![1]
  gather_S100000x6_S100000x64x1_S100000x64x6_2_0_n_n_0_2_16_wf : GatherDims.WF S100000x6 S100000x64x1 S100000x64x6 [2] [0] [] [0] [] 2 ![1, 6]
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S200x6.size a ≤ S2000x6.size a
  k0_off2_inb : ∀ k0_t1 : Fin k0_t1_loop.trips, ∀ a, (k0_off2 k0_t1) a + S200x64.size a ≤ S2000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x6.size a ≤ S100000x6.size a
  hwx0_0 : ∀ i : grid0.Coords, EltTy.bits .f32 = 32 ∨ (Rect.block (s := S100000x6) S2000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S100000x64.size a
  hwx0_7 : ∀ i : grid0.Coords, EltTy.bits .i32 = 32 ∨ (Rect.block (s := S100000x64) S2000x64.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S2x1x128.size a
  hwx0_8 : ∀ i : grid0.Coords, EltTy.bits .f32 = 32 ∨ (Rect.block (s := S2x1x128) S1x1x128.size (cc0_transform_8 i) (hinb0_8 i)).WholeWords (EltTy.packing .f32)

variable [Facts₀]

def gather_S119_S100000x1_S100000_n_0_n_n_0_1_1 : GatherDims S119 S100000x1 S100000 where
  offsetDims := []
  collapsedSliceDims := [0]
  operandBatchingDims := []
  startIndicesBatchingDims := []
  startIndexMap := [0]
  indexVectorDim := 1
  sliceSizes := ![1]
  wf := gather_S119_S100000x1_S100000_n_0_n_n_0_1_1_wf
def gather_S100000x6_S100000x64x1_S100000x64x6_2_0_n_n_0_2_16 : GatherDims S100000x6 S100000x64x1 S100000x64x6 where
  offsetDims := [2]
  collapsedSliceDims := [0]
  operandBatchingDims := []
  startIndicesBatchingDims := []
  startIndexMap := [0]
  indexVectorDim := 2
  sliceSizes := ![1, 6]
  wf := gather_S100000x6_S100000x64x1_S100000x64x6_2_0_n_n_0_2_16_wf

abbrev win0_0 : Pipeline.Window sig grid0 :=
  Pipeline.Window.ofSpec (Memref.whole main_v19) S2000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S2000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v36) S2000x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v38) S2000x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v39) S2000x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v40) S1x1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x3 : Shape := ⟨2, ![100000, 3]⟩
abbrev S100000 : Shape := ⟨1, ![100000]⟩
abbrev S119 : Shape := ⟨1, ![119]⟩
abbrev S100000x64 : Shape := ⟨2, ![100000, 64]⟩
abbrev S_ : Shape := ⟨0, ![]⟩
abbrev S100000x64x1 : Shape := ⟨3, ![100000, 64, 1]⟩
abbrev S100000x64x3 : Shape := ⟨3, ![100000, 64, 3]⟩
abbrev S100000x1x3 : Shape := ⟨3, ![100000, 1, 3]⟩
abbrev S100000x1 : Shape := ⟨2, ![100000, 1]⟩

abbrev nBuf : Space → Nat
  | .hbm => 134
  | .vmem => 0
  | .smem => 0
  | _ => 0

abbrev hbmTy0_0 (i : Nat) : BufTy := match i % 128 with
  | 0 => ⟨S100000x3, .f32⟩
  | 1 => ⟨S100000, .f32⟩
  | 2 => ⟨S100000, .f32⟩
  | 3 => ⟨S119, .f32⟩
  | 4 => ⟨S100000x64, .i32⟩
  | 5 => ⟨S100000, .i32⟩
  | 6 => ⟨S100000x64, .i1⟩
  | 7 => ⟨S_, .i32⟩
  | 8 => ⟨S100000x64, .i32⟩
  | 9 => ⟨S100000x64, .i1⟩
  | 10 => ⟨S_, .i32⟩
  | 11 => ⟨S100000x64, .i32⟩
  | 12 => ⟨S100000x64, .i32⟩
  | 13 => ⟨S100000x64, .i32⟩
  | 14 => ⟨S100000x64x1, .i32⟩
  | 15 => ⟨S100000x64x3, .f32⟩
  | 16 => ⟨S100000x1x3, .f32⟩
  | 17 => ⟨S100000x64x3, .f32⟩
  | 18 => ⟨S100000x64x3, .f32⟩
  | 19 => ⟨S100000x64x3, .f32⟩
  | 20 => ⟨S_, .f32⟩
  | 21 => ⟨S100000x64, .f32⟩
  | 22 => ⟨S_, .f32⟩
  | 23 => ⟨S_, .f32⟩
  | 24 => ⟨S100000x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S100000x1, .f32⟩
  | 31 => ⟨S_, .i32⟩
  | 32 => ⟨S100000x64, .i32⟩
  | 33 => ⟨S100000x64, .i1⟩
  | 34 => ⟨S_, .i32⟩
  | 35 => ⟨S100000x64, .i32⟩
  | 36 => ⟨S100000x64, .i32⟩
  | 37 => ⟨S100000x64, .i32⟩
  | 38 => ⟨S100000x64x1, .i32⟩
  | 39 => ⟨S100000x64, .f32⟩
  | 40 => ⟨S_, .f32⟩
  | 41 => ⟨S_, .f32⟩
  | 42 => ⟨S100000, .f32⟩
  | 43 => ⟨S100000, .f32⟩
  | 44 => ⟨S100000x1, .f32⟩
  | 45 => ⟨S_, .i32⟩
  | 46 => ⟨S100000x64, .i32⟩
  | 47 => ⟨S100000x64, .i1⟩
  | 48 => ⟨S_, .i32⟩
  | 49 => ⟨S100000x64, .i32⟩
  | 50 => ⟨S100000x64, .i32⟩
  | 51 => ⟨S100000x64, .i32⟩
  | 52 => ⟨S100000x64x1, .i32⟩
  | 53 => ⟨S100000x64, .f32⟩
  | 54 => ⟨S_, .f32⟩
  | 55 => ⟨S_, .f32⟩
  | 56 => ⟨S100000x64, .f32⟩
  | 57 => ⟨S100000x64, .f32⟩
  | 58 => ⟨S_, .f32⟩
  | 59 => ⟨S100000x1, .f32⟩
  | 60 => ⟨S100000x1, .f32⟩
  | 61 => ⟨S100000x64, .f32⟩
  | 62 => ⟨S100000x64, .f32⟩
  | 63 => ⟨S100000x64, .f32⟩
  | 64 => ⟨S100000x64, .f32⟩
  | 65 => ⟨S100000x64, .f32⟩
  | 66 => ⟨S100000x64, .f32⟩
  | 67 => ⟨S100000x64, .f32⟩
  | 68 => ⟨S100000x64, .f32⟩
  | 69 => ⟨S100000x64, .f32⟩
  | 70 => ⟨S100000x64, .f32⟩
  | 71 => ⟨S_, .f32⟩
  | 72 => ⟨S_, .f32⟩
  | 73 => ⟨S100000x64, .f32⟩
  | 74 => ⟨S100000x64, .f32⟩
  | 75 => ⟨S100000x64, .f32⟩
  | 76 => ⟨S_, .i32⟩
  | 77 => ⟨S100000, .i32⟩
  | 78 => ⟨S100000, .i1⟩
  | 79 => ⟨S_, .i32⟩
  | 80 => ⟨S100000, .i32⟩
  | 81 => ⟨S100000, .i32⟩
  | 82 => ⟨S100000, .i32⟩
  | 83 => ⟨S100000x1, .i32⟩
  | 84 => ⟨S100000, .f32⟩
  | 85 => ⟨S100000x1, .f32⟩
  | 86 => ⟨S_, .f32⟩
  | 87 => ⟨S100000x1, .f32⟩
  | 88 => ⟨S100000x1, .f32⟩
  | 89 => ⟨S_, .i32⟩
  | 90 => ⟨S100000x64, .i32⟩
  | 91 => ⟨S100000x64, .i1⟩
  | 92 => ⟨S_, .i32⟩
  | 93 => ⟨S100000x64, .i32⟩
  | 94 => ⟨S100000x64, .i32⟩
  | 95 => ⟨S100000x64, .i32⟩
  | 96 => ⟨S100000x64x1, .i32⟩
  | 97 => ⟨S100000x64, .f32⟩
  | 98 => ⟨S100000x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S100000x64, .f32⟩
  | 108 => ⟨S100000x64, .f32⟩
  | 109 => ⟨S100000x64, .f32⟩
  | 110 => ⟨S100000x64, .f32⟩
  | 111 => ⟨S100000x64, .f32⟩
  | 112 => ⟨S100000x64, .f32⟩
  | 113 => ⟨S100000x64, .f32⟩
  | 114 => ⟨S100000x64, .f32⟩
  | 115 => ⟨S100000x64, .f32⟩
  | 116 => ⟨S100000x64, .f32⟩
  | 117 => ⟨S100000x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x64, .f32⟩
  | 127 => ⟨S100000x64, .f32⟩
  | _ => ⟨S100000x3, .f32⟩

abbrev hbmTy0_1 (i : Nat) : BufTy := match i % 128 with
  | 0 => ⟨S100000x64, .f32⟩
  | 1 => ⟨S100000x64, .f32⟩
  | 2 => ⟨S_, .f32⟩
  | 3 => ⟨S_, .f32⟩
  | 4 => ⟨S_, .f32⟩
  | 5 => ⟨S_, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_call1_v0 : Ref sig .tc := ⟨.hbm, 41, rfl⟩
abbrev main_call1_v1 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_call2_v0 : Ref sig .tc := ⟨.hbm, 55, rfl⟩
abbrev main_call2_v1 : Ref sig .tc := ⟨.hbm, 56, rfl⟩
abbrev main_v33 : Ref sig .tc := ⟨.hbm, 57, rfl⟩
abbrev main_cst_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_call3_v0 : Ref sig .tc := ⟨.hbm, 72, rfl⟩
abbrev main_call3_v1 : Ref sig .tc := ⟨.hbm, 73, rfl⟩
abbrev main_v46 : Ref sig .tc := ⟨.hbm, 74, rfl⟩
abbrev main_v47 : Ref sig .tc := ⟨.hbm, 75, rfl⟩
abbrev main_c_11 : Ref sig .tc := ⟨.hbm, 76, rfl⟩
abbrev main_v48 : Ref sig .tc := ⟨.hbm, 77, rfl⟩
abbrev main_v49 : Ref sig .tc := ⟨.hbm, 78, rfl⟩
abbrev main_c_12 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_13 : Ref sig .tc := ⟨.hbm, 86, rfl⟩
abbrev main_v56 : Ref sig .tc := ⟨.hbm, 87, rfl⟩
abbrev main_v57 : Ref sig .tc := ⟨.hbm, 88, rfl⟩
abbrev main_c_14 : Ref sig .tc := ⟨.hbm, 89, rfl⟩
abbrev main_v58 : Ref sig .tc := ⟨.hbm, 90, rfl⟩
abbrev main_v59 : Ref sig .tc := ⟨.hbm, 91, rfl⟩
abbrev main_c_15 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_16 : Ref sig .tc := ⟨.hbm, 101, rfl⟩
abbrev main_v68 : Ref sig .tc := ⟨.hbm, 102, rfl⟩
abbrev main_v69 : Ref sig .tc := ⟨.hbm, 103, rfl⟩
abbrev main_cst_17 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_18 : Ref sig .tc := ⟨.hbm, 120, rfl⟩
abbrev main_v85 : Ref sig .tc := ⟨.hbm, 121, rfl⟩
abbrev main_v86 : Ref sig .tc := ⟨.hbm, 122, rfl⟩
abbrev main_cst_19 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_20 : Ref sig .tc := ⟨.hbm, 130, rfl⟩
abbrev main_v93 : Ref sig .tc := ⟨.hbm, 131, rfl⟩
abbrev main_cst_21 : Ref sig .tc := ⟨.hbm, 132, rfl⟩
abbrev main_v94 : Ref sig .tc := ⟨.hbm, 133, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  bcast_S100000x64_S100000x64x1_0_1 : S100000x64.BroadcastsInDim S100000x64x1 (![0, 1] : Fin 2 → Fin S100000x64x1.rank)
  bcast_S100000x3_S100000x1x3_0_2 : S100000x3.BroadcastsInDim S100000x1x3 (![0, 2] : Fin 2 → Fin S100000x1x3.rank)
  bcast_S100000x1x3_S100000x64x3_0_1_2 : S100000x1x3.BroadcastsInDim S100000x64x3 (![0, 1, 2] : Fin 3 → Fin S100000x64x3.rank)
  reducesTo_S100000x64x3_S100000x64_d2 : S100000x64x3.ReducesTo [2] S100000x64
  h_S_ : 0 < S_.numel
  bcast_S100000_S100000x1_0 : S100000.BroadcastsInDim S100000x1 (![0] : Fin 1 → Fin S100000x1.rank)
  bcast_S_S100000 : S_.BroadcastsInDim S100000 (![] : Fin 0 → Fin S100000.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  reducesTo_S100000x64_S_d0_1 : S100000x64.ReducesTo [0, 1] S_
  gather_S100000x3_S100000x64x1_S100000x64x3_2_0_n_n_0_2_13_wf : GatherDims.WF S100000x3 S100000x64x1 S100000x64x3 [2] [0] [] [0] [] 2 ![1, 3]
  gather_S100000_S100000x64x1_S100000x64_n_0_n_n_0_2_1_wf : GatherDims.WF S100000 S100000x64x1 S100000x64 [] [0] [] [0] [] 2 ![1]
  gather_S119_S100000x1_S100000_n_0_n_n_0_1_1_wf : GatherDims.WF S119 S100000x1 S100000 [] [0] [] [0] [] 1 ![1]

variable [Facts₀]

def gather_S100000x3_S100000x64x1_S100000x64x3_2_0_n_n_0_2_13 : GatherDims S100000x3 S100000x64x1 S100000x64x3 where
  offsetDims := [2]
  collapsedSliceDims := [0]
  operandBatchingDims := []
  startIndicesBatchingDims := []
  startIndexMap := [0]
  indexVectorDim := 2
  sliceSizes := ![1, 3]
  wf := gather_S100000x3_S100000x64x1_S100000x64x3_2_0_n_n_0_2_13_wf
def gather_S100000_S100000x64x1_S100000x64_n_0_n_n_0_2_1 : GatherDims S100000 S100000x64x1 S100000x64 where
  offsetDims := []
  collapsedSliceDims := [0]
  operandBatchingDims := []
  startIndicesBatchingDims := []
  startIndexMap := [0]
  indexVectorDim := 2
  sliceSizes := ![1]
  wf := gather_S100000_S100000x64x1_S100000x64_n_0_n_n_0_2_1_wf
def gather_S119_S100000x1_S100000_n_0_n_n_0_1_1 : GatherDims S119 S100000x1 S100000 where
  offsetDims := []
  collapsedSliceDims := [0]
  operandBatchingDims := []
  startIndicesBatchingDims := []
  startIndexMap := [0]
  indexVectorDim := 1
  sliceSizes := ![1]
  wf := gather_S119_S100000x1_S100000_n_0_n_n_0_1_1_wf

class Facts : Prop extends Facts₀ where

variable [Facts]
-- ==== Proof.KernelKit.lean ====
/-
  The program's @main is forty-four host operations (slices, reshapes, the two gathers, the concatenation that packs
  the six per-atom features into one table), then the one pipelined region on a 2 x 25 grid, then seven host
  operations that add the two per-core partial sums and scale. This module states what the region finds in every
  buffer when it is entered (the contents after the first stretch of host operations), reduces @main to the region
  continued by the last stretch, shows that the last stretch neither allocates nor writes an array of the region,
  that no host operation writes an argument array, what block of its array each input window holds at a grid point,
  and when the body's one branch (the reset at the first step of each core's row of 25) is taken.
-/
import proofs.«180775_j47991964566172_2_alg».proof.Proof.Gen.Kernel.Launch
import proofs.«180775_j47991964566172_2_alg».proof.Proof.Gen.Kernel.Skeleton
import proofs.«180775_j47991964566172_2_alg».proof.Proof.Gen.Kernel.Points
import proofs.«180775_j47991964566172_2_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The contents of core `c`'s buffers when the region is entered: after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the first stretch of host operations, the region, the last stretch: it reduces to the region continued
    by the last stretch, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The last stretch touches only the region's arrays and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the region: each operation writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does one after it: the argument ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does one after it: the argument ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does one after it: the argument ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does one after it: the argument ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does one after it: the argument ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does one after it: the argument ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does one after it: the argument ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, for any proof data whose array is the
    region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, for any proof data whose array is the
    region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, for any proof data whose array is the
    region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, for any proof data whose array is the
    region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, for any proof data whose array is the
    region-entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every bypassing buffer as the last stretch leaves it, the argument arrays end as
    launched: none is an array of the region, and no host operation writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c))⟩) h

/-! ## The body's branch -/

/-- The condition of the body's one branch: the second grid coordinate (the step within a core's row) is zero. -/
abbrev cond0_0 (i : grid0.Coords) : Prop := (Scalar.cmpi .ne (Scalar.extui (Scalar.cmpi .eq (BitVec.ofNat 32 (i 1).val) 0#32)) 0#32) = 1#1
/-- Over the fifty points in row-major order it holds exactly at the multiples of 25. -/
theorem hcond0_0 : ∀ t : Fin cfg0.N, cond0_0 (grid0.coords t) ↔ t.val % 25 = 0 :=
  (by decide +kernel : ∀ t : Fin grid0.N, cond0_0 (grid0.coords t) ↔ t.val % 25 = 0)

/-! ## The staging memrefs the body is called with -/

/-- One staging buffer of the output window, through which its contents are stated. -/
abbrev VO0_8 : View sig .tc .vmem S1x1x128 .f32 := (Memref.whole cc0_stg8_0 : Memref sig .tc .vmem S1x1x128 .f32).view
abbrev ms0_0 (t : Fin cfg0.N) : Memref sig .tc .vmem S2000x6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2000x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2000x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x64 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128 .f32 := win0_8.stage (cfg0.slots t 8)
abbrev hs0_8 (t : Fin cfg0.N) : (ms0_8 t).IsWhole := hstage0_8 ((cfg0.slots t 8).cast nbuf0_8)

end Cert.Kernel.Hand

end
-- ==== Proof.KernelRunA.lean ====
/-
  The kernel body run once, symbolically, on any nine whole staging buffers, at a grid point where the reset branch IS taken (the first step of a core's row): the output buffer may hold anything on entry.
  The eight input buffers are read and handed back unchanged; the counted loop of ten chunks goes through by its
  invariant (the carried 1x1 accumulator as a recursion on the chunk number); what the stores leave in the output
  buffer is a list of pieces that the run itself finds.
-/
import proofs.«180775_j47991964566172_2_alg».proof.Proof.KernelKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the body's stores leave in the output buffer in this case (last store first), with the proof that the
    body runs to its continuation holding the inputs as they were and the output buffer with those pieces written. -/
noncomputable def kernelRun0_A (c : Dev nD) (i : grid0.Coords) (arg2 : Memref sig .tc .vmem S2000x6 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S2000x64 .i32) (harg9 : arg9.IsWhole) (arg10 : Memref sig .tc .vmem S1x1x128 .f32) (harg10 : arg10.IsWhole) (hc0 : cond0_0 i)
    (x0 : Vec F S2000x6 .f32) (x1 x2 x3 x4 x5 x6 : Vec F S2000x64 .f32) (x7 : Vec F S2000x64 .i32) :
    { L8 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Cert.Kernel.Hand

end
-- ==== Proof.KernelRunB.lean ====
/-
  The kernel body run once, symbolically, on any nine whole staging buffers, at a grid point where the reset branch is NOT taken: the output buffer holds the running partial sum on entry.
  The eight input buffers are read and handed back unchanged; the counted loop of ten chunks goes through by its
  invariant (the carried 1x1 accumulator as a recursion on the chunk number); what the stores leave in the output
  buffer is a list of pieces that the run itself finds.
-/
import proofs.«180775_j47991964566172_2_alg».proof.Proof.KernelRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the body's stores leave in the output buffer in this case (last store first), with the proof that the
    body runs to its continuation holding the inputs as they were and the output buffer with those pieces written. -/
noncomputable def kernelRun0_B (c : Dev nD) (i : grid0.Coords) (arg2 : Memref sig .tc .vmem S2000x6 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S2000x64 .i32) (harg9 : arg9.IsWhole) (arg10 : Memref sig .tc .vmem S1x1x128 .f32) (harg10 : arg10.IsWhole) (hc0 : ¬cond0_0 i)
    (x0 : Vec F S2000x6 .f32) (x1 x2 x3 x4 x5 x6 : Vec F S2000x64 .f32) (x7 : Vec F S2000x64 .i32) (xo8 : Vec F S1x1x128 .f32) :
    { L8 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Cert.Kernel.Hand

end
-- ==== Proof.KernelFrame.lean ====
/-
  The frame of the program: every execution ends, faults nowhere, and leaves the argument arrays unchanged.
  The output window's block depends on the core coordinate only, so its staging buffer is an accumulator carried
  across the 25 steps of a core's row: reset and added to at the first step, added to at the later ones, written
  back after the last. What that buffer holds after each grid point is a recursion on the point (`outsAt0`); the
  proof data, the body's obligation at every point (one run per case of the branch), and the launch follow.
-/
import proofs.«180775_j47991964566172_2_alg».proof.Proof.KernelRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the reset case the body's stores cover the output block. -/
theorem cover0_A_8 (c : Dev nD) (i : grid0.Coords) (arg2 : Memref sig .tc .vmem S2000x6 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S2000x64 .i32) (harg9 : arg9.IsWhole) (arg10 : Memref sig .tc .vmem S1x1x128 .f32) (harg10 : arg10.IsWhole) (hc0 : cond0_0 i)
    (x0 : Vec F S2000x6 .f32) (x1 x2 x3 x4 x5 x6 : Vec F S2000x64 .f32) (x7 : Vec F S2000x64 .i32) (y : S1x1x128.Idx) :
    ∃ pc ∈ (kernelRun0_A c i arg2 harg2 arg3 harg3 arg4 harg4 arg5 harg5 arg6 harg6 arg7 harg7 arg8 harg8 arg9 harg9 arg10 harg10 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5 x6 x7).1 S1x1x128.size (by sl_kernel_rfl) y

/-- What the reset case leaves in the output buffer: its pieces read back. -/
def out0_A_8 (c : Dev nD) (i : grid0.Coords) (arg2 : Memref sig .tc .vmem S2000x6 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S2000x64 .i32) (harg9 : arg9.IsWhole) (arg10 : Memref sig .tc .vmem S1x1x128 .f32) (harg10 : arg10.IsWhole) (hc0 : cond0_0 i)
    (x0 : Vec F S2000x6 .f32) (x1 x2 x3 x4 x5 x6 : Vec F S2000x64 .f32) (x7 : Vec F S2000x64 .i32) : Vec F S1x1x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 hc0 x0 x1 x2 x3 x4 x5 x6 x7).1)

/-- In the other case too. -/
theorem cover0_B_8 (c : Dev nD) (i : grid0.Coords) (arg2 : Memref sig .tc .vmem S2000x6 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S2000x64 .i32) (harg9 : arg9.IsWhole) (arg10 : Memref sig .tc .vmem S1x1x128 .f32) (harg10 : arg10.IsWhole) (hc0 : ¬cond0_0 i)
    (x0 : Vec F S2000x6 .f32) (x1 x2 x3 x4 x5 x6 : Vec F S2000x64 .f32) (x7 : Vec F S2000x64 .i32) (xo8 : Vec F S1x1x128 .f32) (y : S1x1x128.Idx) :
    ∃ pc ∈ (kernelRun0_B c i arg2 harg2 arg3 harg3 arg4 harg4 arg5 harg5 arg6 harg6 arg7 harg7 arg8 harg8 arg9 harg9 arg10 harg10 hc0 x0 x1 x2 x3 x4 x5 x6 x7 xo8).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 x6 x7 xo8).1 S1x1x128.size (by sl_kernel_rfl) y

/-- What the accumulating case leaves in the output buffer, given what it held on entry. -/
def out0_B_8 (c : Dev nD) (i : grid0.Coords) (arg2 : Memref sig .tc .vmem S2000x6 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S2000x64 .i32) (harg9 : arg9.IsWhole) (arg10 : Memref sig .tc .vmem S1x1x128 .f32) (harg10 : arg10.IsWhole) (hc0 : ¬cond0_0 i)
    (x0 : Vec F S2000x6 .f32) (x1 x2 x3 x4 x5 x6 : Vec F S2000x64 .f32) (x7 : Vec F S2000x64 .i32) (xo8 : Vec F S1x1x128 .f32) : Vec F S1x1x128 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 hc0 x0 x1 x2 x3 x4 x5 x6 x7 xo8).1)

/-! ## The accumulator point by point -/

/-- What the output buffer holds after the body at position `n` of the grid's row-major order: at a multiple of 25 the
    reset case run on the point's input blocks; otherwise the accumulating case run on them and on what position
    `n - 1` left (the buffer is not written back in between). -/
def outsAt0 (c : Dev nD) : (n : ℕ) → n < cfg0.N → Vec F S1x1x128 .f32
  | 0, hn => out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 25 = 0 then
      out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))

theorem outsAt0_A (c : Dev nD) (t : Fin cfg0.N) (h0 : t.val % 25 = 0) :
    outsAt0 m c t.val t.isLt = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

theorem outsAt0_B (c : Dev nD) (t : Fin cfg0.N) (h0 : ¬t.val % 25 = 0) :
    outsAt0 m c t.val t.isLt = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays are the region-entry contents; after the body each input buffer holds its block and the output buffer
    the accumulator; the invariant is the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- Away from the multiples of 25 the output buffer holds on entry what the body left at the point before: it was not
    written back in between. -/
theorem before0_8_B (c : Dev nD) (t : Fin cfg0.N) (h0 : ¬t.val % 25 = 0) (d) :
    (dats m 0 c).before 8 t d = (outsAt0 m c (t.val - 1) (Nat.lt_of_le_of_lt (Nat.sub_le _ _) t.isLt)) := by
  have hN : t.val < 50 := lt_of_lt_of_eq t.isLt (show cfg0.N = 50 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point: the inputs' buffers hold their blocks; the point's position modulo 25 says which case it is
    in; in the accumulating case the output buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 50 := lt_of_lt_of_eq t.isLt (show cfg0.N = 50 from N_0)
  by_cases h0 : t.val % 25 = 0
  · rw [outsAt0_A m c t h0]
    unfold out0_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_A_8 c _ _ _ _ _ _ _ _ _ _ _ _ _ _ _ _ _ _ _ _ _ _ _ _ _ _ _ _)
  · rw [outsAt0_B m c t h0]
    simp only [before0_8_B m c t h0]
    unfold out0_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_B_8 c _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end every array of the region holds what the proof data
    says and every other buffer is as the last stretch of host operations leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Hand

end
-- ==== Proof.KernelIdealKit.lean ====
/-
  The program's @main is forty-four host operations (slices, reshapes, the two gathers, the concatenation that packs
  the six per-atom features into one table), then the one pipelined region on a 2 x 25 grid, then seven host
  operations that add the two per-core partial sums and scale. This module states what the region finds in every
  buffer when it is entered (the contents after the first stretch of host operations), reduces @main to the region
  continued by the last stretch, shows that the last stretch neither allocates nor writes an array of the region,
  that no host operation writes an argument array, what block of its array each input window holds at a grid point,
  and when the body's one branch (the reset at the first step of each core's row of 25) is taken.
-/
import proofs.«180775_j47991964566172_2_alg».proof.Proof.Gen.KernelIdeal.Launch
import proofs.«180775_j47991964566172_2_alg».proof.Proof.Gen.KernelIdeal.Skeleton
import proofs.«180775_j47991964566172_2_alg».proof.Proof.Gen.KernelIdeal.Points
import proofs.«180775_j47991964566172_2_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The contents of core `c`'s buffers when the region is entered: after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the first stretch of host operations, the region, the last stretch: it reduces to the region continued
    by the last stretch, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The last stretch touches only the region's arrays and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the region: each operation writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does one after it: the argument ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does one after it: the argument ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does one after it: the argument ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does one after it: the argument ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does one after it: the argument ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does one after it: the argument ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does one after it: the argument ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, for any proof data whose array is the
    region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, for any proof data whose array is the
    region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, for any proof data whose array is the
    region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, for any proof data whose array is the
    region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, for any proof data whose array is the
    region-entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every bypassing buffer as the last stretch leaves it, the argument arrays end as
    launched: none is an array of the region, and no host operation writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c))⟩) h

/-! ## The body's branch -/

/-- The condition of the body's one branch: the second grid coordinate (the step within a core's row) is zero. -/
abbrev cond0_0 (i : grid0.Coords) : Prop := (Scalar.cmpi .ne (Scalar.extui (Scalar.cmpi .eq (BitVec.ofNat 32 (i 1).val) 0#32)) 0#32) = 1#1
/-- Over the fifty points in row-major order it holds exactly at the multiples of 25. -/
theorem hcond0_0 : ∀ t : Fin cfg0.N, cond0_0 (grid0.coords t) ↔ t.val % 25 = 0 :=
  (by decide +kernel : ∀ t : Fin grid0.N, cond0_0 (grid0.coords t) ↔ t.val % 25 = 0)

/-! ## The staging memrefs the body is called with -/

/-- One staging buffer of the output window, through which its contents are stated. -/
abbrev VO0_8 : View sig .tc .vmem S1x1x128 .f32 := (Memref.whole cc0_stg8_0 : Memref sig .tc .vmem S1x1x128 .f32).view
abbrev ms0_0 (t : Fin cfg0.N) : Memref sig .tc .vmem S2000x6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2000x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2000x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x64 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128 .f32 := win0_8.stage (cfg0.slots t 8)
abbrev hs0_8 (t : Fin cfg0.N) : (ms0_8 t).IsWhole := hstage0_8 ((cfg0.slots t 8).cast nbuf0_8)

end Cert.KernelIdeal.Hand

end
-- ==== Proof.KernelIdealRunA.lean ====
/-
  The kernel body run once, symbolically, on any nine whole staging buffers, at a grid point where the reset branch IS taken (the first step of a core's row): the output buffer may hold anything on entry.
  The eight input buffers are read and handed back unchanged; the counted loop of ten chunks goes through by its
  invariant (the carried 1x1 accumulator as a recursion on the chunk number); what the stores leave in the output
  buffer is a list of pieces that the run itself finds.
-/
import proofs.«180775_j47991964566172_2_alg».proof.Proof.KernelIdealKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the body's stores leave in the output buffer in this case (last store first), with the proof that the
    body runs to its continuation holding the inputs as they were and the output buffer with those pieces written. -/
noncomputable def kernelRun0_A (c : Dev nD) (i : grid0.Coords) (arg2 : Memref sig .tc .vmem S2000x6 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S2000x64 .i32) (harg9 : arg9.IsWhole) (arg10 : Memref sig .tc .vmem S1x1x128 .f32) (harg10 : arg10.IsWhole) (hc0 : cond0_0 i)
    (x0 : Vec F S2000x6 .f32) (x1 x2 x3 x4 x5 x6 : Vec F S2000x64 .f32) (x7 : Vec F S2000x64 .i32) :
    { L8 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Cert.KernelIdeal.Hand

end
-- ==== Proof.KernelIdealRunB.lean ====
/-
  The kernel body run once, symbolically, on any nine whole staging buffers, at a grid point where the reset branch is NOT taken: the output buffer holds the running partial sum on entry.
  The eight input buffers are read and handed back unchanged; the counted loop of ten chunks goes through by its
  invariant (the carried 1x1 accumulator as a recursion on the chunk number); what the stores leave in the output
  buffer is a list of pieces that the run itself finds.
-/
import proofs.«180775_j47991964566172_2_alg».proof.Proof.KernelIdealRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the body's stores leave in the output buffer in this case (last store first), with the proof that the
    body runs to its continuation holding the inputs as they were and the output buffer with those pieces written. -/
noncomputable def kernelRun0_B (c : Dev nD) (i : grid0.Coords) (arg2 : Memref sig .tc .vmem S2000x6 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S2000x64 .i32) (harg9 : arg9.IsWhole) (arg10 : Memref sig .tc .vmem S1x1x128 .f32) (harg10 : arg10.IsWhole) (hc0 : ¬cond0_0 i)
    (x0 : Vec F S2000x6 .f32) (x1 x2 x3 x4 x5 x6 : Vec F S2000x64 .f32) (x7 : Vec F S2000x64 .i32) (xo8 : Vec F S1x1x128 .f32) :
    { L8 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Cert.KernelIdeal.Hand

end
-- ==== Proof.KernelIdealFrame.lean ====
/-
  The frame of the program: every execution ends, faults nowhere, and leaves the argument arrays unchanged.
  The output window's block depends on the core coordinate only, so its staging buffer is an accumulator carried
  across the 25 steps of a core's row: reset and added to at the first step, added to at the later ones, written
  back after the last. What that buffer holds after each grid point is a recursion on the point (`outsAt0`); the
  proof data, the body's obligation at every point (one run per case of the branch), and the launch follow.
-/
import proofs.«180775_j47991964566172_2_alg».proof.Proof.KernelIdealRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the reset case the body's stores cover the output block. -/
theorem cover0_A_8 (c : Dev nD) (i : grid0.Coords) (arg2 : Memref sig .tc .vmem S2000x6 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S2000x64 .i32) (harg9 : arg9.IsWhole) (arg10 : Memref sig .tc .vmem S1x1x128 .f32) (harg10 : arg10.IsWhole) (hc0 : cond0_0 i)
    (x0 : Vec F S2000x6 .f32) (x1 x2 x3 x4 x5 x6 : Vec F S2000x64 .f32) (x7 : Vec F S2000x64 .i32) (y : S1x1x128.Idx) :
    ∃ pc ∈ (kernelRun0_A c i arg2 harg2 arg3 harg3 arg4 harg4 arg5 harg5 arg6 harg6 arg7 harg7 arg8 harg8 arg9 harg9 arg10 harg10 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5 x6 x7).1 S1x1x128.size (by sl_kernel_rfl) y

/-- What the reset case leaves in the output buffer: its pieces read back. -/
def out0_A_8 (c : Dev nD) (i : grid0.Coords) (arg2 : Memref sig .tc .vmem S2000x6 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S2000x64 .i32) (harg9 : arg9.IsWhole) (arg10 : Memref sig .tc .vmem S1x1x128 .f32) (harg10 : arg10.IsWhole) (hc0 : cond0_0 i)
    (x0 : Vec F S2000x6 .f32) (x1 x2 x3 x4 x5 x6 : Vec F S2000x64 .f32) (x7 : Vec F S2000x64 .i32) : Vec F S1x1x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 hc0 x0 x1 x2 x3 x4 x5 x6 x7).1)

/-- In the other case too. -/
theorem cover0_B_8 (c : Dev nD) (i : grid0.Coords) (arg2 : Memref sig .tc .vmem S2000x6 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S2000x64 .i32) (harg9 : arg9.IsWhole) (arg10 : Memref sig .tc .vmem S1x1x128 .f32) (harg10 : arg10.IsWhole) (hc0 : ¬cond0_0 i)
    (x0 : Vec F S2000x6 .f32) (x1 x2 x3 x4 x5 x6 : Vec F S2000x64 .f32) (x7 : Vec F S2000x64 .i32) (xo8 : Vec F S1x1x128 .f32) (y : S1x1x128.Idx) :
    ∃ pc ∈ (kernelRun0_B c i arg2 harg2 arg3 harg3 arg4 harg4 arg5 harg5 arg6 harg6 arg7 harg7 arg8 harg8 arg9 harg9 arg10 harg10 hc0 x0 x1 x2 x3 x4 x5 x6 x7 xo8).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 x6 x7 xo8).1 S1x1x128.size (by sl_kernel_rfl) y

/-- What the accumulating case leaves in the output buffer, given what it held on entry. -/
def out0_B_8 (c : Dev nD) (i : grid0.Coords) (arg2 : Memref sig .tc .vmem S2000x6 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S2000x64 .i32) (harg9 : arg9.IsWhole) (arg10 : Memref sig .tc .vmem S1x1x128 .f32) (harg10 : arg10.IsWhole) (hc0 : ¬cond0_0 i)
    (x0 : Vec F S2000x6 .f32) (x1 x2 x3 x4 x5 x6 : Vec F S2000x64 .f32) (x7 : Vec F S2000x64 .i32) (xo8 : Vec F S1x1x128 .f32) : Vec F S1x1x128 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 hc0 x0 x1 x2 x3 x4 x5 x6 x7 xo8).1)

/-! ## The accumulator point by point -/

/-- What the output buffer holds after the body at position `n` of the grid's row-major order: at a multiple of 25 the
    reset case run on the point's input blocks; otherwise the accumulating case run on them and on what position
    `n - 1` left (the buffer is not written back in between). -/
def outsAt0 (c : Dev nD) : (n : ℕ) → n < cfg0.N → Vec F S1x1x128 .f32
  | 0, hn => out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 25 = 0 then
      out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))

theorem outsAt0_A (c : Dev nD) (t : Fin cfg0.N) (h0 : t.val % 25 = 0) :
    outsAt0 m c t.val t.isLt = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

theorem outsAt0_B (c : Dev nD) (t : Fin cfg0.N) (h0 : ¬t.val % 25 = 0) :
    outsAt0 m c t.val t.isLt = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays are the region-entry contents; after the body each input buffer holds its block and the output buffer
    the accumulator; the invariant is the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- Away from the multiples of 25 the output buffer holds on entry what the body left at the point before: it was not
    written back in between. -/
theorem before0_8_B (c : Dev nD) (t : Fin cfg0.N) (h0 : ¬t.val % 25 = 0) (d) :
    (dats m 0 c).before 8 t d = (outsAt0 m c (t.val - 1) (Nat.lt_of_le_of_lt (Nat.sub_le _ _) t.isLt)) := by
  have hN : t.val < 50 := lt_of_lt_of_eq t.isLt (show cfg0.N = 50 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point: the inputs' buffers hold their blocks; the point's position modulo 25 says which case it is
    in; in the accumulating case the output buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 50 := lt_of_lt_of_eq t.isLt (show cfg0.N = 50 from N_0)
  by_cases h0 : t.val % 25 = 0
  · rw [outsAt0_A m c t h0]
    unfold out0_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_A_8 c _ _ _ _ _ _ _ _ _ _ _ _ _ _ _ _ _ _ _ _ _ _ _ _ _ _ _ _)
  · rw [outsAt0_B m c t h0]
    simp only [before0_8_B m c t h0]
    unfold out0_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_B_8 c _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end every array of the region holds what the proof data
    says and every other buffer is as the last stretch of host operations leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Hand

end
-- ==== Proof.KernelIdealBody.lean ====
/-
  What the body leaves in the output buffer, as a value. One grid point handles a tile of 2000 atoms in ten chunks of
  200: chunk `k` loads rows 200k … 200k+199 of the tile's eight input blocks and contributes the sum of its pair
  energies (`chunk`); the loop's carried 1x1 accumulator after `n` chunks is `acc n` (zero, then one chunk added
  at a time); the body then adds the final accumulator, broadcast over the 128 lanes, to the output buffer — to
  zero at the first step of a core's row, to the running contents otherwise.
-/
import proofs.«180775_j47991964566172_2_alg».proof.Proof.KernelIdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl

/-- Rows 200k … 200k+199 of a tile's feature block. -/
abbrev cl0 (x : Vec F S2000x6 .f32) (k : Fin k0_t1_loop.trips) : Vec F S200x6 .f32 :=
  View.ld x (Rect.unit (s := S2000x6) (k0_off1 k) S200x6.size (k0_off1_inb k))
/-- The same rows of a per-slot block. -/
abbrev cl {e : EltTy} (x : S2000x64.Idx → Elt F e) (k : Fin k0_t1_loop.trips) : S200x64.Idx → Elt F e :=
  View.ld x (Rect.unit (s := S2000x64) (k0_off2 k) S200x64.size (k0_off2_inb k))

/-- Chunk `k`'s contribution: the pair energies of its 200 x 64 slots, summed over lanes then rows. -/
def chunk (x0 : Vec F S2000x6 .f32) (x1 x2 x3 x4 x5 x6 : Vec F S2000x64 .f32) (x7 : Vec F S2000x64 .i32) (k : Fin k0_t1_loop.trips) : FVec F S1 .f32 :=
  k0_pay14 (k0_pay6 (cl0 x0 k)) (k0_pay7 (cl0 x0 k)) (k0_pay8 (cl0 x0 k)) (k0_pay9 (cl (e := .f32) x4 k)) (k0_pay10 (cl (e := .f32) x5 k)) (k0_pay11 (cl (e := .f32) x6 k))
    (k0_pay12 (cl0 x0 k) (cl (e := .f32) x1 k) (cl (e := .f32) x2 k) (cl (e := .f32) x3 k) (cl (e := .i32) x7 k)) (k0_pay13 (F := F))

/-- One trip of the loop adds chunk `k` to the carried accumulator. -/
theorem trip_eq (c : Dev nD) (i : grid0.Coords) (arg2 : Memref sig .tc .vmem S2000x6 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S2000x64 .i32) (harg9 : arg9.IsWhole) (arg10 : Memref sig .tc .vmem S1x1x128 .f32) (harg10 : arg10.IsWhole) (x0 : Vec F S2000x6 .f32) (x1 x2 x3 x4 x5 x6 : Vec F S2000x64 .f32) (x7 : Vec F S2000x64 .i32) (k : Fin k0_t1_loop.trips) (a : FVec F S1x1 .f32) :
    tripR_k0_t1 (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) (harg7.unread x5) (harg8.unread x6) (harg9.unread x7) k a = k0_pay3 a (chunk x0 x1 x2 x3 x4 x5 x6 x7 k) := by
  unfold tripR_k0_t1 trip_k0_t1
  dsimp only
  sl_unfold_words
  simp only [View.readAt_eq_ld, harg2.read_unread, harg3.read_unread, harg4.read_unread, harg5.read_unread, harg6.read_unread, harg7.read_unread, harg8.read_unread, harg9.read_unread]
  rfl

/-- The carried accumulator after `n` chunks. -/
def acc (x0 : Vec F S2000x6 .f32) (x1 x2 x3 x4 x5 x6 : Vec F S2000x64 .f32) (x7 : Vec F S2000x64 .i32) : ℕ → FVec F S1x1 .f32
  | 0 => k0_pay2 (F := F)
  | n + 1 => if h : n < k0_t1_loop.trips then k0_pay3 (acc x0 x1 x2 x3 x4 x5 x6 x7 n) (chunk x0 x1 x2 x3 x4 x5 x6 x7 ⟨n, h⟩) else acc x0 x1 x2 x3 x4 x5 x6 x7 n

/-- The loop's state is that accumulator. -/
theorem st_eq (c : Dev nD) (i : grid0.Coords) (arg2 : Memref sig .tc .vmem S2000x6 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S2000x64 .i32) (harg9 : arg9.IsWhole) (arg10 : Memref sig .tc .vmem S1x1x128 .f32) (harg10 : arg10.IsWhole) (x0 : Vec F S2000x6 .f32) (x1 x2 x3 x4 x5 x6 : Vec F S2000x64 .f32) (x7 : Vec F S2000x64 .i32) : ∀ n : ℕ,
    st_k0_t1 (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) (harg7.unread x5) (harg8.unread x6) (harg9.unread x7) (k0_pay2 (F := F)) n = acc x0 x1 x2 x3 x4 x5 x6 x7 n
  | 0 => rfl
  | n + 1 => by
    rw [st_k0_t1.eq_2]; unfold st_k0_t1Step
    by_cases h : n < k0_t1_loop.trips
    · rw [dif_pos h, trip_eq, st_eq c i arg2 harg2 arg3 harg3 arg4 harg4 arg5 harg5 arg6 harg6 arg7 harg7 arg8 harg8 arg9 harg9 arg10 harg10 x0 x1 x2 x3 x4 x5 x6 x7 n]
      show _ = if h : n < k0_t1_loop.trips then _ else _
      rw [dif_pos h]
    · rw [dif_neg h, st_eq c i arg2 harg2 arg3 harg3 arg4 harg4 arg5 harg5 arg6 harg6 arg7 harg7 arg8 harg8 arg9 harg9 arg10 harg10 x0 x1 x2 x3 x4 x5 x6 x7 n]
      show _ = if h : n < k0_t1_loop.trips then _ else _
      rw [dif_neg h]

/-- Away from the first step the body leaves the running contents plus the tile's total. -/
theorem out_B (c : Dev nD) (i : grid0.Coords) (arg2 : Memref sig .tc .vmem S2000x6 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S2000x64 .i32) (harg9 : arg9.IsWhole) (arg10 : Memref sig .tc .vmem S1x1x128 .f32) (harg10 : arg10.IsWhole) (hc0 : ¬cond0_0 i) (x0 : Vec F S2000x6 .f32) (x1 x2 x3 x4 x5 x6 : Vec F S2000x64 .f32) (x7 : Vec F S2000x64 .i32) (xo8 : Vec F S1x1x128 .f32) :
    out0_B_8 c i arg2 harg2 arg3 harg3 arg4 harg4 arg5 harg5 arg6 harg6 arg7 harg7 arg8 harg8 arg9 harg9 arg10 harg10 hc0 x0 x1 x2 x3 x4 x5 x6 x7 xo8 = k0_pay4 (acc x0 x1 x2 x3 x4 x5 x6 x7 k0_t1_loop.trips) xo8 := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 x2 x3 x4 x5 x6 x7 xo8)]
  unfold kernelRun0_B
  dsimp only
  rw [View.canon_unit_zero hz3, st_eq]
  simp only [View.readAt_eq_ld, harg10.read_unread, View.ld_unit_zero (S := S1x1x128) hz3]

/-- At the first step it leaves zero plus the tile's total. -/
theorem out_A (c : Dev nD) (i : grid0.Coords) (arg2 : Memref sig .tc .vmem S2000x6 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S2000x64 .i32) (harg9 : arg9.IsWhole) (arg10 : Memref sig .tc .vmem S1x1x128 .f32) (harg10 : arg10.IsWhole) (hc0 : cond0_0 i) (x0 : Vec F S2000x6 .f32) (x1 x2 x3 x4 x5 x6 : Vec F S2000x64 .f32) (x7 : Vec F S2000x64 .i32) :
    out0_A_8 c i arg2 harg2 arg3 harg3 arg4 harg4 arg5 harg5 arg6 harg6 arg7 harg7 arg8 harg8 arg9 harg9 arg10 harg10 hc0 x0 x1 x2 x3 x4 x5 x6 x7 = k0_pay4 (acc x0 x1 x2 x3 x4 x5 x6 x7 k0_t1_loop.trips) (k0_pay1 (F := F)) := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  rw [View.canon_cons_unit_zero (S := S1x1x128) hz3, View.readCov_unit_zero (S := S1x1x128) _ hz3, st_eq]

end Cert.KernelIdeal.Hand

end
-- ==== Proof.KernelIdealSum.lean ====
/-
  The accumulations read as sums, over the extended reals. The 1x1 accumulator after the ten chunks is the sum of
  the ten chunk totals (zero plus a sum is the sum); the body adds that one number to every lane of the output
  block; so after the step at row-major position n the output block holds, in every lane, the sum of the tile totals
  of the steps of the same core's row up to n.
-/
import proofs.«180775_j47991964566172_2_alg».proof.Proof.KernelIdealBody
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The one index of a 1x1 array, and of a 1-array. -/
abbrev o2 : S1x1.Idx := ix2 (0 : Fin 1) (0 : Fin 1)
abbrev o1 : S1.Idx := ix1 (0 : Fin 1)
/-- Lane `l` of the output block. -/
abbrev lane (l : Fin 128) : S1x1x128.Idx := ix3 (0 : Fin 1) (0 : Fin 1) l

theorem pay2_at : k0_pay2 (F := Ideal) o2 = 0 := by
  show Ideal.ofBits .f32 0x00000000#32 = 0
  exact Ideal.ofBits_zero_f32

theorem pay1_at (l : Fin 128) : k0_pay1 (F := Ideal) (lane l) = 0 := by
  show Ideal.ofBits .f32 0x00000000#32 = 0
  exact Ideal.ofBits_zero_f32

theorem pay3_at (a : FVec Ideal S1x1 .f32) (v : FVec Ideal S1 .f32) : k0_pay3 a v o2 = a o2 + v o1 := by
  unfold k0_pay3
  show a o2 + shapeCast S1x1 v shapeCasts_S1_S1x1 o2 = _
  rw [shapeCast_a_1a_apply]

theorem pay4_at (v5 : FVec Ideal S1x1 .f32) (v6 : Vec Ideal S1x1x128 .f32) (l : Fin 128) :
    k0_pay4 v5 v6 (lane l) = v6 (lane l) + v5 o2 := by
  unfold k0_pay4
  show shapeCast S1x1x128 v6 shapeCasts_S1x1x128_S1x1x128 (lane l) + broadcastTo S1x1x128 (shapeCast S1x1x1 (shapeCast S1x1x1 v5 shapeCasts_S1x1_S1x1x1) shapeCasts_S1x1x1_S1x1x1) broadcasts_S1x1x1_S1x1x128 (lane l) = _
  rw [shapeCast_self, shapeCast_self,
    broadcastTo_apply _ broadcasts_S1x1x1_S1x1x128 (lane l) (ix3 (0 : Fin 1) (0 : Fin 1) (0 : Fin 1)) (fun a => by
      match a with
      | ⟨0, _⟩ => rfl
      | ⟨1, _⟩ => rfl
      | ⟨2, _⟩ => rfl),
    shapeCast_ab_1ab_apply]

/-- Chunk `k`'s total as a number. -/
abbrev cs (x0 : Vec Ideal S2000x6 .f32) (x1 x2 x3 x4 x5 x6 : Vec Ideal S2000x64 .f32) (x7 : Vec Ideal S2000x64 .i32) (k : ℕ) : EReal :=
  if h : k < k0_t1_loop.trips then chunk x0 x1 x2 x3 x4 x5 x6 x7 ⟨k, h⟩ o1 else 0

/-- The accumulator after `n` chunks is the sum of the first `n` chunk totals. -/
theorem acc_range (x0 : Vec Ideal S2000x6 .f32) (x1 x2 x3 x4 x5 x6 : Vec Ideal S2000x64 .f32) (x7 : Vec Ideal S2000x64 .i32) :
    ∀ n : ℕ, acc x0 x1 x2 x3 x4 x5 x6 x7 n o2 = ∑ k ∈ Finset.range n, cs x0 x1 x2 x3 x4 x5 x6 x7 k
  | 0 => by rw [Finset.sum_range_zero]; exact pay2_at
  | n + 1 => by
    rw [Finset.sum_range_succ, ← acc_range x0 x1 x2 x3 x4 x5 x6 x7 n]
    show (if h : n < k0_t1_loop.trips then k0_pay3 (acc x0 x1 x2 x3 x4 x5 x6 x7 n) (chunk x0 x1 x2 x3 x4 x5 x6 x7 ⟨n, h⟩) else acc x0 x1 x2 x3 x4 x5 x6 x7 n) o2 = _
    by_cases h : n < k0_t1_loop.trips
    · rw [dif_pos h, pay3_at]; show _ = _ + (if h : n < k0_t1_loop.trips then _ else _); rw [dif_pos h]
    · rw [dif_neg h]; show _ = _ + (if h : n < k0_t1_loop.trips then _ else _); rw [dif_neg h, add_zero]

/-- A tile's total: the sum of its chunk totals. -/
def tileTot (x0 : Vec Ideal S2000x6 .f32) (x1 x2 x3 x4 x5 x6 : Vec Ideal S2000x64 .f32) (x7 : Vec Ideal S2000x64 .i32) : EReal :=
  ∑ k : Fin k0_t1_loop.trips, chunk x0 x1 x2 x3 x4 x5 x6 x7 k o1

theorem acc_at (x0 : Vec Ideal S2000x6 .f32) (x1 x2 x3 x4 x5 x6 : Vec Ideal S2000x64 .f32) (x7 : Vec Ideal S2000x64 .i32) :
    acc x0 x1 x2 x3 x4 x5 x6 x7 k0_t1_loop.trips o2 = tileTot x0 x1 x2 x3 x4 x5 x6 x7 := by
  rw [acc_range, Finset.sum_range]
  exact Finset.sum_congr rfl fun k _ => dif_pos k.isLt

variable (m : (ℓ : Loc nD τ sig) → Buf (Elt Ideal) ℓ)

/-- The total of the tile handled at row-major grid position `j` (zero past the grid). -/
def posTot (c : Dev nD) (j : ℕ) : EReal :=
  if h : j < cfg0.N then tileTot (iblk m c 0 ⟨j, h⟩) (iblk m c 1 ⟨j, h⟩) (iblk m c 2 ⟨j, h⟩) (iblk m c 3 ⟨j, h⟩) (iblk m c 4 ⟨j, h⟩) (iblk m c 5 ⟨j, h⟩) (iblk m c 6 ⟨j, h⟩) (iblk m c 7 ⟨j, h⟩) else 0

/-- After the step at position `n` every lane of the output block holds the sum of the tile totals of the positions of
    the same row of 25 up to `n`. -/
theorem outs_at (c : Dev nD) (l : Fin 128) : ∀ (n : ℕ) (hn : n < cfg0.N),
    outsAt0 m c n hn (lane l) = ∑ j ∈ Finset.Ico (25 * (n / 25)) (n + 1), posTot m c j := by
  intro n
  induction n with
  | zero =>
    intro hn
    rw [outsAt0_A m c ⟨0, hn⟩ rfl, out_A, pay4_at, pay1_at, acc_at, zero_add]
    show _ = ∑ j ∈ Finset.Ico 0 1, posTot m c j
    rw [Finset.sum_Ico_succ_top (Nat.le_refl 0), Finset.Ico_self, Finset.sum_empty, zero_add]
    unfold posTot; rw [dif_pos hn]
  | succ n ih =>
    intro hn
    by_cases h0 : (n + 1) % 25 = 0
    · rw [outsAt0_A m c ⟨n + 1, hn⟩ h0, out_A, pay4_at, pay1_at, acc_at, zero_add]
      have e : 25 * ((n + 1) / 25) = n + 1 := by omega
      rw [e, Finset.sum_Ico_succ_top (Nat.le_refl _), Finset.Ico_self, Finset.sum_empty, zero_add]
      unfold posTot; rw [dif_pos hn]
    · rw [outsAt0_B m c ⟨n + 1, hn⟩ h0, out_B, pay4_at, acc_at]
      show outsAt0 m c n _ (lane l) + _ = _
      rw [ih (Nat.lt_of_succ_lt hn)]
      have e : 25 * ((n + 1) / 25) = 25 * (n / 25) := by omega
      rw [e, Finset.sum_Ico_succ_top (by omega : 25 * (n / 25) ≤ n + 1)]
      congr 1
      unfold posTot; rw [dif_pos hn]

end Cert.KernelIdeal.Hand

end
-- ==== Proof.KernelIdealBlocks.lean ====
/-
  Where a chunk's loads read the region's arrays. Grid position `t` (row-major over the 2 x 25 grid) stages block
  `t` of 2000 rows of each input array; chunk `k` of the body reads rows 200k … 200k+199 of that block: row `r` of
  the chunk is row 2000 t + 200 k + r of the array.
-/
import proofs.«180775_j47991964566172_2_alg».proof.Proof.KernelIdealBody
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The loop runs ten chunks. -/
theorem trips_eq : k0_t1_loop.trips = 10 := by decide +kernel

theorem idx_facts0 : ∀ t : Fin cfg0.N, win0_0.index t 0 = t.val ∧ win0_0.index t 1 = 0 :=
  (by decide +kernel : ∀ t : Fin grid0.N, win0_0.index t 0 = t.val ∧ win0_0.index t 1 = 0)
theorem idx_facts1 : ∀ t : Fin cfg0.N, win0_1.index t 0 = t.val ∧ win0_1.index t 1 = 0 :=
  (by decide +kernel : ∀ t : Fin grid0.N, win0_1.index t 0 = t.val ∧ win0_1.index t 1 = 0)
theorem idx_facts2 : ∀ t : Fin cfg0.N, win0_2.index t 0 = t.val ∧ win0_2.index t 1 = 0 :=
  (by decide +kernel : ∀ t : Fin grid0.N, win0_2.index t 0 = t.val ∧ win0_2.index t 1 = 0)
theorem idx_facts3 : ∀ t : Fin cfg0.N, win0_3.index t 0 = t.val ∧ win0_3.index t 1 = 0 :=
  (by decide +kernel : ∀ t : Fin grid0.N, win0_3.index t 0 = t.val ∧ win0_3.index t 1 = 0)
theorem idx_facts4 : ∀ t : Fin cfg0.N, win0_4.index t 0 = t.val ∧ win0_4.index t 1 = 0 :=
  (by decide +kernel : ∀ t : Fin grid0.N, win0_4.index t 0 = t.val ∧ win0_4.index t 1 = 0)
theorem idx_facts5 : ∀ t : Fin cfg0.N, win0_5.index t 0 = t.val ∧ win0_5.index t 1 = 0 :=
  (by decide +kernel : ∀ t : Fin grid0.N, win0_5.index t 0 = t.val ∧ win0_5.index t 1 = 0)
theorem idx_facts6 : ∀ t : Fin cfg0.N, win0_6.index t 0 = t.val ∧ win0_6.index t 1 = 0 :=
  (by decide +kernel : ∀ t : Fin grid0.N, win0_6.index t 0 = t.val ∧ win0_6.index t 1 = 0)
theorem idx_facts7 : ∀ t : Fin cfg0.N, win0_7.index t 0 = t.val ∧ win0_7.index t 1 = 0 :=
  (by decide +kernel : ∀ t : Fin grid0.N, win0_7.index t 0 = t.val ∧ win0_7.index t 1 = 0)

theorem tile_row_lt (t : Fin cfg0.N) (k : Fin k0_t1_loop.trips) (r : Fin 200) : 2000 * t.val + 200 * k.val + r.val < 100000 := by
  have := t.isLt; have h50 : cfg0.N = 50 := N_0; have := k.isLt; have := trips_eq; have := r.isLt; omega

/-- The feature table's block. -/
theorem blk0_at (c : Dev nD) (t : Fin cfg0.N) (k : Fin k0_t1_loop.trips) (r : Fin 200) (col : Fin 6) :
    cl0 (iblk m c 0 t) k (ix2 r col) = V m c main_v19 (ix2 ⟨2000 * t.val + 200 * k.val + r.val, tile_row_lt t k r⟩ col) := by
  unfold iblk
  show View.read _ _ _ _ = _
  rw [View.read_apply]
  show V m c main_v19 _ = V m c main_v19 _
  congr 1
  funext a
  apply Fin.ext
  have hi := idx_facts0 t
  have ho := k0_off1_eq k
  match a with
  | ⟨0, _⟩ =>
    show win0_0.index t 0 * 2000 + 1 * (k0_off1 k 0 + 1 * r.val) = 2000 * t.val + 200 * k.val + r.val
    rw [hi.1, ho]; show t.val * 2000 + 1 * (200 * k.val + 1 * r.val) = _; omega
  | ⟨1, _⟩ =>
    show win0_0.index t 1 * 6 + 1 * (k0_off1 k 1 + 1 * col.val) = col.val
    rw [hi.2, ho]; show 0 * 6 + 1 * (0 + 1 * col.val) = _; omega

/-- A per-slot plane's block (window 1). -/
theorem blk1_at (c : Dev nD) (t : Fin cfg0.N) (k : Fin k0_t1_loop.trips) (r : Fin 200) (l : Fin 64) :
    cl (e := .f32) (iblk m c 1 t) k (ix2 r l) = V m c main_v28 (ix2 ⟨2000 * t.val + 200 * k.val + r.val, tile_row_lt t k r⟩ l) := by
  unfold iblk
  show View.read _ _ _ _ = _
  rw [View.read_apply]
  show V m c main_v28 _ = V m c main_v28 _
  congr 1
  funext a
  apply Fin.ext
  have hi := idx_facts1 t
  have ho := k0_off2_eq k
  match a with
  | ⟨0, _⟩ =>
    show win0_1.index t 0 * 2000 + 1 * (k0_off2 k 0 + 1 * r.val) = 2000 * t.val + 200 * k.val + r.val
    rw [hi.1, ho]; show t.val * 2000 + 1 * (200 * k.val + 1 * r.val) = _; omega
  | ⟨1, _⟩ =>
    show win0_1.index t 1 * 64 + 1 * (k0_off2 k 1 + 1 * l.val) = l.val
    rw [hi.2, ho]; show 0 * 64 + 1 * (0 + 1 * l.val) = _; omega

/-- A per-slot plane's block (window 2). -/
theorem blk2_at (c : Dev nD) (t : Fin cfg0.N) (k : Fin k0_t1_loop.trips) (r : Fin 200) (l : Fin 64) :
    cl (e := .f32) (iblk m c 2 t) k (ix2 r l) = V m c main_v30 (ix2 ⟨2000 * t.val + 200 * k.val + r.val, tile_row_lt t k r⟩ l) := by
  unfold iblk
  show View.read _ _ _ _ = _
  rw [View.read_apply]
  show V m c main_v30 _ = V m c main_v30 _
  congr 1
  funext a
  apply Fin.ext
  have hi := idx_facts2 t
  have ho := k0_off2_eq k
  match a with
  | ⟨0, _⟩ =>
    show win0_2.index t 0 * 2000 + 1 * (k0_off2 k 0 + 1 * r.val) = 2000 * t.val + 200 * k.val + r.val
    rw [hi.1, ho]; show t.val * 2000 + 1 * (200 * k.val + 1 * r.val) = _; omega
  | ⟨1, _⟩ =>
    show win0_2.index t 1 * 64 + 1 * (k0_off2 k 1 + 1 * l.val) = l.val
    rw [hi.2, ho]; show 0 * 64 + 1 * (0 + 1 * l.val) = _; omega

/-- A per-slot plane's block (window 3). -/
theorem blk3_at (c : Dev nD) (t : Fin cfg0.N) (k : Fin k0_t1_loop.trips) (r : Fin 200) (l : Fin 64) :
    cl (e := .f32) (iblk m c 3 t) k (ix2 r l) = V m c main_v32 (ix2 ⟨2000 * t.val + 200 * k.val + r.val, tile_row_lt t k r⟩ l) := by
  unfold iblk
  show View.read _ _ _ _ = _
  rw [View.read_apply]
  show V m c main_v32 _ = V m c main_v32 _
  congr 1
  funext a
  apply Fin.ext
  have hi := idx_facts3 t
  have ho := k0_off2_eq k
  match a with
  | ⟨0, _⟩ =>
    show win0_3.index t 0 * 2000 + 1 * (k0_off2 k 0 + 1 * r.val) = 2000 * t.val + 200 * k.val + r.val
    rw [hi.1, ho]; show t.val * 2000 + 1 * (200 * k.val + 1 * r.val) = _; omega
  | ⟨1, _⟩ =>
    show win0_3.index t 1 * 64 + 1 * (k0_off2 k 1 + 1 * l.val) = l.val
    rw [hi.2, ho]; show 0 * 64 + 1 * (0 + 1 * l.val) = _; omega

/-- A per-slot plane's block (window 4). -/
theorem blk4_at (c : Dev nD) (t : Fin cfg0.N) (k : Fin k0_t1_loop.trips) (r : Fin 200) (l : Fin 64) :
    cl (e := .f32) (iblk m c 4 t) k (ix2 r l) = V m c main_v34 (ix2 ⟨2000 * t.val + 200 * k.val + r.val, tile_row_lt t k r⟩ l) := by
  unfold iblk
  show View.read _ _ _ _ = _
  rw [View.read_apply]
  show V m c main_v34 _ = V m c main_v34 _
  congr 1
  funext a
  apply Fin.ext
  have hi := idx_facts4 t
  have ho := k0_off2_eq k
  match a with
  | ⟨0, _⟩ =>
    show win0_4.index t 0 * 2000 + 1 * (k0_off2 k 0 + 1 * r.val) = 2000 * t.val + 200 * k.val + r.val
    rw [hi.1, ho]; show t.val * 2000 + 1 * (200 * k.val + 1 * r.val) = _; omega
  | ⟨1, _⟩ =>
    show win0_4.index t 1 * 64 + 1 * (k0_off2 k 1 + 1 * l.val) = l.val
    rw [hi.2, ho]; show 0 * 64 + 1 * (0 + 1 * l.val) = _; omega

/-- A per-slot plane's block (window 5). -/
theorem blk5_at (c : Dev nD) (t : Fin cfg0.N) (k : Fin k0_t1_loop.trips) (r : Fin 200) (l : Fin 64) :
    cl (e := .f32) (iblk m c 5 t) k (ix2 r l) = V m c main_v36 (ix2 ⟨2000 * t.val + 200 * k.val + r.val, tile_row_lt t k r⟩ l) := by
  unfold iblk
  show View.read _ _ _ _ = _
  rw [View.read_apply]
  show V m c main_v36 _ = V m c main_v36 _
  congr 1
  funext a
  apply Fin.ext
  have hi := idx_facts5 t
  have ho := k0_off2_eq k
  match a with
  | ⟨0, _⟩ =>
    show win0_5.index t 0 * 2000 + 1 * (k0_off2 k 0 + 1 * r.val) = 2000 * t.val + 200 * k.val + r.val
    rw [hi.1, ho]; show t.val * 2000 + 1 * (200 * k.val + 1 * r.val) = _; omega
  | ⟨1, _⟩ =>
    show win0_5.index t 1 * 64 + 1 * (k0_off2 k 1 + 1 * l.val) = l.val
    rw [hi.2, ho]; show 0 * 64 + 1 * (0 + 1 * l.val) = _; omega

/-- A per-slot plane's block (window 6). -/
theorem blk6_at (c : Dev nD) (t : Fin cfg0.N) (k : Fin k0_t1_loop.trips) (r : Fin 200) (l : Fin 64) :
    cl (e := .f32) (iblk m c 6 t) k (ix2 r l) = V m c main_v38 (ix2 ⟨2000 * t.val + 200 * k.val + r.val, tile_row_lt t k r⟩ l) := by
  unfold iblk
  show View.read _ _ _ _ = _
  rw [View.read_apply]
  show V m c main_v38 _ = V m c main_v38 _
  congr 1
  funext a
  apply Fin.ext
  have hi := idx_facts6 t
  have ho := k0_off2_eq k
  match a with
  | ⟨0, _⟩ =>
    show win0_6.index t 0 * 2000 + 1 * (k0_off2 k 0 + 1 * r.val) = 2000 * t.val + 200 * k.val + r.val
    rw [hi.1, ho]; show t.val * 2000 + 1 * (200 * k.val + 1 * r.val) = _; omega
  | ⟨1, _⟩ =>
    show win0_6.index t 1 * 64 + 1 * (k0_off2 k 1 + 1 * l.val) = l.val
    rw [hi.2, ho]; show 0 * 64 + 1 * (0 + 1 * l.val) = _; omega

/-- A per-slot plane's block (window 7). -/
theorem blk7_at (c : Dev nD) (t : Fin cfg0.N) (k : Fin k0_t1_loop.trips) (r : Fin 200) (l : Fin 64) :
    cl (e := .i32) (iblk m c 7 t) k (ix2 r l) = V m c main_v39 (ix2 ⟨2000 * t.val + 200 * k.val + r.val, tile_row_lt t k r⟩ l) := by
  unfold iblk
  show View.read _ _ _ _ = _
  rw [View.read_apply]
  show V m c main_v39 _ = V m c main_v39 _
  congr 1
  funext a
  apply Fin.ext
  have hi := idx_facts7 t
  have ho := k0_off2_eq k
  match a with
  | ⟨0, _⟩ =>
    show win0_7.index t 0 * 2000 + 1 * (k0_off2 k 0 + 1 * r.val) = 2000 * t.val + 200 * k.val + r.val
    rw [hi.1, ho]; show t.val * 2000 + 1 * (200 * k.val + 1 * r.val) = _; omega
  | ⟨1, _⟩ =>
    show win0_7.index t 1 * 64 + 1 * (k0_off2 k 1 + 1 * l.val) = l.val
    rw [hi.2, ho]; show 0 * 64 + 1 * (0 + 1 * l.val) = _; omega

end Cert.KernelIdeal.Hand

end
-- ==== Proof.Spec.lean ====
/-
  The quantity both programs compute, stated once over the seven argument arrays at the extended reals.

  Atom `i` of 100000 carries six features: its three coordinates, its C6 coefficient, its polarisability and a
  radius ratio looked up in a 119-entry table at its atomic number. Each atom has 64 neighbour slots; slot `(i, m)`
  names atom `nbr i m` (the stored index, a negative one wrapped by 100000 as jnp's indexing does, then clamped into
  the table as the gather clamps its start index) and a padding flag. The pair energy `pairE` is the damped
  dispersion term of the pair (i, nbr i m); the result is a fixed negative constant times the sum of all
  6.4 million pair energies.
-/
import Idealize.ShloMosaic.PureOps.Ideal
import Idealize.ShloMosaic.Lib.ValueIdx

noncomputable section

namespace Cert.Spec

open Idealize.ShloMosaic Idealize.ShloMosaic.ValueIdx

abbrev SN3 : Shape := ⟨2, ![100000, 3]⟩
abbrev SN : Shape := ⟨1, ![100000]⟩
abbrev ST : Shape := ⟨1, ![119]⟩
abbrev SNM : Shape := ⟨2, ![100000, 64]⟩

/-- A float literal by its binary word, as an extended real. -/
abbrev lit (b : BitVec 32) : EReal := Ideal.ofBits .f32 b

/-- The row a stored index word reads in an array of `n` rows (`nw` is `n` as a word): a negative word is first
    wrapped by `n`, then the signed value is clamped into `[0, n - 1]`. -/
def rowOf (n : Nat) (nw w : BitVec 32) : Nat :=
  min (Scalar.select (IntOp.cmpi .slt w 0#32) (IntOp.addi w nw) w).toInt.toNat (n - 1)

theorem rowOf_lt {n : Nat} (hn : 0 < n) (nw w : BitVec 32) : rowOf n nw w < n := by
  unfold rowOf; omega

/-- The atom a neighbour slot names. -/
def nbr (x4 : SNM.Idx → BitVec 32) (i : Fin 100000) (m : Fin 64) : Fin 100000 :=
  ⟨rowOf 100000 100000#32 (x4 (ix2 i m)), rowOf_lt (by decide) _ _⟩

/-- The radius ratio of atom `i`: the table at the atom's number. -/
def rr (x3 : ST.Idx → EReal) (x5 : SN.Idx → BitVec 32) (i : Fin 100000) : EReal :=
  x3 (ix1 ⟨rowOf 119 119#32 (x5 (ix1 i)), rowOf_lt (by decide) _ _⟩)

/-- The energy of one pair from the six features of the atom (`·i`), of its neighbour (`·j`), and the padding
    flag: squared distance (1 where padded), its root scaled to Bohr, the combined C6 coefficient with
    both polarisabilities and the denominator floored at 1e-6, the Becke–Johnson radius, and the two damped terms. -/
def pairE (xi yi zi c6i ai rri xj yj zj c6j aj rrj : EReal) (pad : BitVec 1) : EReal :=
  let dx := xj - xi
  let dy := yj - yi
  let dz := zj - zi
  let d2 := dx * dx + dy * dy + dz * dz
  let d := Ideal.sqrt (Scalar.select pad (lit 0x3F800000#32) d2) * lit 0x3FF1E237#32
  let aic := max ai (lit 0x358637BD#32)
  let ajc := max aj (lit 0x358637BD#32)
  let denom := max (Ideal.div (c6i * ajc) aic + Ideal.div (c6j * aic) ajc) (lit 0x358637BD#32)
  let c6ij := Ideal.div (lit 0x40000000#32 * c6i * c6j) denom
  let rrij := lit 0x40400000#32 * rri * rrj
  let r0 := lit 0x3F07A787#32 * Ideal.sqrt rrij + lit 0x40933333#32
  let dsq := d * d
  let d4 := dsq * dsq
  let rsq := r0 * r0
  let r4 := rsq * rsq
  c6ij * (Ideal.div (lit 0x3F800000#32) (d4 * dsq + r4 * rsq) + Ideal.div (lit 0x40000000#32 * rrij) (d4 * d4 + r4 * r4))

/-- The energy of slot `(i, m)`. -/
def slotE (x0 : SN3.Idx → EReal) (x1 x2 : SN.Idx → EReal) (x3 : ST.Idx → EReal) (x4 : SNM.Idx → BitVec 32)
    (x5 : SN.Idx → BitVec 32) (x6 : SNM.Idx → BitVec 1) (i : Fin 100000) (m : Fin 64) : EReal :=
  pairE (x0 (ix2 i 0)) (x0 (ix2 i 1)) (x0 (ix2 i 2)) (x1 (ix1 i)) (x2 (ix1 i)) (rr x3 x5 i)
    (x0 (ix2 (nbr x4 i m) 0)) (x0 (ix2 (nbr x4 i m) 1)) (x0 (ix2 (nbr x4 i m) 2)) (x1 (ix1 (nbr x4 i m)))
    (x2 (ix1 (nbr x4 i m))) (rr x3 x5 (nbr x4 i m)) (x6 (ix2 i m))

/-- THE RESULT: the constant times the sum over atoms and slots. -/
def energy (x0 : SN3.Idx → EReal) (x1 x2 : SN.Idx → EReal) (x3 : ST.Idx → EReal) (x4 : SNM.Idx → BitVec 32)
    (x5 : SN.Idx → BitVec 32) (x6 : SNM.Idx → BitVec 1) : EReal :=
  lit 0xC159B0E2#32 * ∑ i : Fin 100000, ∑ m : Fin 64, slotE x0 x1 x2 x3 x4 x5 x6 i m

end Cert.Spec

end
-- ==== Proof.KernelIdealFinal.lean ====
/-
  The result array of the pipelined region and the seven host operations after it. The output window's block is
  [1, 1, 128] at block index (core, 0, 0) of the [2, 1, 128] result; it is written back after the last step of each
  core's row of 25, so row k of the result ends holding the accumulator after grid position 25 k + 24. The host
  operations then take entry (k, 0, 0) of each row, add the two and scale by a literal.
-/
import proofs.«180775_j47991964566172_2_alg».proof.Proof.KernelIdealFrame
import Idealize.ShloMosaic.Lib.Pipeline.Value
import Idealize.ShloMosaic.Lib.StableHlo.Run
import Idealize.ShloMosaic.Lib.ValueIdx
import proofs.«180775_j47991964566172_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## From the blocks to the array -/

/-- The accumulator at equal positions and equal block indices. -/
theorem outsAt0_congr (c : Dev nD) {n n' : ℕ} (h : n = n') (hn : n < cfg0.N) (hn' : n' < cfg0.N)
    {y y' : S1x1x128.Idx} (hy : y = y') : outsAt0 m c n hn y = outsAt0 m c n' hn' y' := by
  subst h; subst hy; rfl

/-- The last position of row k of the grid is a position of the grid. -/
theorem last_lt (j : S2x1x128.Idx) : 25 * (j 0).val + 24 < cfg0.N := by
  have h : (j 0).val < 2 := (j 0).isLt
  have hN : cfg0.N = 50 := N_0
  omega

/-- THE RESULT ARRAY: row k holds the accumulator after position 25 k + 24. -/
def result (c : Dev nD) : S2x1x128.Idx → Elt F .f32 := fun j =>
  outsAt0 m c (25 * (j 0).val + 24) (last_lt j)
    (ix3 (0 : Fin 1) (⟨(j 1).val, (j 1).isLt⟩ : Fin 1) (⟨(j 2).val, (j 2).isLt⟩ : Fin 128))

/-- The output window's block index at a position: the position's row, then zeros. -/
theorem index8 : ∀ t : Fin cfg0.N, win0_8.index t (0 : Fin 3) = t.val / 25 ∧ win0_8.index t (1 : Fin 3) = 0
    ∧ win0_8.index t (2 : Fin 3) = 0 :=
  (by decide +kernel : ∀ t : Fin grid0.N, _)

/-- What a writing position writes back is its block of the result. -/
theorem flushed_eq (c : Dev nD) (t : Fin cfg0.N) (hf : (cfg0.win 8).flush t = true) :
    (dats m 0 c).flushed 8 t = ((cfg0.win 8).blk t).view.read (Elt F) (result m c) := by
  have hN : cfg0.N = 50 := N_0
  have h24 : t.val % 25 = 24 := (flush0_8 t).mp hf
  obtain ⟨e0, e1, e2⟩ := index8 t
  show (cfg0.win 8).cut (grid0.coords t) ((dats m 0 c).after 8 t) = _
  rw [after0_8]
  funext y
  have hy0 : (y 0).val < 1 := (y 0).isLt
  have hy1 : (y 1).val < 1 := (y 1).isLt
  have hy2 : (y 2).val < 128 := (y 2).isLt
  show outsAt0 m c t.val t.isLt ((cfg0.win 8).xinj (grid0.coords t) y) = result m c (((cfg0.win 8).blk t).view.emb y)
  unfold result
  refine outsAt0_congr m c ?_ _ _ ?_
  · show t.val = 25 * (win0_8.index t (0 : Fin 3) * 1 + 1 * (y 0).val) + 24
    rw [e0]; omega
  · funext a; apply Fin.ext
    match a with
    | ⟨0, _⟩ => show (y 0).val = 0; omega
    | ⟨1, _⟩ => show (y 1).val = win0_8.index t (1 : Fin 3) * 1 + 1 * (y 1).val; rw [e1]; omega
    | ⟨2, _⟩ => show (y 2).val = win0_8.index t (2 : Fin 3) * 128 + 1 * (y 2).val; rw [e2]; omega

/-- An index of the result is in a position's block iff each coordinate is in the block's range on its axis. -/
theorem mem_blk8 (t : Fin cfg0.N) (i : S2x1x128.Idx) :
    i ∈ ((cfg0.win 8).blk t).view.set ↔ ∀ a : Fin 3, win0_8.index t a * S1x1x128.size a ≤ (i a).val
      ∧ (i a).val < win0_8.index t a * S1x1x128.size a + S1x1x128.size a := by
  show i ∈ ((View.whole main_v40).slice (win0_8.rect t)).set ↔ _
  rw [View.set_slice_whole, Rect.mem_set_unit]
  exact Iff.rfl

/-- THE RESULT ARRAY after the run: the two write-backs cover it. -/
theorem final8 (c : Dev nD) : (dats m 0 c).arrAt 8 cfg0.N = result m c :=
  (dats m 0 c).arrAt_eq_of_cover 8 (result m c) (flushed_eq m c) fun i => by
    have hN : cfg0.N = 50 := N_0
    have h0 : (i 0).val < 2 := (i 0).isLt
    have h1 : (i 1).val < 1 := (i 1).isLt
    have h2 : (i 2).val < 128 := (i 2).isLt
    refine ⟨⟨25 * (i 0).val + 24, last_lt i⟩, (flush0_8 _).mpr (by show (25 * (i 0).val + 24) % 25 = 24; omega), ?_⟩
    obtain ⟨e0, e1, e2⟩ := index8 ⟨25 * (i 0).val + 24, last_lt i⟩
    rw [mem_blk8]
    intro a
    match a with
    | ⟨0, _⟩ =>
      show win0_8.index ⟨25 * (i 0).val + 24, last_lt i⟩ (0 : Fin 3) * 1 ≤ (i 0).val
        ∧ (i 0).val < win0_8.index ⟨25 * (i 0).val + 24, last_lt i⟩ (0 : Fin 3) * 1 + 1
      rw [e0]; show (25 * (i 0).val + 24) / 25 * 1 ≤ (i 0).val ∧ (i 0).val < (25 * (i 0).val + 24) / 25 * 1 + 1; omega
    | ⟨1, _⟩ =>
      show win0_8.index ⟨25 * (i 0).val + 24, last_lt i⟩ (1 : Fin 3) * 1 ≤ (i 1).val
        ∧ (i 1).val < win0_8.index ⟨25 * (i 0).val + 24, last_lt i⟩ (1 : Fin 3) * 1 + 1
      rw [e1]; omega
    | ⟨2, _⟩ =>
      show win0_8.index ⟨25 * (i 0).val + 24, last_lt i⟩ (2 : Fin 3) * 128 ≤ (i 2).val
        ∧ (i 2).val < win0_8.index ⟨25 * (i 0).val + 24, last_lt i⟩ (2 : Fin 3) * 128 + 128
      rw [e2]; omega

/-! ## The host operations after the region -/

/-- After the region the result array's buffer holds the result. -/
theorem arr_v40 (c : Dev nD) :
    Pipeline.withArrays (cfgs 0).spec c (V0 m c) (fun w => (dats m 0 c).arrAt w (cfgs 0).N) (Proc.devRef .tc main_v40)
      = result m c :=
  (Pipeline.withArrays_arr spec0 launch0.win.arr_inj c (V0 m c) (fun w => (dats m 0 c).arrAt w cfg0.N) 8).trans (final8 m c)

/-- THE HOST TAIL: the last buffer holds the literal times the sum of entries (0, 0, 0) and (1, 0, 0) of the result,
    each taken by a slice and a reshape to a scalar. -/
theorem tail_v46 (c : Dev nD) :
    Pipeline.afterTail₀ cfgs (dats m) 0 (V0 m) [hostOps1] c main_v46
      = mulf (constant S_ .f32 0xC159B0E2#32)
          (addf (shapeCast S_ (extractStridedSlice S1x1x1 ![0, 0, 0] (result m c) slices_S2x1x128_S1x1x1_0_0_0) shapeCasts_S1x1x1_S_)
            (shapeCast S_ (extractStridedSlice S1x1x1 ![1, 0, 0] (result m c) slices_S2x1x128_S1x1x1_1_0_0) shapeCasts_S1x1x1_S_)) := by
  unfold Pipeline.afterTail₀
  show StableHlo.after hostOps1 _ (Proc.devRef .tc main_v46) = _
  after_results
  rw [arr_v40 m c]
  rfl

/-! ## The host tail read at the scalar index, at the extended reals -/

/-- The slice at a literal offset and the reshape to a scalar read entry (k, 0, 0); the tail is the literal times the
    sum of the two entries. Stated over any array of the result's shape. -/
theorem tail_apply (r : S2x1x128.Idx → EReal) (j : S_.Idx) :
    mulf (F := Ideal) (s := S_) (φ := .f32) (constant S_ .f32 0xC159B0E2#32)
        (addf (F := Ideal) (s := S_) (φ := .f32)
          (shapeCast S_ (extractStridedSlice S1x1x1 ![0, 0, 0] r slices_S2x1x128_S1x1x1_0_0_0) shapeCasts_S1x1x1_S_)
          (shapeCast S_ (extractStridedSlice S1x1x1 ![1, 0, 0] r slices_S2x1x128_S1x1x1_1_0_0) shapeCasts_S1x1x1_S_)) j
      = Cert.Spec.lit 0xC159B0E2#32
          * (r (ix3 (0 : Fin 2) (0 : Fin 1) (0 : Fin 128)) + r (ix3 (1 : Fin 2) (0 : Fin 1) (0 : Fin 128))) := by
  have hrm : (S1x1x1.rowMajor (ix3 (0 : Fin 1) (0 : Fin 1) (0 : Fin 1))).val = (S_.rowMajor j).val := by
    have h1 : (S1x1x1.rowMajor (ix3 (0 : Fin 1) (0 : Fin 1) (0 : Fin 1))).val < 1 := (S1x1x1.rowMajor _).isLt
    have h2 : (S_.rowMajor j).val < 1 := (S_.rowMajor j).isLt
    omega
  rw [mulf_apply, addf_apply, constant_apply,
    shapeCast_apply _ shapeCasts_S1x1x1_S_ j (ix3 (0 : Fin 1) (0 : Fin 1) (0 : Fin 1)) hrm,
    shapeCast_apply _ shapeCasts_S1x1x1_S_ j (ix3 (0 : Fin 1) (0 : Fin 1) (0 : Fin 1)) hrm,
    extractStridedSlice_apply ![0, 0, 0] r slices_S2x1x128_S1x1x1_0_0_0 (ix3 (0 : Fin 1) (0 : Fin 1) (0 : Fin 1))
      (ix3 (0 : Fin 2) (0 : Fin 1) (0 : Fin 128)) (fun a => by match a with | ⟨0, _⟩ => rfl | ⟨1, _⟩ => rfl | ⟨2, _⟩ => rfl),
    extractStridedSlice_apply ![1, 0, 0] r slices_S2x1x128_S1x1x1_1_0_0 (ix3 (0 : Fin 1) (0 : Fin 1) (0 : Fin 1))
      (ix3 (1 : Fin 2) (0 : Fin 1) (0 : Fin 128)) (fun a => by match a with | ⟨0, _⟩ => rfl | ⟨1, _⟩ => rfl | ⟨2, _⟩ => rfl)]

/-- THE HOST TAIL AT THE SCALAR INDEX: the literal times the sum of the two rows' entries (k, 0, 0). -/
theorem tail_v46_apply (mI : (ℓ : Loc nD τ sig) → Buf (Elt Ideal) ℓ) (c : Dev nD) (j : S_.Idx) :
    mulf (F := Ideal) (s := S_) (φ := .f32) (constant S_ .f32 0xC159B0E2#32)
        (addf (F := Ideal) (s := S_) (φ := .f32)
          (shapeCast S_ (extractStridedSlice S1x1x1 ![0, 0, 0] (result mI c) slices_S2x1x128_S1x1x1_0_0_0) shapeCasts_S1x1x1_S_)
          (shapeCast S_ (extractStridedSlice S1x1x1 ![1, 0, 0] (result mI c) slices_S2x1x128_S1x1x1_1_0_0) shapeCasts_S1x1x1_S_)) j
      = Cert.Spec.lit 0xC159B0E2#32
          * (result mI c (ix3 (0 : Fin 2) (0 : Fin 1) (0 : Fin 128)) + result mI c (ix3 (1 : Fin 2) (0 : Fin 1) (0 : Fin 128))) :=
  tail_apply (result mI c) j

/-- The result's entry (k, 0, l) is lane l of the accumulator after position 25 k + 24. -/
theorem result_apply (c : Dev nD) (k : Fin 2) (l : Fin 128) :
    result m c (ix3 k (0 : Fin 1) l)
      = outsAt0 m c (25 * k.val + 24) (last_lt (ix3 k (0 : Fin 1) l)) (ix3 (0 : Fin 1) (0 : Fin 1) l) := rfl

/-! ## The run, read -/

/-- THE RUN with the result named and the arguments kept: every execution ends with the last buffer at the host tail
    of the result array and the seven argument arrays as launched. -/
theorem run_value : θ_run defs (onTc (τ := τ) (main (F := F))) ⟨m, fun _ => 0, ρ⟩ (fun r => ∀ c : Dev nD,
      r.2.mem ((c.tc : Thread nD τ).loc main_v46)
        = mulf (constant S_ .f32 0xC159B0E2#32)
            (addf (shapeCast S_ (extractStridedSlice S1x1x1 ![0, 0, 0] (result m c) slices_S2x1x128_S1x1x1_0_0_0) shapeCasts_S1x1x1_S_)
              (shapeCast S_ (extractStridedSlice S1x1x1 ![1, 0, 0] (result m c) slices_S2x1x128_S1x1x1_1_0_0) shapeCasts_S1x1x1_S_))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v46 (Pipeline.mem_restRefs_of main_v46 (by decide) (by decide))).trans (tail_v46 m c),
    (((h c).2 main_arg0 (Pipeline.mem_restRefs_of main_arg0 (by decide) (by decide))).trans (W_main_arg0 m (dats m) c)),
    (((h c).2 main_arg1 (Pipeline.mem_restRefs_of main_arg1 (by decide) (by decide))).trans (W_main_arg1 m (dats m) c)),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c)),
    (((h c).2 main_arg5 (Pipeline.mem_restRefs_of main_arg5 (by decide) (by decide))).trans (W_main_arg5 m (dats m) c)),
    (((h c).2 main_arg6 (Pipeline.mem_restRefs_of main_arg6 (by decide) (by decide))).trans (W_main_arg6 m (dats m) c))⟩)
    (run_main m ρ)

end Cert.KernelIdeal.Hand

end
-- ==== Proof.KernelPairLayout.lean ====
/-
  The layout operations of the pair-energy chunk read at explicit coordinates: a column of the 200x6 feature chunk,
  a 200x1 column spread over 64 lanes, the keepdims cast of a lane sum, and the two one-axis sums.
-/
import proofs.«180775_j47991964566172_2_alg».proof.Proof.Gen.KernelIdeal.Skeleton
import Idealize.ShloMosaic.Lib.ValueLayout
import Idealize.ShloMosaic.PureOps.Ideal.Laws

noncomputable section

namespace Cert.KernelIdeal.PairSide

open Cert.KernelIdeal Cert.KernelIdeal.Gen Idealize.ShloMosaic Idealize.ShloMosaic.ValueIdx
open scoped BigOperators

variable {α : Type}

/-- Column `k` of a 200x6 array, as a 200x1 column, read at row `r`. -/
theorem col_apply (k : Fin 6) (X : S200x6.Idx → α) (h : S200x6.Slices ![0, k.val] S200x1) (r : Fin 200) (u : Fin 1) :
    extractStridedSlice S200x1 ![0, k.val] X h (ix2 r u) = X (ix2 r k) :=
  slice2_axis1_apply k.val X h r u k (by have := u.isLt; omega)

/-- A 200x1 column spread over 64 lanes reads, at `(r, l)`, the column at row `r`. -/
theorem spread_apply (v : S200x1.Idx → α) (h : S200x1.Broadcasts S200x64) (r : Fin 200) (l : Fin 64) :
    broadcastTo S200x64 v h (ix2 r l) = v (ix2 r (0 : Fin 1)) := by
  refine broadcastTo_apply v h (ix2 r l) (ix2 r (0 : Fin 1)) fun ax => ?_
  match ax with
  | ⟨0, _⟩ => rfl
  | ⟨1, _⟩ => rfl

/-- A length-200 vector cast to a 200x1 column reads, at `(r, u)`, the vector at `r`. -/
theorem keepdims_apply (x : S200.Idx → α) (h : S200.ShapeCasts S200x1) (r : Fin 200) (u : Fin 1) :
    shapeCast S200x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The sum over the 64 lanes of a 200x64 array, at row `r`. -/
theorem laneSum_apply (src : FVec Ideal S200x64 .f32) (h : S200x64.Reduces [1] S200) (hφ : FKind.Formats .f32)
    (hacc : (0x00000000#32 : BitVec 32) = FKind.add.neutral .f32 hφ) (r : Fin 200) :
    multiReduction (F := Ideal) .add [1] S200 src 0x00000000#32 h hφ hacc (ix1 r) = ∑ l : Fin 64, src (ix2 r l) := by
  refine (Ideal.multiReduction_add_single src _ h hφ hacc (ix1 r)).trans ?_
  refine Finset.sum_congr rfl fun l _ => congrArg src ?_
  funext c
  match c with
  | ⟨0, _⟩ => rfl
  | ⟨1, _⟩ => rfl

/-- The sum over the 200 rows of a 200x1 column, at its one index. -/
theorem rowSum_apply (src : FVec Ideal S200x1 .f32) (h : S200x1.Reduces [0] S1) (hφ : FKind.Formats .f32)
    (hacc : (0x00000000#32 : BitVec 32) = FKind.add.neutral .f32 hφ) (u : Fin 1) :
    multiReduction (F := Ideal) .add [0] S1 src 0x00000000#32 h hφ hacc (ix1 u) = ∑ r : Fin 200, src (ix2 r (0 : Fin 1)) := by
  refine (Ideal.multiReduction_add_single src _ h hφ hacc (ix1 u)).trans ?_
  refine Finset.sum_congr rfl fun r _ => congrArg src ?_
  funext c
  match c with
  | ⟨0, _⟩ => rfl
  | ⟨1, _⟩ => exact Fin.ext (by have := u.isLt; show u.val = 0; omega)

end Cert.KernelIdeal.PairSide

end
-- ==== Proof.KernelPair.lean ====
/-
  The pair-energy arithmetic of one 200-row chunk, read at the extended reals: the chunk's result is the double sum,
  over its 200 rows and 64 neighbour slots, of the specification's pair energy at the chunk's loaded values.
-/
import proofs.«180775_j47991964566172_2_alg».proof.Proof.KernelPairLayout
import proofs.«180775_j47991964566172_2_alg».proof.Proof.Spec

noncomputable section

namespace Cert.KernelIdeal.PairSide

open Cert.KernelIdeal Cert.KernelIdeal.Gen Idealize.ShloMosaic Idealize.ShloMosaic.ValueIdx
open scoped BigOperators

/-- A square root at an index is the ideal square root of the element. -/
theorem sqrt_apply {s : Shape} {φ : FTy} (a : FVec Ideal s φ) (i : s.Idx) : sqrt a i = Ideal.sqrt (a i) := rfl
/-- An integer comparison at an index compares the elements. -/
theorem cmpi_apply {s : Shape} {w : Nat} (p : CmpIPredicate) (x y : IVec s w) (i : s.Idx) :
    cmpi p x y i = IntOp.cmpi p (x i) (y i) := rfl

/-- The identity cast of the feature chunk. -/
theorem pay5_eq (v16 : Vec Ideal S200x6 .f32) : k0_pay5 (F := Ideal) v16 = v16 :=
  shapeCast_self v16 shapeCasts_S200x6_S200x6

/-- Column `k` of the feature chunk at row `r`. -/
theorem feat_apply (k : Fin 6) (v16 : Vec Ideal S200x6 .f32) (h : S200x6.Slices ![0, k.val] S200x1) (r : Fin 200)
    (u : Fin 1) : extractStridedSlice S200x1 ![0, k.val] (k0_pay5 (F := Ideal) v16) h (ix2 r u) = v16 (ix2 r k) := by
  rw [pay5_eq]; exact col_apply k v16 h r u

theorem feat0_apply (v16 : Vec Ideal S200x6 .f32) (r : Fin 200) (u : Fin 1) :
    extractStridedSlice S200x1 ![0, 0] (k0_pay5 (F := Ideal) v16) slices_S200x6_o0_0_S200x1 (ix2 r u) = v16 (ix2 r 0) :=
  feat_apply 0 v16 slices_S200x6_o0_0_S200x1 r u
theorem feat1_apply (v16 : Vec Ideal S200x6 .f32) (r : Fin 200) (u : Fin 1) :
    extractStridedSlice S200x1 ![0, 1] (k0_pay5 (F := Ideal) v16) slices_S200x6_o0_1_S200x1 (ix2 r u) = v16 (ix2 r 1) :=
  feat_apply 1 v16 slices_S200x6_o0_1_S200x1 r u
theorem feat2_apply (v16 : Vec Ideal S200x6 .f32) (r : Fin 200) (u : Fin 1) :
    extractStridedSlice S200x1 ![0, 2] (k0_pay5 (F := Ideal) v16) slices_S200x6_o0_2_S200x1 (ix2 r u) = v16 (ix2 r 2) :=
  feat_apply 2 v16 slices_S200x6_o0_2_S200x1 r u
theorem pay6_apply (v16 : Vec Ideal S200x6 .f32) (r : Fin 200) (u : Fin 1) :
    k0_pay6 (F := Ideal) v16 (ix2 r u) = v16 (ix2 r 3) := feat_apply 3 v16 slices_S200x6_o0_3_S200x1 r u
theorem pay7_apply (v16 : Vec Ideal S200x6 .f32) (r : Fin 200) (u : Fin 1) :
    k0_pay7 (F := Ideal) v16 (ix2 r u) = v16 (ix2 r 4) := feat_apply 4 v16 slices_S200x6_o0_4_S200x1 r u
theorem pay8_apply (v16 : Vec Ideal S200x6 .f32) (r : Fin 200) (u : Fin 1) :
    k0_pay8 (F := Ideal) v16 (ix2 r u) = v16 (ix2 r 5) := feat_apply 5 v16 slices_S200x6_o0_5_S200x1 r u

theorem pay9_eq (v : Vec Ideal S200x64 .f32) : k0_pay9 (F := Ideal) v = v := shapeCast_self v shapeCasts_S200x64_S200x64
theorem pay10_eq (v : Vec Ideal S200x64 .f32) : k0_pay10 (F := Ideal) v = v := shapeCast_self v shapeCasts_S200x64_S200x64
theorem pay11_eq (v : Vec Ideal S200x64 .f32) : k0_pay11 (F := Ideal) v = v := shapeCast_self v shapeCasts_S200x64_S200x64

/-- The distance of a pair at `(r, l)`: the root of the squared coordinate differences, 1 where the slot is padding. -/
theorem pay12_apply (v16 : Vec Ideal S200x6 .f32) (v25 v28 v31 : Vec Ideal S200x64 .f32) (v43 : Vec Ideal S200x64 .i32)
    (r : Fin 200) (l : Fin 64) :
    k0_pay12 (F := Ideal) v16 v25 v28 v31 v43 (ix2 r l)
      = Ideal.sqrt (Scalar.select (IntOp.cmpi .ne (v43 (ix2 r l)) 0#32) (Cert.Spec.lit 0x3F800000#32)
          ((v25 (ix2 r l) - v16 (ix2 r 0)) * (v25 (ix2 r l) - v16 (ix2 r 0))
            + (v28 (ix2 r l) - v16 (ix2 r 1)) * (v28 (ix2 r l) - v16 (ix2 r 1))
            + (v31 (ix2 r l) - v16 (ix2 r 2)) * (v31 (ix2 r l) - v16 (ix2 r 2)))) := by
  unfold k0_pay12
  simp only [sqrt_apply, select_apply, cmpi_apply, constantI_apply, broadcast_apply, addf_apply, mulf_apply, subf_apply,
    spread_apply, shapeCast_self, feat0_apply, feat1_apply, feat2_apply]
  rfl

/-- The scale constant at an index. -/
theorem pay13_apply (i : S200x64.Idx) : k0_pay13 (F := Ideal) i = Cert.Spec.lit 0x3FF1E237#32 := rfl

/-- The chunk's two sums: over the 64 lanes of each row, then over the 200 rows. -/
theorem sums_apply (src : FVec Ideal S200x64 .f32) (u : Fin 1) :
    multiReduction (F := Ideal) .add [0] S1
        (shapeCast S200x1
          (multiReduction (F := Ideal) .add [1] S200 src 0x00000000#32 reduces_S200x64_S200 (.inl rfl) rfl)
          shapeCasts_S200_S200x1)
        0x00000000#32 reduces_S200x1_S1 (.inl rfl) rfl (ix1 u)
      = ∑ r : Fin 200, ∑ l : Fin 64, src (ix2 r l) := by
  refine (rowSum_apply _ _ _ _ u).trans ?_
  refine Finset.sum_congr rfl fun r _ => ?_
  refine (keepdims_apply _ _ r 0).trans ?_
  exact laneSum_apply src _ _ _ r

/-- THE CHUNK'S RESULT: the sum over its rows and slots of the specification's pair energy at the loaded values. -/
theorem chunk_sum_at (v16 : Vec Ideal S200x6 .f32) (v25 v28 v31 v34 v37 v40 : Vec Ideal S200x64 .f32)
    (v43 : Vec Ideal S200x64 .i32) (u : Fin 1) :
    k0_pay14 (F := Ideal) (k0_pay6 v16) (k0_pay7 v16) (k0_pay8 v16) (k0_pay9 v34) (k0_pay10 v37) (k0_pay11 v40)
        (k0_pay12 v16 v25 v28 v31 v43) (k0_pay13 (F := Ideal)) (ix1 u)
      = ∑ r : Fin 200, ∑ l : Fin 64,
          Cert.Spec.pairE (v16 (ix2 r (0 : Fin 6))) (v16 (ix2 r 1)) (v16 (ix2 r 2)) (v16 (ix2 r 3)) (v16 (ix2 r 4))
            (v16 (ix2 r 5)) (v25 (ix2 r l)) (v28 (ix2 r l)) (v31 (ix2 r l)) (v34 (ix2 r l)) (v37 (ix2 r l))
            (v40 (ix2 r l)) (IntOp.cmpi .ne (v43 (ix2 r l)) 0#32) := by
  unfold k0_pay14
  refine (sums_apply _ u).trans ?_
  refine Finset.sum_congr rfl fun r _ => Finset.sum_congr rfl fun l _ => ?_
  simp only [mulf_apply, addf_apply, divf_apply, maximumf_apply, sqrt_apply, broadcast_apply, spread_apply,
    pay6_apply, pay7_apply, pay8_apply, pay9_eq, pay10_eq, pay11_eq, pay12_apply, pay13_apply]
  unfold Cert.Spec.pairE
  rfl

theorem chunk_sum (v16 : Vec Ideal S200x6 .f32) (v25 v28 v31 v34 v37 v40 : Vec Ideal S200x64 .f32)
    (v43 : Vec Ideal S200x64 .i32) :
    k0_pay14 (F := Ideal) (k0_pay6 v16) (k0_pay7 v16) (k0_pay8 v16) (k0_pay9 v34) (k0_pay10 v37) (k0_pay11 v40)
        (k0_pay12 v16 v25 v28 v31 v43) (k0_pay13 (F := Ideal)) (ix1 (0 : Fin 1))
      = ∑ r : Fin 200, ∑ l : Fin 64,
          Cert.Spec.pairE (v16 (ix2 r (0 : Fin 6))) (v16 (ix2 r 1)) (v16 (ix2 r 2)) (v16 (ix2 r 3)) (v16 (ix2 r 4))
            (v16 (ix2 r 5)) (v25 (ix2 r l)) (v28 (ix2 r l)) (v31 (ix2 r l)) (v34 (ix2 r l)) (v37 (ix2 r l))
            (v40 (ix2 r l)) (IntOp.cmpi .ne (v43 (ix2 r l)) 0#32) :=
  chunk_sum_at v16 v25 v28 v31 v34 v37 v40 v43 0

end Cert.KernelIdeal.PairSide

end
-- ==== Proof.KernelHostTerms.lean ====
/-
  What the host operations before the region compute, as pure terms over the seven argument arrays, and each term
  read at an index: the six-column per-atom table (three coordinate columns, the C6 column, the polarisability
  column, the radius-ratio column looked up at the atom's number), the normalised neighbour indices, the table's rows
  gathered at them, the six gathered planes, and the padding flags widened to 32 bits.
-/
import proofs.«180775_j47991964566172_2_alg».proof.Proof.Gen.KernelIdeal.Launch
import proofs.«180775_j47991964566172_2_alg».proof.Proof.Spec
import Idealize.ShloMosaic.Lib.ValueIdx
import Idealize.ShloMosaic.Lib.Pipeline.Value
import Idealize.ShloMosaic.Lib.ValueLayout

set_option maxRecDepth 16384

noncomputable section

namespace Cert.KernelIdeal.HostSide

open Cert.KernelIdeal Cert.KernelIdeal.Gen
open Idealize.ShloMosaic Idealize.ShloMosaic.ValueIdx

variable {α : Type}
variable (x0 : S100000x3.Idx → EReal) (x1 x2 : S100000.Idx → EReal) (x3 : S119.Idx → EReal)
  (x4 : S100000x64.Idx → BitVec 32) (x5 : S100000.Idx → BitVec 32) (x6 : S100000x64.Idx → BitVec 1)

/-! ## The terms -/

/-- A per-atom array as a one-column array. -/
def col (v : S100000.Idx → α) : S100000x1.Idx → α := broadcastInDim S100000x1 ![0] bcast_S100000_S100000x1_0 v

/-- Column `k` of the coordinates as a per-atom array. -/
def coord (k : Nat) (h : S100000x3.Slices ![0, k] S100000x1) : S100000.Idx → EReal :=
  shapeCast S100000 (extractStridedSlice S100000x1 ![0, k] x0 h) shapeCasts_S100000x1_S100000

/-- The atomic numbers with a negative one wrapped by 119. -/
def num : S100000.Idx → BitVec 32 :=
  select (cmpi .slt x5 (broadcastInDim S100000 ![] bcast_S_S100000 (constantI S_ 32 0#32)))
    (addi x5 (broadcastInDim S100000 ![] bcast_S_S100000 (constantI S_ 32 119#32))) x5

/-- The radius-ratio table gathered at the atoms' numbers. -/
def rrv : S100000.Idx → EReal :=
  Host.gather gather_S119_S100000x1_S100000_n_0_n_n_0_1_1 x3 (broadcastInDim S100000x1 ![0] bcast_S100000_S100000x1_0 (num x5))

/-- The six-column table of per-atom features. -/
def tbl : S100000x6.Idx → EReal :=
  concatenate S100000x6 1
    [⟨S100000x1, col (coord x0 0 slices_S100000x3_S100000x1_0_0)⟩, ⟨S100000x1, col (coord x0 1 slices_S100000x3_S100000x1_0_1)⟩,
     ⟨S100000x1, col (coord x0 2 slices_S100000x3_S100000x1_0_2)⟩, ⟨S100000x1, col x1⟩, ⟨S100000x1, col x2⟩,
     ⟨S100000x1, col (rrv x3 x5)⟩]
    concatenates_S100000x1_S100000x1_S100000x1_S100000x1_S100000x1_S100000x1_S100000x6_d1

/-- The neighbour indices with a negative one wrapped by 100000, as start indices of the gather. -/
def nidx : S100000x64x1.Idx → BitVec 32 :=
  broadcastInDim S100000x64x1 ![0, 1] bcast_S100000x64_S100000x64x1_0_1
    (select (cmpi .slt x4 (broadcastInDim S100000x64 ![] bcast_S_S100000x64 (constantI S_ 32 0#32)))
      (addi x4 (broadcastInDim S100000x64 ![] bcast_S_S100000x64 (constantI S_ 32 100000#32))) x4)

/-- The table's rows gathered at the neighbour indices. -/
def gath : S100000x64x6.Idx → EReal :=
  Host.gather gather_S100000x6_S100000x64x1_S100000x64x6_2_0_n_n_0_2_16 (tbl x0 x1 x2 x3 x5) (nidx x4)

/-- Plane `k` of the gathered rows. -/
def plane (k : Nat) (h : S100000x64x6.Slices ![0, 0, k] S100000x64x1) : S100000x64.Idx → EReal :=
  shapeCast S100000x64 (extractStridedSlice S100000x64x1 ![0, 0, k] (gath x0 x1 x2 x3 x4 x5) h) shapeCasts_S100000x64x1_S100000x64

/-- The padding flags widened to 32 bits. -/
def maskw : S100000x64.Idx → BitVec 32 := extui 32 x6 natLt_1_32

/-! ## The terms read at an index -/

theorem col_apply (v : S100000.Idx → α) (i : Fin 100000) (z : Fin 1) : col v (ix2 i z) = v (ix1 i) := by
  unfold col
  refine broadcastInDim_apply _ _ _ _ _ (fun a => ?_)
  match a with
  | ⟨0, _⟩ => exact (if_neg (show ¬ ((100000 : ℕ) = 1) by decide)).symm

theorem coord_apply (k : Nat) (h : S100000x3.Slices ![0, k] S100000x1) (i : Fin 100000) (kk : Fin 3) (hk : kk.val = k) :
    coord x0 k h (ix1 i) = x0 (ix2 i kk) := by
  unfold coord
  rw [shapeCast_apply _ _ _ (ix2 i (0 : Fin 1)) (by
    rw [Shape.rowMajor_val_two, Shape.rowMajor_val_one]
    show i.val * 1 + 0 = i.val
    omega)]
  exact slice2_axis1_apply k x0 h i 0 kk (by rw [hk]; rfl)

theorem num_apply (i : Fin 100000) :
    num x5 (ix1 i) = Scalar.select (IntOp.cmpi .slt (x5 (ix1 i)) 0#32) (IntOp.addi (x5 (ix1 i)) 119#32) (x5 (ix1 i)) := rfl

/-- The radius-ratio gather at atom `i`: the table at the atom's number, wrapped and clamped. -/
theorem rrv_apply (i : Fin 100000) : rrv x3 x5 (ix1 i) = Cert.Spec.rr x3 x5 i := by
  unfold rrv Host.gather Cert.Spec.rr
  congr 1
  funext a
  obtain rfl : a = 0 := Subsingleton.elim _ _
  refine Fin.ext ?_
  show gather_S119_S100000x1_S100000_n_0_n_n_0_1_1.start (ix1 i) _ 0
      + gather_S119_S100000x1_S100000_n_0_n_n_0_1_1.batchCoord (ix1 i) 0
      + gather_S119_S100000x1_S100000_n_0_n_n_0_1_1.offCoord (ix1 i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S119_S100000x1_S100000_n_0_n_n_0_1_1.startIndexMap from List.mem_singleton.mpr rfl)]
  have hsi : gather_S119_S100000x1_S100000_n_0_n_n_0_1_1.siIdx (ix1 i)
      ⟨List.idxOf (0 : Fin 1) gather_S119_S100000x1_S100000_n_0_n_n_0_1_1.startIndexMap,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  show min (col (num x5) (ix2 i 0)).toInt.toNat (119 - 1) = _
  rw [col_apply, num_apply]
  rfl

/-- One column of a concatenation of six one-column arrays. -/
theorem cat6_apply (p0 p1 p2 p3 p4 p5 : S100000x1.Idx → α) (i : Fin 100000) (k : Fin 6) (x₁ : S100000x1.Idx → α)
    (hxk : ([⟨S100000x1, p0⟩, ⟨S100000x1, p1⟩, ⟨S100000x1, p2⟩, ⟨S100000x1, p3⟩, ⟨S100000x1, p4⟩, ⟨S100000x1, p5⟩] :
      List ((s : Shape) × (s.Idx → α)))[k.val]? = some ⟨S100000x1, x₁⟩) :
    concatenate S100000x6 1 [⟨S100000x1, p0⟩, ⟨S100000x1, p1⟩, ⟨S100000x1, p2⟩, ⟨S100000x1, p3⟩, ⟨S100000x1, p4⟩, ⟨S100000x1, p5⟩]
      concatenates_S100000x1_S100000x1_S100000x1_S100000x1_S100000x1_S100000x1_S100000x6_d1 (ix2 i k) = x₁ (ix2 i (0 : Fin 1)) := by
  have hk : k.val < ([⟨S100000x1, p0⟩, ⟨S100000x1, p1⟩, ⟨S100000x1, p2⟩, ⟨S100000x1, p3⟩, ⟨S100000x1, p4⟩, ⟨S100000x1, p5⟩] :
      List ((s : Shape) × (s.Idx → α))).length := k.isLt
  refine concatenate_apply_piece (1 : Fin 2) _ _ (ix2 i k) k.val hk S100000x1 x₁ ?_ rfl k.val ?_ (ix2 i (0 : Fin 1)) ?_ ?_
  · rw [List.getElem?_eq_getElem hk] at hxk; exact Option.some.inj hxk
  · match k with
    | ⟨0, _⟩ => rfl
    | ⟨1, _⟩ => rfl
    | ⟨2, _⟩ => rfl
    | ⟨3, _⟩ => rfl
    | ⟨4, _⟩ => rfl
    | ⟨5, _⟩ => rfl
  · intro b hb
    match b with
    | ⟨0, _⟩ => rfl
    | ⟨1, _⟩ => exact absurd rfl hb
  · show k.val + 0 = k.val
    rfl

theorem tbl_col0 (i : Fin 100000) : tbl x0 x1 x2 x3 x5 (ix2 i (0 : Fin 6)) = x0 (ix2 i 0) := by
  unfold tbl; rw [cat6_apply _ _ _ _ _ _ i 0 _ rfl, col_apply]; exact coord_apply x0 0 _ i 0 rfl
theorem tbl_col1 (i : Fin 100000) : tbl x0 x1 x2 x3 x5 (ix2 i (1 : Fin 6)) = x0 (ix2 i 1) := by
  unfold tbl; rw [cat6_apply _ _ _ _ _ _ i 1 _ rfl, col_apply]; exact coord_apply x0 1 _ i 1 rfl
theorem tbl_col2 (i : Fin 100000) : tbl x0 x1 x2 x3 x5 (ix2 i (2 : Fin 6)) = x0 (ix2 i 2) := by
  unfold tbl; rw [cat6_apply _ _ _ _ _ _ i 2 _ rfl, col_apply]; exact coord_apply x0 2 _ i 2 rfl
theorem tbl_col3 (i : Fin 100000) : tbl x0 x1 x2 x3 x5 (ix2 i (3 : Fin 6)) = x1 (ix1 i) := by
  unfold tbl; rw [cat6_apply _ _ _ _ _ _ i 3 _ rfl, col_apply]
theorem tbl_col4 (i : Fin 100000) : tbl x0 x1 x2 x3 x5 (ix2 i (4 : Fin 6)) = x2 (ix1 i) := by
  unfold tbl; rw [cat6_apply _ _ _ _ _ _ i 4 _ rfl, col_apply]
theorem tbl_col5 (i : Fin 100000) : tbl x0 x1 x2 x3 x5 (ix2 i (5 : Fin 6)) = Cert.Spec.rr x3 x5 i := by
  unfold tbl; rw [cat6_apply _ _ _ _ _ _ i 5 _ rfl, col_apply]; exact rrv_apply x3 x5 i

theorem nidx_apply (i : Fin 100000) (mm : Fin 64) (z : Fin 1) :
    nidx x4 (ix3 i mm z)
      = Scalar.select (IntOp.cmpi .slt (x4 (ix2 i mm)) 0#32) (IntOp.addi (x4 (ix2 i mm)) 100000#32) (x4 (ix2 i mm)) := by
  unfold nidx
  rw [broadcastInDim_apply _ _ _ _ (ix2 i mm) (fun a => by
    match a with
    | ⟨0, _⟩ => exact (if_neg (show ¬ ((100000 : ℕ) = 1) by decide)).symm
    | ⟨1, _⟩ => exact (if_neg (show ¬ ((64 : ℕ) = 1) by decide)).symm)]
  rfl

/-- The table gather at `(i, mm, k)`: the table's row at the atom the slot names, column `k`. -/
theorem gath_apply (i : Fin 100000) (mm : Fin 64) (k : Fin 6) :
    gath x0 x1 x2 x3 x4 x5 (ix3 i mm k) = tbl x0 x1 x2 x3 x5 (ix2 (Cert.Spec.nbr x4 i mm) k) := by
  unfold gath Host.gather
  congr 1
  funext a
  refine Fin.ext ?_
  match a with
  | ⟨0, _⟩ =>
    show gather_S100000x6_S100000x64x1_S100000x64x6_2_0_n_n_0_2_16.start (ix3 i mm k) _ 0
        + gather_S100000x6_S100000x64x1_S100000x64x6_2_0_n_n_0_2_16.batchCoord (ix3 i mm k) 0
        + gather_S100000x6_S100000x64x1_S100000x64x6_2_0_n_n_0_2_16.offCoord (ix3 i mm k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x6_S100000x64x1_S100000x64x6_2_0_n_n_0_2_16.startIndexMap
      from List.mem_singleton.mpr rfl)]
    have hsi : gather_S100000x6_S100000x64x1_S100000x64x6_2_0_n_n_0_2_16.siIdx (ix3 i mm k)
        ⟨List.idxOf (0 : Fin 2) gather_S100000x6_S100000x64x1_S100000x64x6_2_0_n_n_0_2_16.startIndexMap,
          List.idxOf_lt_length_iff.2 (List.mem_singleton.mpr rfl)⟩ = ix3 i mm (0 : Fin 1) := by
      funext b; refine Fin.ext ?_
      match b with
      | ⟨0, _⟩ => rfl
      | ⟨1, _⟩ => rfl
      | ⟨2, _⟩ => rfl
    rw [hsi, nidx_apply]
    rfl
  | ⟨1, _⟩ =>
    show gather_S100000x6_S100000x64x1_S100000x64x6_2_0_n_n_0_2_16.start (ix3 i mm k) _ 1
        + gather_S100000x6_S100000x64x1_S100000x64x6_2_0_n_n_0_2_16.batchCoord (ix3 i mm k) 1
        + gather_S100000x6_S100000x64x1_S100000x64x6_2_0_n_n_0_2_16.offCoord (ix3 i mm k) 1 = _
    rw [GatherDims.batchCoord_eq_zero _ _ _ List.not_mem_nil]
    unfold GatherDims.start GatherDims.offCoord
    rw [dif_neg (show (1 : Fin 2) ∉ gather_S100000x6_S100000x64x1_S100000x64x6_2_0_n_n_0_2_16.startIndexMap by decide),
      dif_pos (show (1 : Fin 2) ∈ gather_S100000x6_S100000x64x1_S100000x64x6_2_0_n_n_0_2_16.sKept by decide)]
    show 0 + 0 + k.val = k.val
    omega

theorem plane_apply (k : Nat) (h : S100000x64x6.Slices ![0, 0, k] S100000x64x1) (i : Fin 100000) (mm : Fin 64) (kk : Fin 6)
    (hk : kk.val = k) : plane x0 x1 x2 x3 x4 x5 k h (ix2 i mm) = gath x0 x1 x2 x3 x4 x5 (ix3 i mm kk) := by
  unfold plane
  rw [shapeCast_apply _ _ _ (ix3 i mm (0 : Fin 1)) (by
    rw [Shape.rowMajor_val_three, Shape.rowMajor_val_two]
    show (i.val * 64 + mm.val) * 1 + 0 = i.val * 64 + mm.val
    omega)]
  refine extractStridedSlice_apply _ _ _ _ _ (fun ax => ?_)
  match ax with
  | ⟨0, _⟩ => exact (Nat.zero_add _).symm
  | ⟨1, _⟩ => exact (Nat.zero_add _).symm
  | ⟨2, _⟩ => show kk.val = k + 0; omega

theorem maskw_apply (i : Fin 100000) (mm : Fin 64) : maskw x6 (ix2 i mm) = (x6 (ix2 i mm)).setWidth 32 := rfl

/-- A widened one-bit flag is nonzero exactly when the flag is set. -/
theorem cmpi_ne_setWidth (b : BitVec 1) : IntOp.cmpi .ne (b.setWidth 32) 0#32 = b := by
  revert b; decide

theorem maskw_ne (i : Fin 100000) (mm : Fin 64) : IntOp.cmpi .ne (maskw x6 (ix2 i mm)) 0#32 = x6 (ix2 i mm) := by
  rw [maskw_apply]; exact cmpi_ne_setWidth _

/-! ## The six planes at a slot -/

theorem plane0_apply (i : Fin 100000) (mm : Fin 64) :
    plane x0 x1 x2 x3 x4 x5 0 slices_S100000x64x6_S100000x64x1_0_0_0 (ix2 i mm) = x0 (ix2 (Cert.Spec.nbr x4 i mm) 0) := by
  rw [plane_apply _ _ _ _ _ _ 0 _ i mm 0 rfl, gath_apply, tbl_col0]
theorem plane1_apply (i : Fin 100000) (mm : Fin 64) :
    plane x0 x1 x2 x3 x4 x5 1 slices_S100000x64x6_S100000x64x1_0_0_1 (ix2 i mm) = x0 (ix2 (Cert.Spec.nbr x4 i mm) 1) := by
  rw [plane_apply _ _ _ _ _ _ 1 _ i mm 1 rfl, gath_apply, tbl_col1]
theorem plane2_apply (i : Fin 100000) (mm : Fin 64) :
    plane x0 x1 x2 x3 x4 x5 2 slices_S100000x64x6_S100000x64x1_0_0_2 (ix2 i mm) = x0 (ix2 (Cert.Spec.nbr x4 i mm) 2) := by
  rw [plane_apply _ _ _ _ _ _ 2 _ i mm 2 rfl, gath_apply, tbl_col2]
theorem plane3_apply (i : Fin 100000) (mm : Fin 64) :
    plane x0 x1 x2 x3 x4 x5 3 slices_S100000x64x6_S100000x64x1_0_0_3 (ix2 i mm) = x1 (ix1 (Cert.Spec.nbr x4 i mm)) := by
  rw [plane_apply _ _ _ _ _ _ 3 _ i mm 3 rfl, gath_apply, tbl_col3]
theorem plane4_apply (i : Fin 100000) (mm : Fin 64) :
    plane x0 x1 x2 x3 x4 x5 4 slices_S100000x64x6_S100000x64x1_0_0_4 (ix2 i mm) = x2 (ix1 (Cert.Spec.nbr x4 i mm)) := by
  rw [plane_apply _ _ _ _ _ _ 4 _ i mm 4 rfl, gath_apply, tbl_col4]
theorem plane5_apply (i : Fin 100000) (mm : Fin 64) :
    plane x0 x1 x2 x3 x4 x5 5 slices_S100000x64x6_S100000x64x1_0_0_5 (ix2 i mm)
      = Cert.Spec.rr x3 x5 (Cert.Spec.nbr x4 i mm) := by
  rw [plane_apply _ _ _ _ _ _ 5 _ i mm 5 rfl, gath_apply, tbl_col5]

end Cert.KernelIdeal.HostSide
end
-- ==== Proof.KernelHost.lean ====
/-
  What the region finds in its eight input arrays when it is entered: each is a buffer the host operations before the
  region wrote, so its contents are those operations' composed pure term over the seven argument arrays, and that term
  read at an index is a feature of the atom, or of the atom a neighbour slot names.
-/
import proofs.«180775_j47991964566172_2_alg».proof.Proof.KernelIdealKit
import proofs.«180775_j47991964566172_2_alg».proof.Proof.KernelHostTerms
import proofs.«180775_j47991964566172_2_alg».proof.Proof.Spec
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.HostSide

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (c : Dev nD)

/-! ## Each buffer as the operations' composed term

The contents after a list of operations, one operation at a time: an operation's result at its own buffer is its
function of its operands' contents, at any other buffer what was there (the buffers are distinct); the six-operand
concatenation's operands are read off its literal family of buffers. -/

set_option maxHeartbeats 4000000 in
theorem e19 : (V (F := Ideal) m c main_v19 : S100000x6.Idx → EReal)
    = tbl (m ((c : Thread nD τ).loc main_arg0)) (m ((c : Thread nD τ).loc main_arg1)) (m ((c : Thread nD τ).loc main_arg2))
        (m ((c : Thread nD τ).loc main_arg3)) (m ((c : Thread nD τ).loc main_arg5)) := by
  dsimp only [V, V0]
  simp only [hostOps0, List.flatten_cons, List.flatten_nil, List.append_nil]
  simp (disch := decide) only [StableHlo.after_cons, StableHlo.after_nil,
      StableHlo.nullary_result', StableHlo.unary_result', StableHlo.binary_result', StableHlo.ternary_result', StableHlo.reshape_result',
      StableHlo.nary_result', StableHlo.nullary_result_ne', StableHlo.unary_result_ne', StableHlo.binary_result_ne',
      StableHlo.ternary_result_ne', StableHlo.reshape_result_ne', StableHlo.nary_result_ne', Matrix.cons_val]
  rfl

set_option maxHeartbeats 4000000 in
theorem e28 : (V (F := Ideal) m c main_v28 : S100000x64.Idx → EReal)
    = plane (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        0 slices_S100000x64x6_S100000x64x1_0_0_0 := by
  dsimp only [V, V0]
  simp only [hostOps0, List.flatten_cons, List.flatten_nil, List.append_nil]
  simp (disch := decide) only [StableHlo.after_cons, StableHlo.after_nil,
      StableHlo.nullary_result', StableHlo.unary_result', StableHlo.binary_result', StableHlo.ternary_result', StableHlo.reshape_result',
      StableHlo.nary_result', StableHlo.nullary_result_ne', StableHlo.unary_result_ne', StableHlo.binary_result_ne',
      StableHlo.ternary_result_ne', StableHlo.reshape_result_ne', StableHlo.nary_result_ne', Matrix.cons_val]
  rfl

set_option maxHeartbeats 4000000 in
theorem e30 : (V (F := Ideal) m c main_v30 : S100000x64.Idx → EReal)
    = plane (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        1 slices_S100000x64x6_S100000x64x1_0_0_1 := by
  dsimp only [V, V0]
  simp only [hostOps0, List.flatten_cons, List.flatten_nil, List.append_nil]
  simp (disch := decide) only [StableHlo.after_cons, StableHlo.after_nil,
      StableHlo.nullary_result', StableHlo.unary_result', StableHlo.binary_result', StableHlo.ternary_result', StableHlo.reshape_result',
      StableHlo.nary_result', StableHlo.nullary_result_ne', StableHlo.unary_result_ne', StableHlo.binary_result_ne',
      StableHlo.ternary_result_ne', StableHlo.reshape_result_ne', StableHlo.nary_result_ne', Matrix.cons_val]
  rfl

set_option maxHeartbeats 4000000 in
theorem e32 : (V (F := Ideal) m c main_v32 : S100000x64.Idx → EReal)
    = plane (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        2 slices_S100000x64x6_S100000x64x1_0_0_2 := by
  dsimp only [V, V0]
  simp only [hostOps0, List.flatten_cons, List.flatten_nil, List.append_nil]
  simp (disch := decide) only [StableHlo.after_cons, StableHlo.after_nil,
      StableHlo.nullary_result', StableHlo.unary_result', StableHlo.binary_result', StableHlo.ternary_result', StableHlo.reshape_result',
      StableHlo.nary_result', StableHlo.nullary_result_ne', StableHlo.unary_result_ne', StableHlo.binary_result_ne',
      StableHlo.ternary_result_ne', StableHlo.reshape_result_ne', StableHlo.nary_result_ne', Matrix.cons_val]
  rfl

set_option maxHeartbeats 4000000 in
theorem e34 : (V (F := Ideal) m c main_v34 : S100000x64.Idx → EReal)
    = plane (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        3 slices_S100000x64x6_S100000x64x1_0_0_3 := by
  dsimp only [V, V0]
  simp only [hostOps0, List.flatten_cons, List.flatten_nil, List.append_nil]
  simp (disch := decide) only [StableHlo.after_cons, StableHlo.after_nil,
      StableHlo.nullary_result', StableHlo.unary_result', StableHlo.binary_result', StableHlo.ternary_result', StableHlo.reshape_result',
      StableHlo.nary_result', StableHlo.nullary_result_ne', StableHlo.unary_result_ne', StableHlo.binary_result_ne',
      StableHlo.ternary_result_ne', StableHlo.reshape_result_ne', StableHlo.nary_result_ne', Matrix.cons_val]
  rfl

set_option maxHeartbeats 4000000 in
theorem e36 : (V (F := Ideal) m c main_v36 : S100000x64.Idx → EReal)
    = plane (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        4 slices_S100000x64x6_S100000x64x1_0_0_4 := by
  dsimp only [V, V0]
  simp only [hostOps0, List.flatten_cons, List.flatten_nil, List.append_nil]
  simp (disch := decide) only [StableHlo.after_cons, StableHlo.after_nil,
      StableHlo.nullary_result', StableHlo.unary_result', StableHlo.binary_result', StableHlo.ternary_result', StableHlo.reshape_result',
      StableHlo.nary_result', StableHlo.nullary_result_ne', StableHlo.unary_result_ne', StableHlo.binary_result_ne',
      StableHlo.ternary_result_ne', StableHlo.reshape_result_ne', StableHlo.nary_result_ne', Matrix.cons_val]
  rfl

set_option maxHeartbeats 4000000 in
theorem e38 : (V (F := Ideal) m c main_v38 : S100000x64.Idx → EReal)
    = plane (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        5 slices_S100000x64x6_S100000x64x1_0_0_5 := by
  dsimp only [V, V0]
  simp only [hostOps0, List.flatten_cons, List.flatten_nil, List.append_nil]
  simp (disch := decide) only [StableHlo.after_cons, StableHlo.after_nil,
      StableHlo.nullary_result', StableHlo.unary_result', StableHlo.binary_result', StableHlo.ternary_result', StableHlo.reshape_result',
      StableHlo.nary_result', StableHlo.nullary_result_ne', StableHlo.unary_result_ne', StableHlo.binary_result_ne',
      StableHlo.ternary_result_ne', StableHlo.reshape_result_ne', StableHlo.nary_result_ne', Matrix.cons_val]
  rfl

/-! ## The table's columns at an atom -/

/-- Column 0 of the table at atom `i`: the atom's x coordinate. -/
theorem V19_col0 (i : Fin 100000) : V (F := Ideal) m c main_v19 (ix2 i (0 : Fin 6)) = (m ((c : Thread nD τ).loc main_arg0)) (ix2 i 0) := by
  rw [e19]; exact tbl_col0 _ _ _ _ _ i

/-- Column 1 of the table at atom `i`: the atom's y coordinate. -/
theorem V19_col1 (i : Fin 100000) : V (F := Ideal) m c main_v19 (ix2 i (1 : Fin 6)) = (m ((c : Thread nD τ).loc main_arg0)) (ix2 i 1) := by
  rw [e19]; exact tbl_col1 _ _ _ _ _ i

/-- Column 2 of the table at atom `i`: the atom's z coordinate. -/
theorem V19_col2 (i : Fin 100000) : V (F := Ideal) m c main_v19 (ix2 i (2 : Fin 6)) = (m ((c : Thread nD τ).loc main_arg0)) (ix2 i 2) := by
  rw [e19]; exact tbl_col2 _ _ _ _ _ i

/-- Column 3 of the table at atom `i`: the atom's C6 coefficient. -/
theorem V19_col3 (i : Fin 100000) : V (F := Ideal) m c main_v19 (ix2 i (3 : Fin 6)) = (m ((c : Thread nD τ).loc main_arg1)) (ix1 i) := by
  rw [e19]; exact tbl_col3 _ _ _ _ _ i

/-- Column 4 of the table at atom `i`: the atom's polarisability. -/
theorem V19_col4 (i : Fin 100000) : V (F := Ideal) m c main_v19 (ix2 i (4 : Fin 6)) = (m ((c : Thread nD τ).loc main_arg2)) (ix1 i) := by
  rw [e19]; exact tbl_col4 _ _ _ _ _ i

/-- Column 5 of the table at atom `i`: the atom's radius ratio. -/
theorem V19_col5 (i : Fin 100000) : V (F := Ideal) m c main_v19 (ix2 i (5 : Fin 6)) = Cert.Spec.rr (m ((c : Thread nD τ).loc main_arg3)) (m ((c : Thread nD τ).loc main_arg5)) i := by
  rw [e19]; exact tbl_col5 _ _ _ _ _ i

/-! ## The six gathered planes at a slot -/

/-- The x coordinate of the atom that slot `(i, mm)` names. -/
theorem V28_at (i : Fin 100000) (mm : Fin 64) :
    V (F := Ideal) m c main_v28 (ix2 i mm) = (m ((c : Thread nD τ).loc main_arg0)) (ix2 (Cert.Spec.nbr (m ((c : Thread nD τ).loc main_arg4)) i mm) 0) := by
  rw [e28]; exact plane0_apply _ _ _ _ _ _ i mm

/-- The y coordinate of the atom that slot `(i, mm)` names. -/
theorem V30_at (i : Fin 100000) (mm : Fin 64) :
    V (F := Ideal) m c main_v30 (ix2 i mm) = (m ((c : Thread nD τ).loc main_arg0)) (ix2 (Cert.Spec.nbr (m ((c : Thread nD τ).loc main_arg4)) i mm) 1) := by
  rw [e30]; exact plane1_apply _ _ _ _ _ _ i mm

/-- The z coordinate of the atom that slot `(i, mm)` names. -/
theorem V32_at (i : Fin 100000) (mm : Fin 64) :
    V (F := Ideal) m c main_v32 (ix2 i mm) = (m ((c : Thread nD τ).loc main_arg0)) (ix2 (Cert.Spec.nbr (m ((c : Thread nD τ).loc main_arg4)) i mm) 2) := by
  rw [e32]; exact plane2_apply _ _ _ _ _ _ i mm

/-- The C6 coefficient of the atom that slot `(i, mm)` names. -/
theorem V34_at (i : Fin 100000) (mm : Fin 64) :
    V (F := Ideal) m c main_v34 (ix2 i mm) = (m ((c : Thread nD τ).loc main_arg1)) (ix1 (Cert.Spec.nbr (m ((c : Thread nD τ).loc main_arg4)) i mm)) := by
  rw [e34]; exact plane3_apply _ _ _ _ _ _ i mm

/-- The polarisability of the atom that slot `(i, mm)` names. -/
theorem V36_at (i : Fin 100000) (mm : Fin 64) :
    V (F := Ideal) m c main_v36 (ix2 i mm) = (m ((c : Thread nD τ).loc main_arg2)) (ix1 (Cert.Spec.nbr (m ((c : Thread nD τ).loc main_arg4)) i mm)) := by
  rw [e36]; exact plane4_apply _ _ _ _ _ _ i mm

/-- The radius ratio of the atom that slot `(i, mm)` names. -/
theorem V38_at (i : Fin 100000) (mm : Fin 64) :
    V (F := Ideal) m c main_v38 (ix2 i mm) = Cert.Spec.rr (m ((c : Thread nD τ).loc main_arg3)) (m ((c : Thread nD τ).loc main_arg5)) (Cert.Spec.nbr (m ((c : Thread nD τ).loc main_arg4)) i mm) := by
  rw [e38]; exact plane5_apply _ _ _ _ _ _ i mm

end Cert.KernelIdeal.HostSide
end
-- ==== Proof.KernelHostMask.lean ====
/-
  The padding mask the region reads: the host widens the one-bit mask argument to 32-bit words before the region,
  and a widened bit is nonzero exactly when the bit is set.
-/
import proofs.«180775_j47991964566172_2_alg».proof.Proof.KernelIdealKit
import Idealize.ShloMosaic.Lib.ValueIdx
import Idealize.ShloMosaic.Lib.StableHlo.Run

set_option maxRecDepth 16384

noncomputable section

namespace Cert.KernelIdeal.HostSide

open Cert.KernelIdeal Cert.KernelIdeal.Gen Cert.KernelIdeal.Hand
open Idealize.ShloMosaic Idealize.ShloMosaic.TcCoe Idealize.ShloMosaic.ValueIdx Idealize.ShloMosaic.StableHlo
open Idealize.SL.Sem

/-- A one-bit word widened to 32 bits is nonzero exactly when the bit is set. -/
theorem ne_zero_setWidth : ∀ b : BitVec 1, IntOp.cmpi .ne (b.setWidth 32) 0#32 = b := by decide

variable (m : (ℓ : Loc nD τ sig) → Buf (Elt Ideal) ℓ)

/-- When the region is entered the widened-mask buffer holds the mask argument, each bit widened to a word. -/
theorem V_main_v39 (c : Dev nD) :
    (V (F := Ideal) m c main_v39 : S100000x64.Idx → BitVec 32)
      = extui 32 (m ((c : Thread nD τ).loc main_arg6)) natLt_1_32 := by
  dsimp only [V, V0]
  simp only [hostOps0, List.flatten_cons, List.flatten_nil, List.append_nil]
  after_results

/-- The region's padding test at slot `(i, mm)` is the mask argument's bit there. -/
theorem mask_at (c : Dev nD) (i : Fin 100000) (mm : Fin 64) :
    IntOp.cmpi .ne (V (F := Ideal) m c main_v39 (ix2 i mm)) 0#32 = m ((c : Thread nD τ).loc main_arg6) (ix2 i mm) := by
  have e := congrFun (V_main_v39 m c) (ix2 i mm)
  rw [e, extui_apply]
  exact ne_zero_setWidth _

end Cert.KernelIdeal.HostSide

end
-- ==== Proof.LibTiles.lean ====
/-
  A sum over the rows of an array regrouped by tiles: a sum over `Fin (a * b)` is the sum over `a` blocks of the
  sum over the `b` rows of the block, row `q` of block `p` being row `b * p + q`. Applied twice it regroups
  100000 rows as 50 tiles of 10 chunks of 200 rows.
-/
import Mathlib

namespace Cert.LibTiles

open Finset

/-- Row `q` of block `p` lies inside the `a * b` rows. -/
theorem tile_lt {a b p q : ℕ} (hp : p < a) (hq : q < b) : b * p + q < a * b :=
  calc b * p + q < b * p + b := by omega
    _ = b * (p + 1) := by ring
    _ ≤ b * a := Nat.mul_le_mul_left _ hp
    _ = a * b := Nat.mul_comm _ _

/-- A sum over `a * b` rows is the sum over the `a` blocks of the sums over each block's `b` rows. -/
theorem sum_fin_mul {M : Type*} [AddCommMonoid M] (a b : ℕ) (g : Fin (a * b) → M) :
    ∑ i : Fin (a * b), g i = ∑ p : Fin a, ∑ q : Fin b, g ⟨b * p.val + q.val, tile_lt p.2 q.2⟩ := by
  rw [← finProdFinEquiv.sum_comp, Fintype.sum_prod_type]
  refine Finset.sum_congr rfl fun p _ => Finset.sum_congr rfl fun q _ => ?_
  exact congrArg g (Fin.ext (by simp [finProdFinEquiv]; ring))

/-- The same for a row count `n` given as a product. -/
theorem sum_fin_mul' {M : Type*} [AddCommMonoid M] {n : ℕ} (a b : ℕ) (h : n = a * b) (g : Fin n → M) :
    ∑ i : Fin n, g i = ∑ p : Fin a, ∑ q : Fin b, g ⟨b * p.val + q.val, h ▸ tile_lt p.2 q.2⟩ := by
  subst h
  exact sum_fin_mul a b g

/-- A sum over 100000 rows of 64 lanes regrouped as 50 tiles of 10 chunks of 200 rows: row `r` of chunk `k` of
    tile `t` is row `2000 * t + 200 * k + r`. -/
theorem sum_tiles {M : Type*} [AddCommMonoid M] (f : Fin 100000 → Fin 64 → M) :
    ∑ i : Fin 100000, ∑ l : Fin 64, f i l
      = ∑ t : Fin 50, ∑ k : Fin 10, ∑ r : Fin 200, ∑ l : Fin 64,
          f ⟨2000 * t.val + 200 * k.val + r.val, by omega⟩ l := by
  rw [sum_fin_mul' 50 2000 (by norm_num)]
  refine Finset.sum_congr rfl fun t _ => ?_
  rw [sum_fin_mul' 10 200 (by norm_num)]
  refine Finset.sum_congr rfl fun k _ => Finset.sum_congr rfl fun r _ => Finset.sum_congr rfl fun l _ => ?_
  exact congrArg (fun i => f i l) (Fin.ext (Nat.add_assoc _ _ _).symm)

end Cert.LibTiles
-- ==== Proof.LibRegroup.lean ====
/-
  Re-indexing of the sums a grid of 2 x 25 points over 10 chunks of 200 rows produces: two consecutive ranges of
  25 points are the 50 points, and the sum over points, chunks, rows and lanes is the sum over all 100000 rows
  and 64 lanes.
-/
import Mathlib
import proofs.«180775_j47991964566172_2_alg».proof.Proof.LibTiles

namespace Cert.LibRegroup

open Finset

/-- The range of points from the first of the row of 25 that contains point `25 * c + 24` up to that point is the
    `c`-th range of 25 points. -/
theorem row_range (c : ℕ) :
    Finset.Ico (25 * ((25 * c + 24) / 25)) (25 * c + 24 + 1) = Finset.Ico (25 * c) (25 * c + 25) := by
  have h : (25 * c + 24) / 25 = c := by omega
  rw [h]

/-- The sums over the two consecutive ranges of 25 points add up to the sum over the 50 points. -/
theorem two_rows {M : Type*} [AddCommMonoid M] (g : ℕ → M) :
    (∑ j ∈ Finset.Ico (25 * 0) (25 * 0 + 25), g j) + (∑ j ∈ Finset.Ico (25 * 1) (25 * 1 + 25), g j)
      = ∑ t : Fin 50, g t.val := by
  show (∑ j ∈ Finset.Ico 0 25, g j) + (∑ j ∈ Finset.Ico 25 50, g j) = _
  rw [Finset.sum_Ico_consecutive g (by norm_num : 0 ≤ 25) (by norm_num : 25 ≤ 50), ← Finset.range_eq_Ico,
    Finset.sum_range]

/-- The same with the two ranges as they arise from the last point of each row of 25. -/
theorem two_rows' {M : Type*} [AddCommMonoid M] (g : ℕ → M) :
    (∑ j ∈ Finset.Ico (25 * ((25 * 0 + 24) / 25)) (25 * 0 + 24 + 1), g j)
        + (∑ j ∈ Finset.Ico (25 * ((25 * 1 + 24) / 25)) (25 * 1 + 24 + 1), g j)
      = ∑ t : Fin 50, g t.val := by
  rw [row_range 0, row_range 1]
  exact two_rows g

/-- The sum over 50 points, `n = 10` chunks, 200 rows and 64 lanes, row `r` of chunk `k` of point `t` being row
    `2000 * t + 200 * k + r`, is the sum over all 100000 rows and 64 lanes. -/
theorem tiles_total {M : Type*} [AddCommMonoid M] (n : ℕ) (hn : n = 10) (f : Fin 100000 → Fin 64 → M)
    (h : ∀ (t : Fin 50) (k : Fin n) (r : Fin 200), 2000 * t.val + 200 * k.val + r.val < 100000) :
    ∑ t : Fin 50, ∑ k : Fin n, ∑ r : Fin 200, ∑ l : Fin 64, f ⟨2000 * t.val + 200 * k.val + r.val, h t k r⟩ l
      = ∑ i : Fin 100000, ∑ l : Fin 64, f i l := by
  subst hn
  exact (Cert.LibTiles.sum_tiles f).symm

/-- A sum over `Fin N` with `N = 50` is the sum over `Fin 50`. -/
theorem fin50_cast {M : Type*} [AddCommMonoid M] (N : ℕ) (hN : N = 50) (g : ℕ → M) :
    ∑ t : Fin N, g t.val = ∑ t : Fin 50, g t.val := by
  subst hN
  rfl

end Cert.LibRegroup
-- ==== Proof.KernelIdealTotal.lean ====
/-
  The kernel's result is the specification's energy. The tile total at grid position `t` is the sum, over its ten
  chunks of 200 rows and the 64 lanes, of the pair energies of the slots of rows 2000 t + 200 k + r: each load reads
  the region's arrays at that row, and the host operations before the region put there the features of the row's
  atom and of the atom its slot names. The two rows of the result hold the sums of the 25 tile totals of each core;
  the host adds them and scales: the constant times the sum over all 100000 atoms and 64 slots.
-/
import proofs.«180775_j47991964566172_2_alg».proof.Proof.KernelIdealSum
import proofs.«180775_j47991964566172_2_alg».proof.Proof.KernelIdealBlocks
import proofs.«180775_j47991964566172_2_alg».proof.Proof.KernelIdealFinal
import proofs.«180775_j47991964566172_2_alg».proof.Proof.KernelPair
import proofs.«180775_j47991964566172_2_alg».proof.Proof.KernelHost
import proofs.«180775_j47991964566172_2_alg».proof.Proof.KernelHostMask
import proofs.«180775_j47991964566172_2_alg».proof.Proof.LibRegroup

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- One slot's loads give the specification's slot energy at the slot's global row. -/
theorem slot_loads (c : Dev nD) (t : Fin cfg0.N) (k : Fin k0_t1_loop.trips) (r : Fin 200) (l : Fin 64) :
    Cert.Spec.pairE (cl0 (iblk m c 0 t) k (ix2 r (0 : Fin 6))) (cl0 (iblk m c 0 t) k (ix2 r 1)) (cl0 (iblk m c 0 t) k (ix2 r 2))
        (cl0 (iblk m c 0 t) k (ix2 r 3)) (cl0 (iblk m c 0 t) k (ix2 r 4)) (cl0 (iblk m c 0 t) k (ix2 r 5))
        (cl (e := .f32) (iblk m c 1 t) k (ix2 r l)) (cl (e := .f32) (iblk m c 2 t) k (ix2 r l)) (cl (e := .f32) (iblk m c 3 t) k (ix2 r l))
        (cl (e := .f32) (iblk m c 4 t) k (ix2 r l)) (cl (e := .f32) (iblk m c 5 t) k (ix2 r l)) (cl (e := .f32) (iblk m c 6 t) k (ix2 r l))
        (IntOp.cmpi .ne (cl (e := .i32) (iblk m c 7 t) k (ix2 r l)) 0#32)
      = Cert.Spec.slotE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) ⟨2000 * t.val + 200 * k.val + r.val, tile_row_lt t k r⟩ l := by
  rw [blk0_at, blk0_at, blk0_at, blk0_at, blk0_at, blk0_at, blk1_at, blk2_at, blk3_at, blk4_at, blk5_at, blk6_at, blk7_at]
  rw [Cert.KernelIdeal.HostSide.V19_col0, Cert.KernelIdeal.HostSide.V19_col1, Cert.KernelIdeal.HostSide.V19_col2,
    Cert.KernelIdeal.HostSide.V19_col3, Cert.KernelIdeal.HostSide.V19_col4, Cert.KernelIdeal.HostSide.V19_col5,
    Cert.KernelIdeal.HostSide.V28_at, Cert.KernelIdeal.HostSide.V30_at, Cert.KernelIdeal.HostSide.V32_at,
    Cert.KernelIdeal.HostSide.V34_at, Cert.KernelIdeal.HostSide.V36_at, Cert.KernelIdeal.HostSide.V38_at,
    Cert.KernelIdeal.HostSide.mask_at]
  rfl

/-- The tile total at a grid position. -/
theorem posTot_eq (c : Dev nD) (j : ℕ) (hj : j < cfg0.N)
    (h : ∀ (k : Fin k0_t1_loop.trips) (r : Fin 200), 2000 * j + 200 * k.val + r.val < 100000) :
    posTot m c j = ∑ k : Fin k0_t1_loop.trips, ∑ r : Fin 200, ∑ l : Fin 64,
      Cert.Spec.slotE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) ⟨2000 * j + 200 * k.val + r.val, h k r⟩ l := by
  unfold posTot
  rw [dif_pos hj]
  unfold tileTot
  refine Finset.sum_congr rfl fun k _ => ?_
  unfold chunk
  rw [show (o1 : S1.Idx) = ix1 (0 : Fin 1) from rfl, Cert.KernelIdeal.PairSide.chunk_sum]
  refine Finset.sum_congr rfl fun r _ => Finset.sum_congr rfl fun l _ => ?_
  exact slot_loads m c ⟨j, hj⟩ k r l

/-- Row `cidx` of the result holds the sum of the tile totals of that core's 25 positions. -/
theorem result_row (c : Dev nD) (cidx : Fin 2) :
    result m c (ix3 cidx (0 : Fin 1) (0 : Fin 128))
      = ∑ j ∈ Finset.Ico (25 * ((25 * cidx.val + 24) / 25)) (25 * cidx.val + 24 + 1), posTot m c j := by
  have hlt : 25 * cidx.val + 24 < cfg0.N := by have := cidx.isLt; have hN : cfg0.N = 50 := N_0; omega
  rw [← outs_at m c (0 : Fin 128) (25 * cidx.val + 24) hlt]
  unfold result
  exact outsAt0_congr m c rfl _ _ (funext fun a => Fin.ext (by match a with | ⟨0, _⟩ => rfl | ⟨1, _⟩ => rfl | ⟨2, _⟩ => rfl))

/-- The two rows together: the sum over all atoms and slots. -/
theorem rows_total (c : Dev nD) :
    result m c (ix3 (0 : Fin 2) (0 : Fin 1) (0 : Fin 128)) + result m c (ix3 (1 : Fin 2) (0 : Fin 1) (0 : Fin 128))
      = ∑ i : Fin 100000, ∑ l : Fin 64, Cert.Spec.slotE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i l := by
  rw [result_row m c 0, result_row m c 1]
  show (∑ j ∈ Finset.Ico (25 * ((25 * 0 + 24) / 25)) (25 * 0 + 24 + 1), posTot m c j)
      + (∑ j ∈ Finset.Ico (25 * ((25 * 1 + 24) / 25)) (25 * 1 + 24 + 1), posTot m c j) = _
  rw [Cert.LibRegroup.two_rows' (posTot m c)]
  have hN : cfg0.N = 50 := N_0
  have hr : ∀ (t : Fin 50) (k : Fin k0_t1_loop.trips) (r : Fin 200), 2000 * t.val + 200 * k.val + r.val < 100000 := fun t k r => by
    have := t.isLt; have := k.isLt; have := trips_eq; have := r.isLt; omega
  rw [← Cert.LibRegroup.tiles_total k0_t1_loop.trips trips_eq (fun i l => Cert.Spec.slotE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i l) hr]
  exact Finset.sum_congr rfl fun t _ => posTot_eq m c t.val (by have := t.isLt; omega) (hr t)

/-- THE KERNEL'S RESULT: the host tail's value is the specification's energy of the arguments. -/
theorem kernel_energy (c : Dev nD) :
    mulf (constant S_ .f32 0xC159B0E2#32) (addf (shapeCast S_ (extractStridedSlice S1x1x1 ![0, 0, 0] (result m c) slices_S2x1x128_S1x1x1_0_0_0) shapeCasts_S1x1x1_S_) (shapeCast S_ (extractStridedSlice S1x1x1 ![1, 0, 0] (result m c) slices_S2x1x128_S1x1x1_1_0_0) shapeCasts_S1x1x1_S_))
      = fun _ => Cert.Spec.energy (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext j
  rw [tail_v46_apply, rows_total]
  rfl

end Cert.KernelIdeal.Hand

end
-- ==== Proof.RefGather.lean ====
/-
  The reference's five gathers read at an index: each reads its operand at the row the start-index word names,
  the word read signed and clamped into the operand's rows.
-/
import proofs.«180775_j47991964566172_2_alg».proof.Proof.Gen.ReferenceIdeal.Read
import proofs.«180775_j47991964566172_2_alg».proof.Proof.Spec
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Idealize.ShloMosaic Idealize.ShloMosaic.ValueIdx

/-- A flat array of 100000 entries gathered at start indices [100000, 64, 1]: entry (i, m) is the array at the
    start index, read signed and clamped into [0, 99999]. -/
theorem gatherN_apply {α : Type} (x : S100000.Idx → α) (idx : IVec S100000x64x1 32) (i : Fin 100000) (m : Fin 64) :
    Host.gather gather_S100000_S100000x64x1_S100000x64_n_0_n_n_0_2_1 x idx (ix2 i m)
      = x (ix1 ⟨min (idx (ix3 i m 0)).toInt.toNat 99999, by omega⟩) := by
  have hd : gather_S100000_S100000x64x1_S100000x64_n_0_n_n_0_2_1
      = takeDims 100000 100000 64 gather_S100000_S100000x64x1_S100000x64_n_0_n_n_0_2_1_wf := rfl
  rw [hd, gather_take_apply (by decide)]
  have hi : takeIdx (ix2 i m) = ix3 i m (0 : Fin 1) := by
    funext a; match a with | ⟨0, _⟩ => rfl | ⟨1, _⟩ => rfl | ⟨2, _⟩ => rfl
  refine congrArg x (congrArg ix1 (Fin.ext ?_))
  show min (idx (takeIdx (ix2 i m))).toInt.toNat (100000 - 1) = min (idx (ix3 i m 0)).toInt.toNat 99999
  rw [hi]

/-- The 119-entry table gathered at start indices [100000, 1]: entry i is the table at the start index, read
    signed and clamped into [0, 118]. -/
theorem gatherT_apply {α : Type} (x : S119.Idx → α) (idx : IVec S100000x1 32) (i : Fin 100000) :
    Host.gather gather_S119_S100000x1_S100000_n_0_n_n_0_1_1 x idx (ix1 i)
      = x (ix1 ⟨min (idx (ix2 i 0)).toInt.toNat 118, by omega⟩) := by
  unfold Host.gather
  refine congrArg x ?_
  funext a
  obtain rfl : a = 0 := Subsingleton.elim _ _
  refine Fin.ext ?_
  show gather_S119_S100000x1_S100000_n_0_n_n_0_1_1.start (ix1 i) idx 0
    + gather_S119_S100000x1_S100000_n_0_n_n_0_1_1.batchCoord (ix1 i) 0
    + gather_S119_S100000x1_S100000_n_0_n_n_0_1_1.offCoord (ix1 i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S119_S100000x1_S100000_n_0_n_n_0_1_1.startIndexMap from List.mem_singleton.mpr rfl)]
  have hsi : gather_S119_S100000x1_S100000_n_0_n_n_0_1_1.siIdx (ix1 i)
      ⟨List.idxOf (0 : Fin 1) gather_S119_S100000x1_S100000_n_0_n_n_0_1_1.startIndexMap,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

/-- The coordinate rows [100000, 3] gathered at start indices [100000, 64, 1]: entry (i, m, k) is coordinate k of
    the row the start index names, read signed and clamped into [0, 99999]. -/
theorem gatherC_apply {α : Type} (x : S100000x3.Idx → α) (idx : IVec S100000x64x1 32) (i : Fin 100000) (m : Fin 64)
    (k : Fin 3) :
    Host.gather gather_S100000x3_S100000x64x1_S100000x64x3_2_0_n_n_0_2_13 x idx (ix3 i m k)
      = x (ix2 ⟨min (idx (ix3 i m 0)).toInt.toNat 99999, by omega⟩ k) := by
  unfold Host.gather
  refine congrArg x ?_
  funext a
  refine Fin.ext ?_
  match a with
  | ⟨0, _⟩ =>
    show gather_S100000x3_S100000x64x1_S100000x64x3_2_0_n_n_0_2_13.start (ix3 i m k) idx 0
      + gather_S100000x3_S100000x64x1_S100000x64x3_2_0_n_n_0_2_13.batchCoord (ix3 i m k) 0
      + gather_S100000x3_S100000x64x1_S100000x64x3_2_0_n_n_0_2_13.offCoord (ix3 i m k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x3_S100000x64x1_S100000x64x3_2_0_n_n_0_2_13.startIndexMap
      from List.mem_singleton.mpr rfl)]
    have hsi : gather_S100000x3_S100000x64x1_S100000x64x3_2_0_n_n_0_2_13.siIdx (ix3 i m k)
        ⟨List.idxOf (0 : Fin 2) gather_S100000x3_S100000x64x1_S100000x64x3_2_0_n_n_0_2_13.startIndexMap,
        List.idxOf_lt_length_iff.2 (List.mem_singleton.mpr rfl)⟩ = ix3 i m (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S100000x3_S100000x64x1_S100000x64x3_2_0_n_n_0_2_13.start (ix3 i m k) idx 1
      + gather_S100000x3_S100000x64x1_S100000x64x3_2_0_n_n_0_2_13.batchCoord (ix3 i m k) 1
      + gather_S100000x3_S100000x64x1_S100000x64x3_2_0_n_n_0_2_13.offCoord (ix3 i m k) 1 = k.val
    rw [GatherDims.batchCoord_eq_zero _ _ _ List.not_mem_nil]
    have hs : gather_S100000x3_S100000x64x1_S100000x64x3_2_0_n_n_0_2_13.start (ix3 i m k) idx 1 = 0 := by
      unfold GatherDims.start
      rw [dif_neg (show (1 : Fin 2) ∉ gather_S100000x3_S100000x64x1_S100000x64x3_2_0_n_n_0_2_13.startIndexMap
        from by decide)]
    rw [hs]
    simp only [Nat.add_zero, Nat.zero_add]
    unfold GatherDims.offCoord
    rw [dif_pos (show (1 : Fin 2) ∈ gather_S100000x3_S100000x64x1_S100000x64x3_2_0_n_n_0_2_13.sKept from by decide)]
    rfl

end Cert.RefSide

end
-- ==== Proof.RefVals.lean ====
/-
  The reference's gathered stages read at a slot: each is the gathered array at the neighbour atom the slot names.
-/
import proofs.«180775_j47991964566172_2_alg».proof.Proof.Gen.ReferenceIdeal.Read
import proofs.«180775_j47991964566172_2_alg».proof.Proof.Spec
import Idealize.ShloMosaic.Lib.ValueIdx
import Idealize.ShloMosaic.Lib.Pipeline.Value
import Idealize.ShloMosaic.PureOps.Ideal.Laws
import proofs.«180775_j47991964566172_2_alg».proof.Proof.RefGather

noncomputable section

namespace Cert.RefSide

open Cert.ReferenceIdeal Cert.ReferenceIdeal.Gen Cert.ReferenceIdeal.Read Idealize.ShloMosaic Idealize.ShloMosaic.ValueIdx
open Cert.Spec (nbr rr rowOf)

/-- The start-index word of slot (i, m): the stored index, a negative one wrapped by 100000. -/
theorem v5_at (x4 : (⟨S100000x64, .i32⟩ : BufTy).Contents (Elt Ideal)) (i : Fin 100000) (m : Fin 64) :
    val_main_v5 (F := Ideal) x4 (ix3 i m 0)
      = Scalar.select (IntOp.cmpi .slt (x4 (ix2 i m)) 0#32) (IntOp.addi (x4 (ix2 i m)) 100000#32) (x4 (ix2 i m)) := by
  have hi : idx_main_v5 (ix3 i m (0 : Fin 1)) = ix2 i m := by
    funext a; match a with | ⟨0, _⟩ => rfl | ⟨1, _⟩ => rfl
  rw [val_main_v5_apply, hi, val_main_v4_apply, val_main_v1_apply, val_main_v3_apply, val_main_v0_apply,
    val_main_v2_apply, val_main_c_apply, val_main_c_0_apply]

/-- The start-index word of slot (i, m): the stored index, a negative one wrapped by 100000. -/
theorem v22_at (x4 : (⟨S100000x64, .i32⟩ : BufTy).Contents (Elt Ideal)) (i : Fin 100000) (m : Fin 64) :
    val_main_v22 (F := Ideal) x4 (ix3 i m 0)
      = Scalar.select (IntOp.cmpi .slt (x4 (ix2 i m)) 0#32) (IntOp.addi (x4 (ix2 i m)) 100000#32) (x4 (ix2 i m)) := by
  have hi : idx_main_v22 (ix3 i m (0 : Fin 1)) = ix2 i m := by
    funext a; match a with | ⟨0, _⟩ => rfl | ⟨1, _⟩ => rfl
  rw [val_main_v22_apply, hi, val_main_v21_apply, val_main_v18_apply, val_main_v20_apply, val_main_v17_apply,
    val_main_v19_apply, val_main_c_3_apply, val_main_c_4_apply]

/-- The start-index word of slot (i, m): the stored index, a negative one wrapped by 100000. -/
theorem v31_at (x4 : (⟨S100000x64, .i32⟩ : BufTy).Contents (Elt Ideal)) (i : Fin 100000) (m : Fin 64) :
    val_main_v31 (F := Ideal) x4 (ix3 i m 0)
      = Scalar.select (IntOp.cmpi .slt (x4 (ix2 i m)) 0#32) (IntOp.addi (x4 (ix2 i m)) 100000#32) (x4 (ix2 i m)) := by
  have hi : idx_main_v31 (ix3 i m (0 : Fin 1)) = ix2 i m := by
    funext a; match a with | ⟨0, _⟩ => rfl | ⟨1, _⟩ => rfl
  rw [val_main_v31_apply, hi, val_main_v30_apply, val_main_v27_apply, val_main_v29_apply, val_main_v26_apply,
    val_main_v28_apply, val_main_c_6_apply, val_main_c_7_apply]

/-- The start-index word of slot (i, m): the stored index, a negative one wrapped by 100000. -/
theorem v63_at (x4 : (⟨S100000x64, .i32⟩ : BufTy).Contents (Elt Ideal)) (i : Fin 100000) (m : Fin 64) :
    val_main_v63 (F := Ideal) x4 (ix3 i m 0)
      = Scalar.select (IntOp.cmpi .slt (x4 (ix2 i m)) 0#32) (IntOp.addi (x4 (ix2 i m)) 100000#32) (x4 (ix2 i m)) := by
  have hi : idx_main_v63 (ix3 i m (0 : Fin 1)) = ix2 i m := by
    funext a; match a with | ⟨0, _⟩ => rfl | ⟨1, _⟩ => rfl
  rw [val_main_v63_apply, hi, val_main_v62_apply, val_main_v59_apply, val_main_v61_apply, val_main_v58_apply,
    val_main_v60_apply, val_main_c_14_apply, val_main_c_15_apply]

/-- The start-index word of atom i into the table: its atomic number, a negative one wrapped by 119. -/
theorem v53_at (x5 : (⟨S100000, .i32⟩ : BufTy).Contents (Elt Ideal)) (i : Fin 100000) :
    val_main_v53 (F := Ideal) x5 (ix2 i 0)
      = Scalar.select (IntOp.cmpi .slt (x5 (ix1 i)) 0#32) (IntOp.addi (x5 (ix1 i)) 119#32) (x5 (ix1 i)) := by
  have hi : idx_main_v53 (ix2 i (0 : Fin 1)) = ix1 i := by
    funext a; match a with | ⟨0, _⟩ => rfl
  rw [val_main_v53_apply, hi, val_main_v52_apply, val_main_v49_apply, val_main_v51_apply, val_main_v48_apply,
    val_main_v50_apply, val_main_c_11_apply, val_main_c_12_apply]

/-- The gathered coordinates of slot (i, m): coordinate k of the neighbour atom. -/
theorem v6_at (x0 : (⟨S100000x3, .f32⟩ : BufTy).Contents (Elt Ideal)) (x4 : (⟨S100000x64, .i32⟩ : BufTy).Contents (Elt Ideal))
    (i : Fin 100000) (m : Fin 64) (k : Fin 3) :
    val_main_v6 (F := Ideal) x0 x4 (ix3 i m k) = x0 (ix2 (nbr x4 i m) k) := by
  unfold val_main_v6
  rw [gatherC_apply]
  refine congrArg x0 (congrArg (fun r => ix2 r k) (Fin.ext ?_))
  show min (val_main_v5 (F := Ideal) x4 (ix3 i m 0)).toInt.toNat 99999 = rowOf 100000 100000#32 (x4 (ix2 i m))
  rw [v5_at]; rfl

/-- The gathered C6 coefficient of slot (i, m): the neighbour atom's. -/
theorem v23_at (x1 : (⟨S100000, .f32⟩ : BufTy).Contents (Elt Ideal)) (x4 : (⟨S100000x64, .i32⟩ : BufTy).Contents (Elt Ideal))
    (i : Fin 100000) (m : Fin 64) :
    val_main_v23 (F := Ideal) x1 x4 (ix2 i m) = x1 (ix1 (nbr x4 i m)) := by
  unfold val_main_v23
  rw [gatherN_apply]
  refine congrArg x1 (congrArg ix1 (Fin.ext ?_))
  show min (val_main_v22 (F := Ideal) x4 (ix3 i m 0)).toInt.toNat 99999 = rowOf 100000 100000#32 (x4 (ix2 i m))
  rw [v22_at]; rfl

/-- The gathered polarisability of slot (i, m): the neighbour atom's. -/
theorem v32_at (x2 : (⟨S100000, .f32⟩ : BufTy).Contents (Elt Ideal)) (x4 : (⟨S100000x64, .i32⟩ : BufTy).Contents (Elt Ideal))
    (i : Fin 100000) (m : Fin 64) :
    val_main_v32 (F := Ideal) x2 x4 (ix2 i m) = x2 (ix1 (nbr x4 i m)) := by
  unfold val_main_v32
  rw [gatherN_apply]
  refine congrArg x2 (congrArg ix1 (Fin.ext ?_))
  show min (val_main_v31 (F := Ideal) x4 (ix3 i m 0)).toInt.toNat 99999 = rowOf 100000 100000#32 (x4 (ix2 i m))
  rw [v31_at]; rfl

/-- The radius ratio of atom i: the table at its atomic number. -/
theorem v54_at (x3 : (⟨S119, .f32⟩ : BufTy).Contents (Elt Ideal)) (x5 : (⟨S100000, .i32⟩ : BufTy).Contents (Elt Ideal))
    (i : Fin 100000) :
    val_main_v54 (F := Ideal) x3 x5 (ix1 i) = rr x3 x5 i := by
  unfold val_main_v54 rr
  rw [gatherT_apply]
  refine congrArg x3 (congrArg ix1 (Fin.ext ?_))
  show min (val_main_v53 (F := Ideal) x5 (ix2 i 0)).toInt.toNat 118 = rowOf 119 119#32 (x5 (ix1 i))
  rw [v53_at]; rfl

/-- The gathered radius ratio of slot (i, m): the neighbour atom's. -/
theorem v64_at (x3 : (⟨S119, .f32⟩ : BufTy).Contents (Elt Ideal)) (x4 : (⟨S100000x64, .i32⟩ : BufTy).Contents (Elt Ideal))
    (x5 : (⟨S100000, .i32⟩ : BufTy).Contents (Elt Ideal)) (i : Fin 100000) (m : Fin 64) :
    val_main_v64 (F := Ideal) x3 x4 x5 (ix2 i m) = rr x3 x5 (nbr x4 i m) := by
  unfold val_main_v64
  rw [gatherN_apply, ← v54_at]
  refine congrArg (val_main_v54 (F := Ideal) x3 x5) (congrArg ix1 (Fin.ext ?_))
  show min (val_main_v63 (F := Ideal) x4 (ix3 i m 0)).toInt.toNat 99999 = rowOf 100000 100000#32 (x4 (ix2 i m))
  rw [v63_at]; rfl

end Cert.RefSide

end
-- ==== Proof.RefDist.lean ====
/-
  The reference's scaled distance of a slot, and the index maps of its broadcasts at a slot.
-/
import proofs.«180775_j47991964566172_2_alg».proof.Proof.Gen.ReferenceIdeal.Read
import proofs.«180775_j47991964566172_2_alg».proof.Proof.Spec
import Idealize.ShloMosaic.Lib.ValueIdx
import Idealize.ShloMosaic.Lib.Pipeline.Value
import Idealize.ShloMosaic.PureOps.Ideal.Laws
import proofs.«180775_j47991964566172_2_alg».proof.Proof.RefVals

noncomputable section

namespace Cert.RefSide

open Cert.ReferenceIdeal Cert.ReferenceIdeal.Gen Cert.ReferenceIdeal.Read Idealize.ShloMosaic Idealize.ShloMosaic.ValueIdx
open Cert.Spec (nbr rr rowOf lit)

/-! ## The broadcasts' index maps at a slot -/

theorem idx8 (i : Fin 100000) (m : Fin 64) (k : Fin 3) : idx_main_v8 (ix3 i m k) = ix3 i (0 : Fin 1) k := by
  funext a; match a with | ⟨0, _⟩ => rfl | ⟨1, _⟩ => rfl | ⟨2, _⟩ => rfl
theorem idx7 (i : Fin 100000) (k : Fin 3) : idx_main_v7 (ix3 i (0 : Fin 1) k) = ix2 i k := by
  funext a; match a with | ⟨0, _⟩ => rfl | ⟨1, _⟩ => rfl
theorem idx11 (i : Fin 100000) (m : Fin 64) (k : Fin 3) : idx_main_v11 (ix2 i m) k = ix3 i m k := by
  funext a; match a with | ⟨0, _⟩ => rfl | ⟨1, _⟩ => rfl | ⟨2, _⟩ => rfl
theorem idx16 (i : Fin 100000) : idx_main_v16 (ix2 i (0 : Fin 1)) = ix1 i := by
  funext a; match a with | ⟨0, _⟩ => rfl
theorem idx25 (i : Fin 100000) : idx_main_v25 (ix2 i (0 : Fin 1)) = ix1 i := by
  funext a; match a with | ⟨0, _⟩ => rfl
theorem idx55 (i : Fin 100000) : idx_main_v55 (ix2 i (0 : Fin 1)) = ix1 i := by
  funext a; match a with | ⟨0, _⟩ => rfl
theorem idx36 (i : Fin 100000) (m : Fin 64) : idx_main_v36 (ix2 i m) = ix2 i (0 : Fin 1) := by
  funext a; match a with | ⟨0, _⟩ => rfl | ⟨1, _⟩ => rfl
theorem idx38 (i : Fin 100000) (m : Fin 64) : idx_main_v38 (ix2 i m) = ix2 i (0 : Fin 1) := by
  funext a; match a with | ⟨0, _⟩ => rfl | ⟨1, _⟩ => rfl
theorem idx40 (i : Fin 100000) (m : Fin 64) : idx_main_v40 (ix2 i m) = ix2 i (0 : Fin 1) := by
  funext a; match a with | ⟨0, _⟩ => rfl | ⟨1, _⟩ => rfl
theorem idx42 (i : Fin 100000) (m : Fin 64) : idx_main_v42 (ix2 i m) = ix2 i (0 : Fin 1) := by
  funext a; match a with | ⟨0, _⟩ => rfl | ⟨1, _⟩ => rfl
theorem idx65 (i : Fin 100000) (m : Fin 64) : idx_main_v65 (ix2 i m) = ix2 i (0 : Fin 1) := by
  funext a; match a with | ⟨0, _⟩ => rfl | ⟨1, _⟩ => rfl

/-! ## The scaled distance -/

/-- The scaled distance of slot (i, m): the root of the squared distance to the neighbour (1 where padded), in Bohr. -/
def dist (x0 : (⟨S100000x3, .f32⟩ : BufTy).Contents (Elt Ideal)) (x4 : (⟨S100000x64, .i32⟩ : BufTy).Contents (Elt Ideal)) (x6 : (⟨S100000x64, .i1⟩ : BufTy).Contents (Elt Ideal)) (i : Fin 100000) (m : Fin 64) : EReal :=
  Ideal.sqrt (Scalar.select (x6 (ix2 i m)) (lit 0x3F800000#32)
    ((x0 (ix2 (nbr x4 i m) 0) - x0 (ix2 i 0)) * (x0 (ix2 (nbr x4 i m) 0) - x0 (ix2 i 0))
      + (x0 (ix2 (nbr x4 i m) 1) - x0 (ix2 i 1)) * (x0 (ix2 (nbr x4 i m) 1) - x0 (ix2 i 1))
      + (x0 (ix2 (nbr x4 i m) 2) - x0 (ix2 i 2)) * (x0 (ix2 (nbr x4 i m) 2) - x0 (ix2 i 2)))) * lit 0x3FF1E237#32

/-- One squared coordinate difference. -/
theorem v10_at (x0 : (⟨S100000x3, .f32⟩ : BufTy).Contents (Elt Ideal)) (x4 : (⟨S100000x64, .i32⟩ : BufTy).Contents (Elt Ideal)) (i : Fin 100000) (m : Fin 64) (k : Fin 3) :
    val_main_v10 (F := Ideal) x0 x4 (ix3 i m k)
      = (x0 (ix2 (nbr x4 i m) k) - x0 (ix2 i k)) * (x0 (ix2 (nbr x4 i m) k) - x0 (ix2 i k)) := by
  rw [val_main_v10_apply, val_main_v9_apply, v6_at, val_main_v8_apply, idx8, val_main_v7_apply, idx7,
    Ideal.mulf_def, Ideal.subf_def]

/-- The squared distance: zero plus the three squared differences. -/
theorem v11_at (x0 : (⟨S100000x3, .f32⟩ : BufTy).Contents (Elt Ideal)) (x4 : (⟨S100000x64, .i32⟩ : BufTy).Contents (Elt Ideal)) (i : Fin 100000) (m : Fin 64) :
    val_main_v11 (F := Ideal) x0 x4 (ix2 i m)
      = (x0 (ix2 (nbr x4 i m) 0) - x0 (ix2 i 0)) * (x0 (ix2 (nbr x4 i m) 0) - x0 (ix2 i 0))
      + (x0 (ix2 (nbr x4 i m) 1) - x0 (ix2 i 1)) * (x0 (ix2 (nbr x4 i m) 1) - x0 (ix2 i 1))
      + (x0 (ix2 (nbr x4 i m) 2) - x0 (ix2 i 2)) * (x0 (ix2 (nbr x4 i m) 2) - x0 (ix2 i 2)) := by
  rw [val_main_v11_apply, val_main_cst_apply, Ideal.ofBits_def, Ideal.ofBits_zero_f32, zero_add, Fin.sum_univ_three,
    idx11, idx11, idx11, v10_at, v10_at, v10_at]

theorem v15_at (x0 : (⟨S100000x3, .f32⟩ : BufTy).Contents (Elt Ideal)) (x4 : (⟨S100000x64, .i32⟩ : BufTy).Contents (Elt Ideal)) (x6 : (⟨S100000x64, .i1⟩ : BufTy).Contents (Elt Ideal)) (i : Fin 100000) (m : Fin 64) :
    val_main_v15 (F := Ideal) x0 x4 x6 (ix2 i m) = dist x0 x4 x6 i m := by
  rw [val_main_v15_apply, val_main_v13_apply, val_main_v12_apply, v11_at, val_main_call0_v1_apply, val_main_call0_v0_apply,
    val_main_cst_1_apply, val_main_v14_apply, val_main_cst_2_apply, Ideal.mulf_def, Ideal.hostUnary_sqrt_def]
  rfl

end Cert.RefSide

end
-- ==== Proof.RefCoef.lean ====
/-
  The reference's combined C6 coefficient, combined radius ratio and Becke–Johnson radius of a slot.
-/
import proofs.«180775_j47991964566172_2_alg».proof.Proof.Gen.ReferenceIdeal.Read
import proofs.«180775_j47991964566172_2_alg».proof.Proof.Spec
import Idealize.ShloMosaic.Lib.ValueIdx
import Idealize.ShloMosaic.Lib.Pipeline.Value
import Idealize.ShloMosaic.PureOps.Ideal.Laws
import proofs.«180775_j47991964566172_2_alg».proof.Proof.RefDist

noncomputable section

namespace Cert.RefSide

open Cert.ReferenceIdeal Cert.ReferenceIdeal.Gen Cert.ReferenceIdeal.Read Idealize.ShloMosaic Idealize.ShloMosaic.ValueIdx
open Cert.Spec (nbr rr rowOf lit)

/-- The floored polarisability of atom i, as the reference clips it: the floor first. -/
theorem v24_at (x2 : (⟨S100000, .f32⟩ : BufTy).Contents (Elt Ideal)) (i : Fin 100000) :
    val_main_v24 (F := Ideal) x2 (ix1 i) = max (lit 0x358637BD#32) (x2 (ix1 i)) := by
  rw [val_main_v24_apply, val_main_call1_v1_apply, val_main_call1_v0_apply, val_main_cst_5_apply]
  rfl

/-- The floored polarisability of the neighbour of slot (i, m). -/
theorem v33_at (x2 : (⟨S100000, .f32⟩ : BufTy).Contents (Elt Ideal)) (x4 : (⟨S100000x64, .i32⟩ : BufTy).Contents (Elt Ideal)) (i : Fin 100000) (m : Fin 64) :
    val_main_v33 (F := Ideal) x2 x4 (ix2 i m) = max (lit 0x358637BD#32) (x2 (ix1 (nbr x4 i m))) := by
  rw [val_main_v33_apply, val_main_call2_v1_apply, val_main_call2_v0_apply, val_main_cst_8_apply, v32_at]
  rfl

/-- The C6 coefficient of atom i, broadcast along the slots. -/
theorem v16_at (x1 : (⟨S100000, .f32⟩ : BufTy).Contents (Elt Ideal)) (i : Fin 100000) :
    val_main_v16 (F := Ideal) x1 (ix2 i (0 : Fin 1)) = x1 (ix1 i) := by
  rw [val_main_v16_apply, idx16]

/-- The floored polarisability of atom i, broadcast along the slots. -/
theorem v25_at (x2 : (⟨S100000, .f32⟩ : BufTy).Contents (Elt Ideal)) (i : Fin 100000) :
    val_main_v25 (F := Ideal) x2 (ix2 i (0 : Fin 1)) = max (lit 0x358637BD#32) (x2 (ix1 i)) := by
  rw [val_main_v25_apply, idx25, v24_at]

/-- The numerator of the combined C6 coefficient. -/
theorem v37_at (x1 : (⟨S100000, .f32⟩ : BufTy).Contents (Elt Ideal)) (x4 : (⟨S100000x64, .i32⟩ : BufTy).Contents (Elt Ideal)) (i : Fin 100000) (m : Fin 64) :
    val_main_v37 (F := Ideal) x1 x4 (ix2 i m) = lit 0x40000000#32 * x1 (ix1 i) * x1 (ix1 (nbr x4 i m)) := by
  rw [val_main_v37_apply, val_main_v36_apply, idx36, val_main_v35_apply, val_main_v34_apply, val_main_cst_9_apply,
    v16_at, v23_at]
  rfl

/-- The denominator of the combined C6 coefficient, before its floor. -/
theorem v45_at (x1 : (⟨S100000, .f32⟩ : BufTy).Contents (Elt Ideal)) (x2 : (⟨S100000, .f32⟩ : BufTy).Contents (Elt Ideal)) (x4 : (⟨S100000x64, .i32⟩ : BufTy).Contents (Elt Ideal)) (i : Fin 100000) (m : Fin 64) :
    val_main_v45 (F := Ideal) x1 x2 x4 (ix2 i m)
      = Ideal.div (x1 (ix1 i) * max (lit 0x358637BD#32) (x2 (ix1 (nbr x4 i m)))) (max (lit 0x358637BD#32) (x2 (ix1 i)))
        + Ideal.div (x1 (ix1 (nbr x4 i m)) * max (lit 0x358637BD#32) (x2 (ix1 i)))
            (max (lit 0x358637BD#32) (x2 (ix1 (nbr x4 i m)))) := by
  rw [val_main_v45_apply, val_main_v41_apply, val_main_v44_apply, val_main_v39_apply, val_main_v43_apply,
    val_main_v38_apply, idx38, val_main_v40_apply, idx40, val_main_v42_apply, idx42, v16_at, v25_at, v33_at, v23_at]
  rfl

/-- The combined C6 coefficient of slot (i, m), in the reference's order of operands. -/
theorem v47_at (x1 : (⟨S100000, .f32⟩ : BufTy).Contents (Elt Ideal)) (x2 : (⟨S100000, .f32⟩ : BufTy).Contents (Elt Ideal)) (x4 : (⟨S100000x64, .i32⟩ : BufTy).Contents (Elt Ideal)) (i : Fin 100000) (m : Fin 64) :
    val_main_v47 (F := Ideal) x1 x2 x4 (ix2 i m)
      = Ideal.div (lit 0x40000000#32 * x1 (ix1 i) * x1 (ix1 (nbr x4 i m)))
          (max (lit 0x358637BD#32)
            (Ideal.div (x1 (ix1 i) * max (lit 0x358637BD#32) (x2 (ix1 (nbr x4 i m)))) (max (lit 0x358637BD#32) (x2 (ix1 i)))
              + Ideal.div (x1 (ix1 (nbr x4 i m)) * max (lit 0x358637BD#32) (x2 (ix1 i)))
                  (max (lit 0x358637BD#32) (x2 (ix1 (nbr x4 i m)))))) := by
  rw [val_main_v47_apply, val_main_v46_apply, val_main_call3_v1_apply, val_main_call3_v0_apply, val_main_cst_10_apply,
    v37_at, v45_at]
  rfl

/-- The combined radius ratio of slot (i, m). -/
theorem v66_at (x3 : (⟨S119, .f32⟩ : BufTy).Contents (Elt Ideal)) (x4 : (⟨S100000x64, .i32⟩ : BufTy).Contents (Elt Ideal)) (x5 : (⟨S100000, .i32⟩ : BufTy).Contents (Elt Ideal)) (i : Fin 100000) (m : Fin 64) :
    val_main_v66 (F := Ideal) x3 x4 x5 (ix2 i m) = lit 0x40400000#32 * rr x3 x5 i * rr x3 x5 (nbr x4 i m) := by
  rw [val_main_v66_apply, val_main_v65_apply, idx65, val_main_v57_apply, val_main_v56_apply, val_main_cst_13_apply,
    val_main_v55_apply, idx55, v54_at, v64_at]
  rfl

/-- The Becke–Johnson radius of slot (i, m). -/
theorem v71_at (x3 : (⟨S119, .f32⟩ : BufTy).Contents (Elt Ideal)) (x4 : (⟨S100000x64, .i32⟩ : BufTy).Contents (Elt Ideal)) (x5 : (⟨S100000, .i32⟩ : BufTy).Contents (Elt Ideal)) (i : Fin 100000) (m : Fin 64) :
    val_main_v71 (F := Ideal) x3 x4 x5 (ix2 i m)
      = lit 0x3F07A787#32 * Ideal.sqrt (lit 0x40400000#32 * rr x3 x5 i * rr x3 x5 (nbr x4 i m)) + lit 0x40933333#32 := by
  rw [val_main_v71_apply, val_main_v69_apply, val_main_v67_apply, v66_at, val_main_v68_apply, val_main_cst_16_apply,
    val_main_v70_apply, val_main_cst_17_apply]
  rfl

end Cert.RefSide

end
-- ==== Proof.RefIsSpec.lean ====
/-
  The reference is the specified energy: its pair term at a slot is the slot's pair energy, up to the order of the
  operands of three maxima and two products, and its total sum is the double sum over atoms and slots.
-/
import proofs.«180775_j47991964566172_2_alg».proof.Proof.Gen.ReferenceIdeal.Read
import proofs.«180775_j47991964566172_2_alg».proof.Proof.Spec
import Idealize.ShloMosaic.Lib.ValueIdx
import Idealize.ShloMosaic.Lib.Pipeline.Value
import Idealize.ShloMosaic.PureOps.Ideal.Laws
import proofs.«180775_j47991964566172_2_alg».proof.Proof.RefCoef

noncomputable section

namespace Cert.RefSide

open Cert.ReferenceIdeal Cert.ReferenceIdeal.Gen Cert.ReferenceIdeal.Read Idealize.ShloMosaic Idealize.ShloMosaic.ValueIdx
open Cert.Spec (nbr rr rowOf lit)

/-- The Becke–Johnson radius of slot (i, m). -/
def r0 (x3 : (⟨S119, .f32⟩ : BufTy).Contents (Elt Ideal)) (x4 : (⟨S100000x64, .i32⟩ : BufTy).Contents (Elt Ideal)) (x5 : (⟨S100000, .i32⟩ : BufTy).Contents (Elt Ideal)) (i : Fin 100000) (m : Fin 64) : EReal :=
  lit 0x3F07A787#32 * Ideal.sqrt (lit 0x40400000#32 * rr x3 x5 i * rr x3 x5 (nbr x4 i m)) + lit 0x40933333#32

/-- The two damped terms of slot (i, m), in the reference's order of operands: the sixth powers are the square
    times the fourth power. -/
theorem v91_at (x0 : (⟨S100000x3, .f32⟩ : BufTy).Contents (Elt Ideal)) (x3 : (⟨S119, .f32⟩ : BufTy).Contents (Elt Ideal)) (x4 : (⟨S100000x64, .i32⟩ : BufTy).Contents (Elt Ideal)) (x5 : (⟨S100000, .i32⟩ : BufTy).Contents (Elt Ideal)) (x6 : (⟨S100000x64, .i1⟩ : BufTy).Contents (Elt Ideal)) (i : Fin 100000) (m : Fin 64) :
    val_main_v91 (F := Ideal) x0 x3 x4 x5 x6 (ix2 i m)
      = Ideal.div (lit 0x3F800000#32)
          (dist x0 x4 x6 i m * dist x0 x4 x6 i m
              * (dist x0 x4 x6 i m * dist x0 x4 x6 i m * (dist x0 x4 x6 i m * dist x0 x4 x6 i m))
            + r0 x3 x4 x5 i m * r0 x3 x4 x5 i m
              * (r0 x3 x4 x5 i m * r0 x3 x4 x5 i m * (r0 x3 x4 x5 i m * r0 x3 x4 x5 i m)))
        + Ideal.div (lit 0x40000000#32 * (lit 0x40400000#32 * rr x3 x5 i * rr x3 x5 (nbr x4 i m)))
          (dist x0 x4 x6 i m * dist x0 x4 x6 i m * (dist x0 x4 x6 i m * dist x0 x4 x6 i m)
              * (dist x0 x4 x6 i m * dist x0 x4 x6 i m * (dist x0 x4 x6 i m * dist x0 x4 x6 i m))
            + r0 x3 x4 x5 i m * r0 x3 x4 x5 i m * (r0 x3 x4 x5 i m * r0 x3 x4 x5 i m)
              * (r0 x3 x4 x5 i m * r0 x3 x4 x5 i m * (r0 x3 x4 x5 i m * r0 x3 x4 x5 i m))) := by
  rw [val_main_v91_apply, val_main_v86_apply, val_main_v90_apply, val_main_v84_apply, val_main_v89_apply,
    val_main_v85_apply, val_main_cst_18_apply, val_main_v88_apply, val_main_v87_apply, val_main_cst_19_apply,
    val_main_v74_apply, val_main_v73_apply, val_main_v72_apply, val_main_v77_apply, val_main_v76_apply, val_main_v75_apply,
    val_main_v80_apply, val_main_v79_apply, val_main_v78_apply, val_main_v83_apply, val_main_v82_apply, val_main_v81_apply,
    v15_at, v71_at, v66_at]
  rfl

/-- The pair term in the reference's order of operands is the pair term in the specification's: three maxima and
    two products commute. -/
theorem pair_comm (two c6i c6j ai aj e one d r q : EReal) :
    Ideal.div (two * c6i * c6j)
        (max e (Ideal.div (c6i * max e aj) (max e ai) + Ideal.div (c6j * max e ai) (max e aj)))
      * (Ideal.div one (d * d * (d * d * (d * d)) + r * r * (r * r * (r * r))) + q)
    = Ideal.div (two * c6i * c6j)
        (max (Ideal.div (c6i * max aj e) (max ai e) + Ideal.div (c6j * max ai e) (max aj e)) e)
      * (Ideal.div one (d * d * (d * d) * (d * d) + r * r * (r * r) * (r * r)) + q) := by
  rw [max_comm e aj, max_comm e ai, max_comm e (_ + _), mul_comm (d * d) (d * d * (d * d)),
    mul_comm (r * r) (r * r * (r * r))]

/-- THE SLOT: the reference's pair term at slot (i, m) is the slot's pair energy. -/
theorem slot_eq (x0 : (⟨S100000x3, .f32⟩ : BufTy).Contents (Elt Ideal)) (x1 : (⟨S100000, .f32⟩ : BufTy).Contents (Elt Ideal)) (x2 : (⟨S100000, .f32⟩ : BufTy).Contents (Elt Ideal)) (x3 : (⟨S119, .f32⟩ : BufTy).Contents (Elt Ideal)) (x4 : (⟨S100000x64, .i32⟩ : BufTy).Contents (Elt Ideal)) (x5 : (⟨S100000, .i32⟩ : BufTy).Contents (Elt Ideal)) (x6 : (⟨S100000x64, .i1⟩ : BufTy).Contents (Elt Ideal)) (i : Fin 100000) (m : Fin 64) :
    val_main_v92 (F := Ideal) x0 x1 x2 x3 x4 x5 x6 (ix2 i m) = Cert.Spec.slotE x0 x1 x2 x3 x4 x5 x6 i m := by
  rw [val_main_v92_apply, v47_at, v91_at, Ideal.mulf_def]
  exact pair_comm _ _ _ _ _ _ _ _ _ _

/-- THE REFERENCE IS THE SPECIFIED ENERGY. -/
theorem ref_eq_spec (x0 : (⟨S100000x3, .f32⟩ : BufTy).Contents (Elt Ideal)) (x1 : (⟨S100000, .f32⟩ : BufTy).Contents (Elt Ideal)) (x2 : (⟨S100000, .f32⟩ : BufTy).Contents (Elt Ideal)) (x3 : (⟨S119, .f32⟩ : BufTy).Contents (Elt Ideal)) (x4 : (⟨S100000x64, .i32⟩ : BufTy).Contents (Elt Ideal)) (x5 : (⟨S100000, .i32⟩ : BufTy).Contents (Elt Ideal)) (x6 : (⟨S100000x64, .i1⟩ : BufTy).Contents (Elt Ideal)) :
    val_main_v94 (F := Ideal) x0 x1 x2 x3 x4 x5 x6 = fun _ => Cert.Spec.energy x0 x1 x2 x3 x4 x5 x6 := by
  funext j
  rw [val_main_v94_apply, val_main_cst_21_apply, val_main_v93_apply, val_main_cst_20_apply, Ideal.ofBits_def,
    Ideal.ofBits_def, Ideal.ofBits_zero_f32, zero_add, Ideal.mulf_def, sum_idx2]
  unfold Cert.Spec.energy
  refine congrArg (lit 0xC159B0E2#32 * ·) ?_
  exact Finset.sum_congr rfl fun a _ => Finset.sum_congr rfl fun c _ => slot_eq x0 x1 x2 x3 x4 x5 x6 a c

end Cert.RefSide

end
-- ==== Proof.lean ====
/-
  Two programs compute the D3BJ dispersion energy of 100000 atoms with 64 neighbour slots each: a pipelined
  kernel that packs six per-atom features into one table, gathers it once at the neighbour indices and accumulates
  the pair energies tile by tile (two cores, 25 tiles of 2000 atoms each, ten chunks of 200 atoms per tile), and a
  plain array program that gathers each feature separately and sums all 6.4 million pair energies at once.
  Over the extended reals both results are one number: a literal times the sum over atoms and slots of the pair
  energy (Proof/Spec.lean). The pair energies agree term by term: the kernel's is the
  specification's as written; the reference's differs by the order of the operands of three maxima and two products
  and by a zero added in front of the sum of the three squared differences; the totals agree because addition of extended reals is associative and commutative, so the
  kernel's grouping into lanes, rows, chunks, tiles and cores is a re-indexing of one finite sum. No finiteness of the
  inputs is used. The frames: each program terminates, faults nowhere and leaves its seven arguments unchanged.
-/
import proofs.«180775_j47991964566172_2_alg».proof.Defs
import proofs.«180775_j47991964566172_2_alg».proof.Proof.Gen.Kernel
import proofs.«180775_j47991964566172_2_alg».proof.Proof.Gen.KernelIdeal
import proofs.«180775_j47991964566172_2_alg».proof.Proof.Gen.ReferenceIdeal
import proofs.«180775_j47991964566172_2_alg».proof.Proof.Gen.Pre_finite_inputs
import proofs.«180775_j47991964566172_2_alg».proof.Proof.Gen.ReferenceIdeal.Run
import proofs.«180775_j47991964566172_2_alg».proof.Proof.Gen.ReferenceIdeal.Read
import proofs.«180775_j47991964566172_2_alg».proof.Proof.KernelFrame
import proofs.«180775_j47991964566172_2_alg».proof.Proof.KernelIdealFrame
import proofs.«180775_j47991964566172_2_alg».proof.Proof.KernelIdealTotal
import proofs.«180775_j47991964566172_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the specification's energy of the (agreeing) arguments. -/
theorem algebraic : Cert.algebraic_KernelIdeal_ReferenceIdeal := by
  intro m ρ m' ρ' _ hagree
  refine ⟨fun c _ => Cert.Spec.energy (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun _ h c => ⟨(h c).1.trans (Cert.KernelIdeal.Hand.kernel_energy m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v94_eq, Cert.RefSide.ref_eq_spec, (hagree c).1, (hagree c).2.1, (hagree c).2.2.1,
      (hagree c).2.2.2.1, (hagree c).2.2.2.2.1, (hagree c).2.2.2.2.2.1, (hagree c).2.2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
